-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S3x128x64 : Shape := ⟨3, ![3, 128, 64]⟩
abbrev S3x64x64 : Shape := ⟨3, ![3, 64, 64]⟩
abbrev S64x128 : Shape := ⟨2, ![64, 128]⟩
abbrev S128 : Shape := ⟨1, ![128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_v63 : IVec S_ 1) (main_v65 : IVec S2x800000 1) (main_v67 : IVec S2x800000 1) : IVec S_ 1 :=
  let main_v68 : IVec S2x800000 1 := andi main_v65 main_v67
  let main_c_26 : IVec S_ 1 := constantI S_ 1 1#1
  let main_v69 : IVec S_ 1 := (fun x v => Host.reduce IntOp.andi x v reducesTo_S2x800000_S_d0_1 h_S_) main_v68 main_c_26
  let main_v70 : IVec S_ 1 := andi main_v63 main_v69
  main_v70

def fn_part3 {F : FTy → Type} [FloatOps F] (main_arg1 : IVec S2x800000 32) (main_arg12 : FVec F S64x128 .f32) (main_arg13 : FVec F S128 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg1 main_v64
  let main_c_25 : IVec S_ 32 := constantI S_ 32 50000#32
  let main_v66 : IVec S2x800000 32 := broadcastInDim S2x800000 ![] bcast_S_S2x800000 main_c_25
  let main_v67 : IVec S2x800000 1 := cmpi .slt main_arg1 main_v66
  fn_part4 (F := F) main_v63 main_v65 main_v67

def fn_part2 {F : FTy → Type} [FloatOps F] (main_arg1 : IVec S2x800000 32) (main_arg8 : FVec F S3x128x64 .f32) (main_arg9 : FVec F S3x64 .f32) (main_arg10 : FVec F S3x64x64 .f32) (main_arg11 : FVec F S3x64 .f32) (main_arg12 : FVec F S64x128 .f32) (main_arg13 : FVec F S128 .f32) (main_v33 : IVec S_ 1) : IVec S_ 1 :=
  let main_v34 : FVec F S3x128x64 .f32 := Host.absf main_arg8
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg10
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg1 main_arg12 main_arg13 main_v48 main_v49 main_v50

def fn_part1 {F : FTy → Type} [FloatOps F] (main_arg1 : IVec S2x800000 32) (main_arg5 : FVec F S3x64 .f32) (main_arg6 : FVec F S3x64x64 .f32) (main_arg7 : FVec F S3x64 .f32) (main_arg8 : FVec F S3x128x64 .f32) (main_arg9 : FVec F S3x64 .f32) (main_arg10 : FVec F S3x64x64 .f32) (main_arg11 : FVec F S3x64 .f32) (main_arg12 : FVec F S64x128 .f32) (main_arg13 : FVec F S128 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x3 .f32) (main_arg1 : IVec S2x800000 32) (main_arg2 : FVec F S3x64 .f32) (main_arg3 : FVec F S64 .f32) (main_arg4 : FVec F S3x128x64 .f32) (main_arg5 : FVec F S3x64 .f32) (main_arg6 : FVec F S3x64x64 .f32) (main_arg7 : FVec F S3x64 .f32) (main_arg8 : FVec F S3x128x64 .f32) (main_arg9 : FVec F S3x64 .f32) (main_arg10 : FVec F S3x64x64 .f32) (main_arg11 : FVec F S3x64 .f32) (main_arg12 : FVec F S64x128 .f32) (main_arg13 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x128x64 .f32 := Host.absf main_arg4
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S3x128x64 : Shape := ⟨3, ![3, 128, 64]⟩
abbrev S3x64x64 : Shape := ⟨3, ![3, 64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x3 : Shape := ⟨2, ![5000, 3]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x128 : Shape := ⟨2, ![1, 128]⟩
abbrev S50000x128 : Shape := ⟨2, ![50000, 128]⟩
abbrev S5000x128 : Shape := ⟨2, ![5000, 128]⟩

abbrev nBuf : Space → Nat
  | .hbm => 250
  | .vmem => 78
  | .smem => 0
  | _ => 0

abbrev hbmTy0_0 (i : Nat) : BufTy := match i % 128 with
  | 0 => ⟨S50000x3, .f32⟩
  | 1 => ⟨S2x800000, .i32⟩
  | 2 => ⟨S3x64, .f32⟩
  | 3 => ⟨S64, .f32⟩
  | 4 => ⟨S3x128x64, .f32⟩
  | 5 => ⟨S3x64, .f32⟩
  | 6 => ⟨S3x64x64, .f32⟩
  | 7 => ⟨S3x64, .f32⟩
  | 8 => ⟨S3x128x64, .f32⟩
  | 9 => ⟨S3x64, .f32⟩
  | 10 => ⟨S3x64x64, .f32⟩
  | 11 => ⟨S3x64, .f32⟩
  | 12 => ⟨S64x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S1x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x64, .f32⟩
  | 62 => ⟨S800000x64, .i1⟩
  | 63 => ⟨S_, .f32⟩
  | 64 => ⟨S800000x64, .f32⟩
  | 65 => ⟨S800000x64, .f32⟩
  | 66 => ⟨S1x128x64, .f32⟩
  | 67 => ⟨S128x64, .f32⟩
  | 68 => ⟨S1x64, .f32⟩
  | 69 => ⟨S64, .f32⟩
  | 70 => ⟨S1x64x64, .f32⟩
  | 71 => ⟨S64x64, .f32⟩
  | 72 => ⟨S1x64, .f32⟩
  | 73 => ⟨S64, .f32⟩
  | 74 => ⟨S64x64, .f32⟩
  | 75 => ⟨S64x64, .f32⟩
  | 76 => ⟨S1x64, .f32⟩
  | 77 => ⟨S1x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S1x128x64, .f32⟩
  | 84 => ⟨S128x64, .f32⟩
  | 85 => ⟨S1x64, .f32⟩
  | 86 => ⟨S64, .f32⟩
  | 87 => ⟨S1x64x64, .f32⟩
  | 88 => ⟨S64x64, .f32⟩
  | 89 => ⟨S1x64, .f32⟩
  | 90 => ⟨S64, .f32⟩
  | 91 => ⟨S64x64, .f32⟩
  | 92 => ⟨S64x64, .f32⟩
  | 93 => ⟨S1x64, .f32⟩
  | 94 => ⟨S1x64, .f32⟩
  | 95 => ⟨S50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x64, .f32⟩
  | 115 => ⟨S800000x64, .i1⟩
  | 116 => ⟨S_, .f32⟩
  | 117 => ⟨S800000x64, .f32⟩
  | 118 => ⟨S800000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S1, .i32⟩
  | _ => ⟨S50000x3, .f32⟩

abbrev hbmTy0_1 (i : Nat) : BufTy := match i % 128 with
  | 0 => ⟨S_, .i32⟩
  | 1 => ⟨S800000x1, .i32⟩
  | 2 => ⟨S800000x1, .i1⟩
  | 3 => ⟨S1x1, .i32⟩
  | 4 => ⟨S800000x1, .i32⟩
  | 5 => ⟨S800000x1, .i1⟩
  | 6 => ⟨S800000x1, .i1⟩
  | 7 => ⟨S_, .i1⟩
  | 8 => ⟨S800000, .i1⟩
  | 9 => ⟨S800000x64, .f32⟩
  | 10 => ⟨S800000x64, .i1⟩
  | 11 => ⟨S_, .f32⟩
  | 12 => ⟨S800000x64, .f32⟩
  | 13 => ⟨S800000x64, .f32⟩
  | 14 => ⟨S1x128x64, .f32⟩
  | 15 => ⟨S128x64, .f32⟩
  | 16 => ⟨S1x64, .f32⟩
  | 17 => ⟨S64, .f32⟩
  | 18 => ⟨S1x64x64, .f32⟩
  | 19 => ⟨S64x64, .f32⟩
  | 20 => ⟨S1x64, .f32⟩
  | 21 => ⟨S64, .f32⟩
  | 22 => ⟨S64x64, .f32⟩
  | 23 => ⟨S64x64, .f32⟩
  | 24 => ⟨S1x64, .f32⟩
  | 25 => ⟨S1x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S1x128x64, .f32⟩
  | 32 => ⟨S128x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S64x64, .f32⟩
  | 40 => ⟨S64x64, .f32⟩
  | 41 => ⟨S1x64, .f32⟩
  | 42 => ⟨S1x64, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x64, .f32⟩
  | 86 => ⟨S800000x64, .i1⟩
  | 87 => ⟨S_, .f32⟩
  | 88 => ⟨S800000x64, .f32⟩
  | 89 => ⟨S800000x64, .f32⟩
  | 90 => ⟨S1x128x64, .f32⟩
  | 91 => ⟨S128x64, .f32⟩
  | 92 => ⟨S1x64, .f32⟩
  | 93 => ⟨S64, .f32⟩
  | 94 => ⟨S1x64x64, .f32⟩
  | 95 => ⟨S64x64, .f32⟩
  | 96 => ⟨S1x64, .f32⟩
  | 97 => ⟨S64, .f32⟩
  | 98 => ⟨S64x64, .f32⟩
  | 99 => ⟨S64x64, .f32⟩
  | 100 => ⟨S1x64, .f32⟩
  | 101 => ⟨S1x64, .f32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S1x128x64, .f32⟩
  | 108 => ⟨S128x64, .f32⟩
  | 109 => ⟨S1x64, .f32⟩
  | 110 => ⟨S64, .f32⟩
  | 111 => ⟨S1x64x64, .f32⟩
  | 112 => ⟨S64x64, .f32⟩
  | 113 => ⟨S1x64, .f32⟩
  | 114 => ⟨S64, .f32⟩
  | 115 => ⟨S64x64, .f32⟩
  | 116 => ⟨S64x64, .f32⟩
  | 117 => ⟨S1x64, .f32⟩
  | 118 => ⟨S1x64, .f32⟩
  | 119 => ⟨S50000x64, .f32⟩
  | 120 => ⟨S1x128, .f32⟩
  | 121 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64x64, .f32⟩
  | .local _ .vmem, ⟨34, _⟩ => ⟨S1x64, .f32⟩
  | .local _ .vmem, ⟨35, _⟩ => ⟨S64x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x64, .f32⟩
  | .local _ .vmem, ⟨55, _⟩ => ⟨S64x64, .f32⟩
  | .local _ .vmem, ⟨56, _⟩ => ⟨S1x64, .f32⟩
  | .local _ .vmem, ⟨57, _⟩ => ⟨S64x64, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S64x64, .f32⟩
  | .local _ .vmem, ⟨66, _⟩ => ⟨S64x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v37 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_cst_0 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_call4_c : Ref sig .tc := ⟨.hbm, 172, rfl⟩
abbrev main_call4_v0 : Ref sig .tc := ⟨.hbm, 173, rfl⟩
abbrev main_call4_v1 : Ref sig .tc := ⟨.hbm, 174, rfl⟩
abbrev main_call4_c_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_c_1 : Ref sig .tc := ⟨.hbm, 180, rfl⟩
abbrev main_call4_c_2 : Ref sig .tc := ⟨.hbm, 181, rfl⟩
abbrev main_call4_v6 : Ref sig .tc := ⟨.hbm, 182, rfl⟩
abbrev main_call4_v7 : Ref sig .tc := ⟨.hbm, 183, rfl⟩
abbrev main_call4_v8 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_c_3 : Ref sig .tc := ⟨.hbm, 188, rfl⟩
abbrev main_call4_v12 : Ref sig .tc := ⟨.hbm, 189, rfl⟩
abbrev main_call4_v13 : Ref sig .tc := ⟨.hbm, 190, rfl⟩
abbrev main_call4_v14 : Ref sig .tc := ⟨.hbm, 191, rfl⟩
abbrev main_call4_cst : Ref sig .tc := ⟨.hbm, 192, rfl⟩
abbrev main_call4_v15 : Ref sig .tc := ⟨.hbm, 193, rfl⟩
abbrev main_v68 : Ref sig .tc := ⟨.hbm, 194, rfl⟩
abbrev main_call5_c : Ref sig .tc := ⟨.hbm, 195, rfl⟩
abbrev main_call5_v0 : Ref sig .tc := ⟨.hbm, 196, rfl⟩
abbrev main_call5_v1 : Ref sig .tc := ⟨.hbm, 197, rfl⟩
abbrev main_call5_c_0 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_c_1 : Ref sig .tc := ⟨.hbm, 203, rfl⟩
abbrev main_call5_c_2 : Ref sig .tc := ⟨.hbm, 204, rfl⟩
abbrev main_call5_v6 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_call5_v11 : Ref sig .tc := ⟨.hbm, 210, rfl⟩
abbrev main_call5_c_3 : Ref sig .tc := ⟨.hbm, 211, rfl⟩
abbrev main_call5_v12 : Ref sig .tc := ⟨.hbm, 212, rfl⟩
abbrev main_call5_v13 : Ref sig .tc := ⟨.hbm, 213, rfl⟩
abbrev main_call5_v14 : Ref sig .tc := ⟨.hbm, 214, rfl⟩
abbrev main_call5_cst : Ref sig .tc := ⟨.hbm, 215, rfl⟩
abbrev main_call5_v15 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_cst_1 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev main_v100 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg7_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg7_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg3_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59
abbrev cc5_sem7_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem7_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem3_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  slices_S128x64_S64x64_0_0 : S128x64.Slices ![0, 0] S64x64
  slices_S128x64_S64x64_64_0 : S128x64.Slices ![64, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  dot_S5000x3_S3x64_S5000x64_1_0_0_1_n_n_wf : DotDims.WF S5000x3 S3x64 S5000x64 [1] [0] [0] [1] [] []
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S800000x64.size a
  hwx1_0 : ∀ i : grid1.Coords, EltTy.bits .f32 = 32 ∨ (Rect.block (s := S800000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S800000x64.size a
  hwx1_7 : ∀ i : grid1.Coords, EltTy.bits .f32 = 32 ∨ (Rect.block (s := S800000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S800000x64.size a
  hwx3_0 : ∀ i : grid3.Coords, EltTy.bits .f32 = 32 ∨ (Rect.block (s := S800000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S800000x64.size a
  hwx3_1 : ∀ i : grid3.Coords, EltTy.bits .f32 = 32 ∨ (Rect.block (s := S800000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S800000x64.size a
  hwx3_7 : ∀ i : grid3.Coords, EltTy.bits .f32 = 32 ∨ (Rect.block (s := S800000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S50000x64.size a
  hwx4_7 : ∀ i : grid4.Coords, EltTy.bits .f32 = 32 ∨ (Rect.block (s := S50000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S800000x64.size a
  hwx5_0 : ∀ i : grid5.Coords, EltTy.bits .f32 = 32 ∨ (Rect.block (s := S800000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S800000x64.size a
  hwx5_1 : ∀ i : grid5.Coords, EltTy.bits .f32 = 32 ∨ (Rect.block (s := S800000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S800000x64.size a
  hwx5_7 : ∀ i : grid5.Coords, EltTy.bits .f32 = 32 ∨ (Rect.block (s := S800000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S50000x64.size a
  hwx6_7 : ∀ i : grid6.Coords, EltTy.bits .f32 = 32 ∨ (Rect.block (s := S50000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v51) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v36) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v67) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v68) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v82) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v67) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v95) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v96) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v97) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v98) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v98) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v100) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S3x64 : Shape := ⟨2, ![3, 64]⟩
abbrev S64 : Shape := ⟨1, ![64]⟩
abbrev S3x128x64 : Shape := ⟨3, ![3, 128, 64]⟩
abbrev S3x64x64 : Shape := ⟨3, ![3, 64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S50000x128 : Shape := ⟨2, ![50000, 128]⟩
abbrev S1x128 : Shape := ⟨2, ![1, 128]⟩

abbrev nBuf : Space → Nat
  | .hbm => 221
  | .vmem => 0
  | .smem => 0
  | _ => 0

abbrev hbmTy0_0 (i : Nat) : BufTy := match i % 128 with
  | 0 => ⟨S50000x3, .f32⟩
  | 1 => ⟨S2x800000, .i32⟩
  | 2 => ⟨S3x64, .f32⟩
  | 3 => ⟨S64, .f32⟩
  | 4 => ⟨S3x128x64, .f32⟩
  | 5 => ⟨S3x64, .f32⟩
  | 6 => ⟨S3x64x64, .f32⟩
  | 7 => ⟨S3x64, .f32⟩
  | 8 => ⟨S3x128x64, .f32⟩
  | 9 => ⟨S3x64, .f32⟩
  | 10 => ⟨S3x64x64, .f32⟩
  | 11 => ⟨S3x64, .f32⟩
  | 12 => ⟨S64x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x64, .f32⟩
  | 19 => ⟨S1x64, .f32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x128, .f32⟩
  | 41 => ⟨S1x128x64, .f32⟩
  | 42 => ⟨S128x64, .f32⟩
  | 43 => ⟨S800000x64, .f32⟩
  | 44 => ⟨S1x64, .f32⟩
  | 45 => ⟨S64, .f32⟩
  | 46 => ⟨S1x64, .f32⟩
  | 47 => ⟨S800000x64, .f32⟩
  | 48 => ⟨S800000x64, .f32⟩
  | 49 => ⟨S_, .f32⟩
  | 50 => ⟨S800000x64, .f32⟩
  | 51 => ⟨S800000x64, .f32⟩
  | 52 => ⟨S1x64x64, .f32⟩
  | 53 => ⟨S64x64, .f32⟩
  | 54 => ⟨S800000x64, .f32⟩
  | 55 => ⟨S1x64, .f32⟩
  | 56 => ⟨S64, .f32⟩
  | 57 => ⟨S1x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x128, .f32⟩
  | 65 => ⟨S1x128x64, .f32⟩
  | 66 => ⟨S128x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x64x64, .f32⟩
  | 77 => ⟨S64x64, .f32⟩
  | 78 => ⟨S50000x64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x128, .f32⟩
  | 106 => ⟨S1x128x64, .f32⟩
  | 107 => ⟨S128x64, .f32⟩
  | 108 => ⟨S800000x64, .f32⟩
  | 109 => ⟨S1x64, .f32⟩
  | 110 => ⟨S64, .f32⟩
  | 111 => ⟨S1x64, .f32⟩
  | 112 => ⟨S800000x64, .f32⟩
  | 113 => ⟨S800000x64, .f32⟩
  | 114 => ⟨S_, .f32⟩
  | 115 => ⟨S800000x64, .f32⟩
  | 116 => ⟨S800000x64, .f32⟩
  | 117 => ⟨S1x64x64, .f32⟩
  | 118 => ⟨S64x64, .f32⟩
  | 119 => ⟨S800000x64, .f32⟩
  | 120 => ⟨S1x64, .f32⟩
  | 121 => ⟨S64, .f32⟩
  | 122 => ⟨S1x64, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x3, .f32⟩

abbrev hbmTy0_1 (i : Nat) : BufTy := match i % 128 with
  | 0 => ⟨S50000x64, .f32⟩
  | 1 => ⟨S50000x128, .f32⟩
  | 2 => ⟨S1x128x64, .f32⟩
  | 3 => ⟨S128x64, .f32⟩
  | 4 => ⟨S50000x64, .f32⟩
  | 5 => ⟨S1x64, .f32⟩
  | 6 => ⟨S64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S1x64x64, .f32⟩
  | 14 => ⟨S64x64, .f32⟩
  | 15 => ⟨S50000x64, .f32⟩
  | 16 => ⟨S1x64, .f32⟩
  | 17 => ⟨S64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x128, .f32⟩
  | 43 => ⟨S1x128x64, .f32⟩
  | 44 => ⟨S128x64, .f32⟩
  | 45 => ⟨S800000x64, .f32⟩
  | 46 => ⟨S1x64, .f32⟩
  | 47 => ⟨S64, .f32⟩
  | 48 => ⟨S1x64, .f32⟩
  | 49 => ⟨S800000x64, .f32⟩
  | 50 => ⟨S800000x64, .f32⟩
  | 51 => ⟨S_, .f32⟩
  | 52 => ⟨S800000x64, .f32⟩
  | 53 => ⟨S800000x64, .f32⟩
  | 54 => ⟨S1x64x64, .f32⟩
  | 55 => ⟨S64x64, .f32⟩
  | 56 => ⟨S800000x64, .f32⟩
  | 57 => ⟨S1x64, .f32⟩
  | 58 => ⟨S64, .f32⟩
  | 59 => ⟨S1x64, .f32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S50000x128, .f32⟩
  | 67 => ⟨S1x128x64, .f32⟩
  | 68 => ⟨S128x64, .f32⟩
  | 69 => ⟨S50000x64, .f32⟩
  | 70 => ⟨S1x64, .f32⟩
  | 71 => ⟨S64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S1x64x64, .f32⟩
  | 79 => ⟨S64x64, .f32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S50000x128, .f32⟩
  | 90 => ⟨S1x128, .f32⟩
  | 91 => ⟨S50000x128, .f32⟩
  | 92 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_cst : Ref sig .tc := ⟨.hbm, 84, rfl⟩
abbrev main_call2_v0 : Ref sig .tc := ⟨.hbm, 85, rfl⟩
abbrev main_v61 : Ref sig .tc := ⟨.hbm, 86, rfl⟩
abbrev main_c_3 : Ref sig .tc := ⟨.hbm, 87, rfl⟩
abbrev main_v62 : Ref sig .tc := ⟨.hbm, 88, rfl⟩
abbrev main_v63 : Ref sig .tc := ⟨.hbm, 89, rfl⟩
abbrev main_c_4 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_5 : Ref sig .tc := ⟨.hbm, 96, rfl⟩
abbrev main_v69 : Ref sig .tc := ⟨.hbm, 97, rfl⟩
abbrev main_v70 : Ref sig .tc := ⟨.hbm, 98, rfl⟩
abbrev main_c_6 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call3_cst : Ref sig .tc := ⟨.hbm, 114, rfl⟩
abbrev main_call3_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_7 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_call4_cst : Ref sig .tc := ⟨.hbm, 138, rfl⟩
abbrev main_call4_v0 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_call5_cst : Ref sig .tc := ⟨.hbm, 149, rfl⟩
abbrev main_call5_v0 : Ref sig .tc := ⟨.hbm, 150, rfl⟩
abbrev main_v115 : Ref sig .tc := ⟨.hbm, 151, rfl⟩
abbrev main_c_8 : Ref sig .tc := ⟨.hbm, 152, rfl⟩
abbrev main_v116 : Ref sig .tc := ⟨.hbm, 153, rfl⟩
abbrev main_v117 : Ref sig .tc := ⟨.hbm, 154, rfl⟩
abbrev main_c_9 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_10 : Ref sig .tc := ⟨.hbm, 161, rfl⟩
abbrev main_v123 : Ref sig .tc := ⟨.hbm, 162, rfl⟩
abbrev main_v124 : Ref sig .tc := ⟨.hbm, 163, rfl⟩
abbrev main_c_11 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call6_cst : Ref sig .tc := ⟨.hbm, 179, rfl⟩
abbrev main_call6_v0 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_12 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_call7_cst : Ref sig .tc := ⟨.hbm, 203, rfl⟩
abbrev main_call7_v0 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_call8_cst : Ref sig .tc := ⟨.hbm, 214, rfl⟩
abbrev main_call8_v0 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S3x64x64_S1x64x64_0_0_0 : S3x64x64.Slices ![0, 0, 0] S1x64x64
  shapeCasts_S1x64x64_S64x64 : S1x64x64.ShapeCasts S64x64
  bcast_S_S50000x64 : S_.BroadcastsInDim S50000x64 (![] : Fin 0 → Fin S50000x64.rank)
  concatenates_S50000x64_S50000x64_S50000x128_d1 : Shape.Concatenates [S50000x64, S50000x64] S50000x128 1
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x3_S3x64_S50000x64_1_0_0_1_n_n_wf : DotDims.WF S50000x3 S3x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []

variable [Facts₀]

def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Spec.lean ====
/-
  The layers of the graph network as functions on the extended reals, entry by entry.
  A matrix is a function of a row and a column index; a bias is a function of the column index.
    affine x w b       : (x · w) + b, row by row
    hidden x y wa wb b : max ((x · wa) + (y · wb) + b, 0) — the first layer of a two-input perceptron
                         (the concatenation [x, y] against the stacked weight [wa; wb])
    mlp2               : hidden followed by affine
    mlp2r              : mlp2 followed by max(·, 0)
  and the law that a contraction over a concatenated axis of extent a + b splits into the two parts.
-/
import Mathlib.Data.EReal.Basic
import Mathlib.Algebra.BigOperators.Fin

noncomputable section

open scoped BigOperators

namespace Gnn

variable {M K N P : ℕ}

/-- Entry (p, q) of x · w + b. -/
def affine (x : Fin M → Fin K → EReal) (w : Fin K → Fin N → EReal) (b : Fin N → EReal)
    (p : Fin M) (q : Fin N) : EReal :=
  (∑ k, x p k * w k q) + b q

/-- Entry (p, j) of max (x · wa + y · wb + b, 0). -/
def hidden (x y : Fin M → Fin K → EReal) (wa wb : Fin K → Fin N → EReal) (b : Fin N → EReal)
    (p : Fin M) (j : Fin N) : EReal :=
  max ((∑ k, x p k * wa k j) + (∑ k, y p k * wb k j) + b j) 0

/-- Entry (p, q) of max (x · wa + y · wb + b₁, 0) · w₂ + b₂. -/
def mlp2 (x y : Fin M → Fin K → EReal) (wa wb : Fin K → Fin N → EReal) (b₁ : Fin N → EReal)
    (w₂ : Fin N → Fin P → EReal) (b₂ : Fin P → EReal) (p : Fin M) (q : Fin P) : EReal :=
  affine (hidden x y wa wb b₁) w₂ b₂ p q

/-- Entry (p, q) of max (max (x · wa + y · wb + b₁, 0) · w₂ + b₂, 0). -/
def mlp2r (x y : Fin M → Fin K → EReal) (wa wb : Fin K → Fin N → EReal) (b₁ : Fin N → EReal)
    (w₂ : Fin N → Fin P → EReal) (b₂ : Fin P → EReal) (p : Fin M) (q : Fin P) : EReal :=
  max (mlp2 x y wa wb b₁ w₂ b₂ p q) 0

/-- A sum over an axis of extent a + b is the sum over its first a entries plus the sum over its last b:
    only commutativity and associativity of addition are used, so it holds with infinite terms too. -/
theorem sum_split {a b : ℕ} (f : Fin (a + b) → EReal) :
    ∑ k, f k = (∑ k : Fin a, f (Fin.castAdd b k)) + ∑ k : Fin b, f (Fin.natAdd a k) :=
  Fin.sum_univ_add f

end Gnn

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«126528_j60619168416173_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibColumns.lean ====
/-
  Keep-dims columns and bias rows read at an index, at any element type.
  A vector [a] laid out as a column [a, 1] — by a shape cast (a kernel's `keepdims` reduction) or by the host's
  `broadcast_in_dim` along axis 0 — reads, at (p, u), the vector at p.  A column [a, 1] broadcast by the host to
  [a, b] along axes (0, 1) reads, at (p, q), the column at (p, 0).  A vector [n] laid out as a row [1, n] by the host's
  `broadcast_in_dim` along axis 1 reads, at (u, k), the vector at k — the same array as the shape cast [n] → [1, n].
  (The row forms [1, b] → [a, b] are the library's; the column broadcast [a, 1] → [a, b] of a kernel is
  LibBroadcast2's.)
-/
import Idealize.ShloMosaic.Lib.Pipeline.Value
import Idealize.ShloMosaic.Lib.ValueIdx
import Idealize.ShloMosaic.Lib.ValueLayout

noncomputable section

namespace LibColumns

open Idealize.ShloMosaic Idealize.ShloMosaic.ValueIdx

variable {α : Type}

/-- An [a] vector cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a] vector broadcast by the host along axis 0 to a column [a, 1] reads, at (p, u), the vector at p. -/
theorem broadcastInDim_a_a1_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column [a, 1] broadcast by the host along axes (0, 1) to [a, b] reads, at (p, q), the column at (p, 0). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- An [n] vector broadcast by the host along axis 1 to a row [1, n] reads, at (u, k), the vector at k. -/
theorem broadcastInDim_n_1n_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun ax => ?_
  match ax with
  | ⟨0, _⟩ =>
    show k.val = if n = 1 then 0 else k.val
    split
    · have := k.isLt; omega
    · rfl

/-- The host's row of a vector is the vector's cast to one row. -/
theorem broadcastInDim_row_eq_shapeCast {n : ℕ} (h : (⟨1, ![n]⟩ : Shape).BroadcastsInDim ⟨2, ![1, n]⟩ ![1])
    (hc : (⟨1, ![n]⟩ : Shape).ShapeCasts ⟨2, ![1, n]⟩) (v : (⟨1, ![n]⟩ : Shape).Idx → α) :
    broadcastInDim ⟨2, ![1, n]⟩ ![1] h v = shapeCast ⟨2, ![1, n]⟩ v hc := by
  funext j
  obtain ⟨u, k, rfl⟩ : ∃ (u : Fin 1) (k : Fin n), j = ix2 u k := ⟨j 0, j 1, eq_ix2 j⟩
  rw [broadcastInDim_n_1n_apply, shapeCast_a_1a_apply]

end LibColumns

end
-- ==== Proof.RefLayers.lean ====
/-
  The reference's four dense stages on the extended reals, entry by entry.
  Each stage is written once, over variables, as the chain of array operations the reference program applies
  (a contraction of axis 1 against axis 0, a bias laid out as one row and repeated down the rows, an entrywise sum,
  an entrywise maximum against the zero array, a join of two arrays along the column axis), and then read at an
  entry (p, q):
    refLin  x w b              : (x · w + b)[p, q]                                    — the input projection
    refMsg  hr hc W1 b1 W2 b2  : (max ([hr, hc] · W1 + b1, 0) · W2 + b2)[e, q]        — a layer's message stage
    refUpd  h agg W1 b1 W2 b2  : max (max ([h, agg] · W1 + b1, 0) · W2 + b2, 0)[p, q] — a layer's update stage
    refOut  h w b              : (h · w + b)[p, q]                                    — the output projection
  The contraction of the joined array [x, y] (64 + 64 columns) against the stacked weight W (128 rows) splits into
  the contraction of x against the first 64 rows of W plus that of y against the last 64: addition of extended reals
  is commutative and associative, so the split holds with infinite terms too.
-/
import proofs.«126528_j60619168416173_1_alg».proof.ReferenceIdeal
import proofs.«126528_j60619168416173_1_alg».proof.Proof.Spec
import proofs.«126528_j60619168416173_1_alg».proof.Proof.LibDotGeneralNN
import proofs.«126528_j60619168416173_1_alg».proof.Proof.LibColumns
import Idealize.ShloMosaic.Lib.Pipeline.Value
import Idealize.ShloMosaic.Lib.ValueIdx
import Idealize.ShloMosaic.PureOps.Ideal.Laws

noncomputable section

open scoped BigOperators

namespace Cert.ReferenceIdeal.Layers

open Cert.ReferenceIdeal Idealize.ShloMosaic Idealize.ShloMosaic.ValueIdx

variable [Cert.ReferenceIdeal.Facts]
open Cert.ReferenceIdeal.Facts₀ Cert.ReferenceIdeal.Facts

/-! ## The pieces, read at an entry -/

section Pieces

variable {α : Type}

/-- The host's `dot_general` of an [M, K] array by a [K, N] array (axis 1 against axis 0), at entry (p, q), is the
    sum over k of x[p, k] · w[k, q]: the dimension record is the plain one. -/
theorem dot_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (p : Fin M) (q : Fin N) :
    Host.dotGeneral (F := Ideal) d none x w (ix2 p q) = ∑ k : Fin K, x (ix2 p k) * w (ix2 k q) := by
  subst hd
  exact LibDotGeneralNN.dotGeneral_apply M K N none .single x w p q

/-- A bias [n] laid out as one row [1, n] and repeated down m rows reads, at (p, q), the bias at q. -/
theorem biasRows_apply {m n : ℕ} (h₁ : (⟨1, ![n]⟩ : Shape).BroadcastsInDim ⟨2, ![1, n]⟩ ![1])
    (h₂ : (⟨2, ![1, n]⟩ : Shape).BroadcastsInDim ⟨2, ![m, n]⟩ ![0, 1]) (b : (⟨1, ![n]⟩ : Shape).Idx → α)
    (p : Fin m) (q : Fin n) :
    broadcastInDim ⟨2, ![m, n]⟩ ![0, 1] h₂ (broadcastInDim ⟨2, ![1, n]⟩ ![1] h₁ b) (ix2 p q) = b (ix1 q) := by
  have e : broadcastInDim ⟨2, ![m, n]⟩ ![0, 1] h₂ (broadcastInDim ⟨2, ![1, n]⟩ ![1] h₁ b) (ix2 p q)
      = broadcastInDim ⟨2, ![1, n]⟩ ![1] h₁ b (ix2 (0 : Fin 1) q) := by
    refine broadcastInDim_apply ![0, 1] h₂ _ (ix2 p q) (ix2 (0 : Fin 1) q) fun ax => ?_
    match ax with
    | ⟨0, _⟩ =>
      show (0 : ℕ) = if (1 : ℕ) = 1 then 0 else p.val
      rw [if_pos rfl]
    | ⟨1, _⟩ =>
      show q.val = if n = 1 then 0 else q.val
      split
      · have := q.isLt; omega
      · rfl
  rw [e, LibColumns.broadcastInDim_n_1n_apply]

/-- The scalar constant +0.0 repeated over a whole array is 0 at every entry. -/
theorem zeros_apply {s : Shape} (h : S_.BroadcastsInDim s ![]) (i : s.Idx) :
    broadcastInDim s ![] h (constant (F := Ideal) S_ .f32 0x00000000#32) i = 0 := by
  have e := broadcastInDim_apply _ h (constant (F := Ideal) S_ .f32 0x00000000#32) i (fun a => a.elim0)
    (fun a => a.elim0)
  rw [e, constant_apply, Ideal.ofBits_zero_f32]

/-- Two arrays [m, a] and [m, b] joined along axis 1, read in the first a columns: the first array. -/
theorem concat_cols_left {m a b c : ℕ}
    (h : Shape.Concatenates [(⟨2, ![m, a]⟩ : Shape), ⟨2, ![m, b]⟩] ⟨2, ![m, c]⟩ 1)
    (x : (⟨2, ![m, a]⟩ : Shape).Idx → α) (y : (⟨2, ![m, b]⟩ : Shape).Idx → α) (p : Fin m) (k : Fin a) (k' : Fin c)
    (hk : k'.val = k.val) :
    concatenate ⟨2, ![m, c]⟩ 1 [⟨⟨2, ![m, a]⟩, x⟩, ⟨⟨2, ![m, b]⟩, y⟩] h (ix2 p k') = x (ix2 p k) := by
  refine concatenate_pair_apply_left 1 x y h (ix2 p k') rfl (ix2 p k) fun ax => ?_
  match ax with
  | ⟨0, _⟩ => rfl
  | ⟨1, _⟩ => exact hk.symm

/-- Two arrays [m, a] and [m, b] joined along axis 1, read in the last b columns: the second array. -/
theorem concat_cols_right {m a b c : ℕ}
    (h : Shape.Concatenates [(⟨2, ![m, a]⟩ : Shape), ⟨2, ![m, b]⟩] ⟨2, ![m, c]⟩ 1)
    (x : (⟨2, ![m, a]⟩ : Shape).Idx → α) (y : (⟨2, ![m, b]⟩ : Shape).Idx → α) (p : Fin m) (k : Fin b) (k' : Fin c)
    (hk : k'.val = a + k.val) :
    concatenate ⟨2, ![m, c]⟩ 1 [⟨⟨2, ![m, a]⟩, x⟩, ⟨⟨2, ![m, b]⟩, y⟩] h (ix2 p k') = y (ix2 p k) := by
  refine concatenate_pair_apply_right 1 x y h (ix2 p k') rfl rfl (ix2 p k) (fun ax hax => ?_) ?_
  · match ax with
    | ⟨0, _⟩ => rfl
    | ⟨1, _⟩ => exact absurd rfl hax
  · show k.val + a = k'.val
    omega

end Pieces

/-! ## The input projection: x · Win + bin -/

/-- The reference's input projection, as its program composes it. -/
def refLin (x : FVec Ideal S50000x3 .f32) (w : FVec Ideal S3x64 .f32) (b : FVec Ideal S64 .f32) :
    FVec Ideal S50000x64 .f32 :=
  addf (Host.dotGeneral dot_S50000x3_S3x64_S50000x64_1_0_0_1_n_n none x w)
    (broadcastInDim S50000x64 ![0, 1] bcast_S1x64_S50000x64_0_1 (broadcastInDim S1x64 ![1] bcast_S64_S1x64_1 b))

theorem refLin_apply (x : FVec Ideal S50000x3 .f32) (w : FVec Ideal S3x64 .f32) (b : FVec Ideal S64 .f32)
    (p : Fin 50000) (q : Fin 64) :
    refLin x w b (ix2 p q)
      = Gnn.affine (fun p k => x (ix2 p k)) (fun k q => w (ix2 k q)) (fun q => b (ix1 q)) p q := by
  unfold refLin Gnn.affine
  rw [addf_apply, dot_apply dot_S50000x3_S3x64_S50000x64_1_0_0_1_n_n rfl, biasRows_apply]

/-! ## The output projection: h · Wout + bout -/

/-- The reference's output projection, as its program composes it. -/
def refOut (h : FVec Ideal S50000x64 .f32) (w : FVec Ideal S64x128 .f32) (b : FVec Ideal S128 .f32) :
    FVec Ideal S50000x128 .f32 :=
  addf (Host.dotGeneral dot_S50000x64_S64x128_S50000x128_1_0_0_1_n_n none h w)
    (broadcastInDim S50000x128 ![0, 1] bcast_S1x128_S50000x128_0_1 (broadcastInDim S1x128 ![1] bcast_S128_S1x128_1 b))

theorem refOut_apply (h : FVec Ideal S50000x64 .f32) (w : FVec Ideal S64x128 .f32) (b : FVec Ideal S128 .f32)
    (p : Fin 50000) (q : Fin 128) :
    refOut h w b (ix2 p q)
      = Gnn.affine (fun p k => h (ix2 p k)) (fun k q => w (ix2 k q)) (fun q => b (ix1 q)) p q := by
  unfold refOut Gnn.affine
  rw [addf_apply, dot_apply dot_S50000x64_S64x128_S50000x128_1_0_0_1_n_n rfl, biasRows_apply]

/-! ## The first layer of a two-input perceptron: max ([x, y] · [Wa; Wb] + b, 0) -/

/-- The concatenation [x, y] (m rows, 64 + 64 columns) against the stacked weight W (128 rows), plus the bias row,
    clamped below at 0, at entry (p, j): the contraction over the joined axis splits into the part over x against
    the first 64 rows of W and the part over y against the last 64. -/
theorem hidden_apply {m : ℕ} (d : DotDims ⟨2, ![m, 128]⟩ ⟨2, ![128, 64]⟩ ⟨2, ![m, 64]⟩)
    (hd : d = DotDims.plain m 128 64)
    (hcat : Shape.Concatenates [(⟨2, ![m, 64]⟩ : Shape), ⟨2, ![m, 64]⟩] ⟨2, ![m, 128]⟩ 1)
    (h₁ : (⟨1, ![64]⟩ : Shape).BroadcastsInDim ⟨2, ![1, 64]⟩ ![1])
    (h₂ : (⟨2, ![1, 64]⟩ : Shape).BroadcastsInDim ⟨2, ![m, 64]⟩ ![0, 1])
    (h₀ : S_.BroadcastsInDim ⟨2, ![m, 64]⟩ ![])
    (x y : FVec Ideal ⟨2, ![m, 64]⟩ .f32) (W : FVec Ideal ⟨2, ![128, 64]⟩ .f32) (b : FVec Ideal ⟨1, ![64]⟩ .f32)
    (p : Fin m) (j : Fin 64) :
    maximumf
        (addf
          (Host.dotGeneral d none
            (concatenate ⟨2, ![m, 128]⟩ 1 [⟨⟨2, ![m, 64]⟩, x⟩, ⟨⟨2, ![m, 64]⟩, y⟩] hcat) W)
          (broadcastInDim ⟨2, ![m, 64]⟩ ![0, 1] h₂ (broadcastInDim ⟨2, ![1, 64]⟩ ![1] h₁ b)))
        (broadcastInDim ⟨2, ![m, 64]⟩ ![] h₀ (constant (F := Ideal) S_ .f32 0x00000000#32)) (ix2 p j)
      = Gnn.hidden (fun p k => x (ix2 p k)) (fun p k => y (ix2 p k))
          (fun k j => W (ix2 (Fin.castAdd 64 k) j)) (fun k j => W (ix2 (Fin.natAdd 64 k) j))
          (fun j => b (ix1 j)) p j := by
  unfold Gnn.hidden
  rw [maximumf_apply, addf_apply, dot_apply d hd, biasRows_apply, zeros_apply]
  refine congrArg (fun t => max (t + b (ix1 j)) 0) ?_
  refine (Gnn.sum_split (a := 64) (b := 64) _).trans ?_
  congr 1
  · refine Finset.sum_congr rfl fun k _ => ?_
    rw [concat_cols_left hcat x y p k (Fin.castAdd 64 k) rfl]
  · refine Finset.sum_congr rfl fun k _ => ?_
    rw [concat_cols_right hcat x y p k (Fin.natAdd 64 k) rfl]

/-! ## The message stage: max ([h_row, h_col] · W1 + b1, 0) · W2 + b2 -/

/-- The reference's message stage of one layer, as its program composes it; W1 b1 W2 b2 are the layer's slices. -/
def refMsg (hr hc : FVec Ideal S800000x64 .f32) (W1 : FVec Ideal S128x64 .f32) (b1 : FVec Ideal S64 .f32)
    (W2 : FVec Ideal S64x64 .f32) (b2 : FVec Ideal S64 .f32) : FVec Ideal S800000x64 .f32 :=
  addf
    (Host.dotGeneral dot_S800000x64_S64x64_S800000x64_1_0_0_1_n_n none
      (maximumf
        (addf
          (Host.dotGeneral dot_S800000x128_S128x64_S800000x64_1_0_0_1_n_n none
            (concatenate S800000x128 1 [⟨S800000x64, hr⟩, ⟨S800000x64, hc⟩]
              concatenates_S800000x64_S800000x64_S800000x128_d1)
            W1)
          (broadcastInDim S800000x64 ![0, 1] bcast_S1x64_S800000x64_0_1
            (broadcastInDim S1x64 ![1] bcast_S64_S1x64_1 b1)))
        (broadcastInDim S800000x64 ![] bcast_S_S800000x64 (constant (F := Ideal) S_ .f32 0x00000000#32)))
      W2)
    (broadcastInDim S800000x64 ![0, 1] bcast_S1x64_S800000x64_0_1 (broadcastInDim S1x64 ![1] bcast_S64_S1x64_1 b2))

theorem refMsg_apply (hr hc : FVec Ideal S800000x64 .f32) (W1 : FVec Ideal S128x64 .f32) (b1 : FVec Ideal S64 .f32)
    (W2 : FVec Ideal S64x64 .f32) (b2 : FVec Ideal S64 .f32) (e : Fin 800000) (q : Fin 64) :
    refMsg hr hc W1 b1 W2 b2 (ix2 e q)
      = Gnn.mlp2 (fun e k => hr (ix2 e k)) (fun e k => hc (ix2 e k))
          (fun k j => W1 (ix2 (Fin.castAdd 64 k) j)) (fun k j => W1 (ix2 (Fin.natAdd 64 k) j))
          (fun j => b1 (ix1 j)) (fun j q => W2 (ix2 j q)) (fun q => b2 (ix1 q)) e q := by
  unfold refMsg Gnn.mlp2 Gnn.affine
  rw [addf_apply, dot_apply dot_S800000x64_S64x64_S800000x64_1_0_0_1_n_n rfl, biasRows_apply]
  refine congrArg (fun t => t + b2 (ix1 q)) (Finset.sum_congr rfl fun j _ => ?_)
  rw [hidden_apply dot_S800000x128_S128x64_S800000x64_1_0_0_1_n_n rfl]

/-! ## The update stage: max (max ([h, agg] · U1 + c1, 0) · U2 + c2, 0) -/

/-- The reference's update stage of one layer, as its program composes it; W1 b1 W2 b2 are the layer's slices. -/
def refUpd (h agg : FVec Ideal S50000x64 .f32) (W1 : FVec Ideal S128x64 .f32) (b1 : FVec Ideal S64 .f32)
    (W2 : FVec Ideal S64x64 .f32) (b2 : FVec Ideal S64 .f32) : FVec Ideal S50000x64 .f32 :=
  maximumf
    (addf
      (Host.dotGeneral dot_S50000x64_S64x64_S50000x64_1_0_0_1_n_n none
        (maximumf
          (addf
            (Host.dotGeneral dot_S50000x128_S128x64_S50000x64_1_0_0_1_n_n none
              (concatenate S50000x128 1 [⟨S50000x64, h⟩, ⟨S50000x64, agg⟩]
                concatenates_S50000x64_S50000x64_S50000x128_d1)
              W1)
            (broadcastInDim S50000x64 ![0, 1] bcast_S1x64_S50000x64_0_1
              (broadcastInDim S1x64 ![1] bcast_S64_S1x64_1 b1)))
          (broadcastInDim S50000x64 ![] bcast_S_S50000x64 (constant (F := Ideal) S_ .f32 0x00000000#32)))
        W2)
      (broadcastInDim S50000x64 ![0, 1] bcast_S1x64_S50000x64_0_1 (broadcastInDim S1x64 ![1] bcast_S64_S1x64_1 b2)))
    (broadcastInDim S50000x64 ![] bcast_S_S50000x64 (constant (F := Ideal) S_ .f32 0x00000000#32))

theorem refUpd_apply (h agg : FVec Ideal S50000x64 .f32) (W1 : FVec Ideal S128x64 .f32) (b1 : FVec Ideal S64 .f32)
    (W2 : FVec Ideal S64x64 .f32) (b2 : FVec Ideal S64 .f32) (p : Fin 50000) (q : Fin 64) :
    refUpd h agg W1 b1 W2 b2 (ix2 p q)
      = Gnn.mlp2r (fun p k => h (ix2 p k)) (fun p k => agg (ix2 p k))
          (fun k j => W1 (ix2 (Fin.castAdd 64 k) j)) (fun k j => W1 (ix2 (Fin.natAdd 64 k) j))
          (fun j => b1 (ix1 j)) (fun j q => W2 (ix2 j q)) (fun q => b2 (ix1 q)) p q := by
  unfold refUpd Gnn.mlp2r Gnn.mlp2 Gnn.affine
  rw [maximumf_apply, zeros_apply, addf_apply, dot_apply dot_S50000x64_S64x64_S50000x64_1_0_0_1_n_n rfl,
    biasRows_apply]
  refine congrArg (fun t => max (t + b2 (ix1 q)) 0) (Finset.sum_congr rfl fun j _ => ?_)
  rw [hidden_apply dot_S50000x128_S128x64_S50000x64_1_0_0_1_n_n rfl]

end Cert.ReferenceIdeal.Layers

end
-- ==== Proof.IdxRange.lean ====
import proofs.«126528_j60619168416173_1_alg».proof.Defs
import Idealize.ShloMosaic.Lib.ReduceAll
import Idealize.ShloMosaic.Lib.ValueIdx

/-!
The integer input of the two programs is the edge list, a 2 × 800000 array of 32-bit words; each row names, per edge,
a node among 50000. The precondition's last conjunct says that every word, read as a signed integer, lies in
[0, 50000). Both programs gather the rows of a 50000 × 64 array at such a row of words. Each first adds 50000 to a
negative word (which never happens in range). The kernel's gather moreover replaces a row by a fill value wherever the
word lies outside [0, 49999] (which never happens in range either). So in range both are the plain gather at the words.

`InRange` is spelt with `BitVec.toInt`, the form in which a signed comparison word equal to one reads back.
-/

noncomputable section

namespace Cert.IdxRange

open Idealize.ShloMosaic Idealize.SL.Sem Idealize.ShloMosaic.ValueIdx

/-- Every entry of an array of 32-bit words, read as a signed integer, lies in [0, 50000). -/
def InRange {S : Shape} (a : IVec S 32) : Prop := ∀ i, 0 ≤ (a i).toInt ∧ (a i).toInt < 50000

/-- The three literals the comparisons meet, read signed. -/
theorem toInt_zero32 : (0#32 : BitVec 32).toInt = 0 := by decide
theorem toInt_50000 : (50000#32 : BitVec 32).toInt = 50000 := by decide
theorem toInt_49999 : (49999#32 : BitVec 32).toInt = 49999 := by decide

/-! ## Re-indexings keep the range -/

/-- A broadcast reads entries of its operand … -/
theorem InRange.broadcastInDim {S T : Shape} {a : IVec S 32} (ha : InRange a) (dims : Fin S.rank → Fin T.rank)
    (h : S.BroadcastsInDim T dims) : InRange (broadcastInDim T dims h a) := fun j => ha _

/-- … so does a slice … -/
theorem InRange.extractStridedSlice {S T : Shape} {a : IVec S 32} (ha : InRange a) (off : Fin S.rank → Nat)
    (h : S.Slices off T) : InRange (extractStridedSlice T off a h) := fun j => ha _

/-- … and a reshape. -/
theorem InRange.shapeCast {S T : Shape} {a : IVec S 32} (ha : InRange a) (h : S.ShapeCasts T) :
    InRange (shapeCast T a h) := fun j => ha _

/-! ## The wrap of a nonnegative index, and the in-bounds mask of an index in range -/

/-- "If the index is negative add n, else keep it" keeps an index in range: it is not negative. -/
theorem wrap_eq_gen {S : Shape} (r : IVec S 32) (hr : InRange r) (z n : IVec S 32) (hz : ∀ i, z i = 0#32) :
    select (cmpi .slt r z) (addi r n) r = r := by
  funext i
  have hn : ¬ IntOp.cmpi .slt (r i) (z i) = 1#1 := by
    rw [IntOp.cmpi_slt, hz i, toInt_zero32]; have := (hr i).1; omega
  show Scalar.select (IntOp.cmpi .slt (r i) (z i)) _ (r i) = r i
  rw [eq_zero_of_ne_one hn, select_zero]

/-- The bit "0 ≤ v and v ≤ 49999" is one at every entry of an array in range. -/
theorem mask_gen {S : Shape} (v : IVec S 32) (hv : InRange v) (z t : IVec S 32) (hz : ∀ i, z i = 0#32)
    (ht : ∀ i, t i = 49999#32) (i : S.Idx) : andi (cmpi .sge v z) (cmpi .sle v t) i = 1#1 := by
  show IntOp.andi (IntOp.cmpi .sge (v i) (z i)) (IntOp.cmpi .sle (v i) (t i)) = 1#1
  rw [hz i, ht i, IntOp.andi_eq_one, IntOp.cmpi_sge, IntOp.cmpi_sle, toInt_zero32, toInt_49999]
  have := hv i; omega

/-- A left fold by `and` over one-bit words that are all one, started at one, is one. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (by rw [h, hf a]; decide)

/-- A reduction by `and` of an array of ones from the initial value one is one at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_one x hx _ _ (hinit _)

/-! ## The precondition's last conjunct -/

section Pre
open Cert.Pre_finite_inputs Cert.Pre_finite_inputs.Facts

instance : Subsingleton Cert.Pre_finite_inputs.S_.Idx := ⟨fun a b => funext fun d => d.elim0⟩

/-- The precondition is a conjunction whose last conjunct is "all of (0 ≤ edge word) and (edge word < 50000)"; from the
    whole being one, that conjunct is one, so each of its entries is, and each entry's two comparisons read back signed. -/
theorem range_of_fn [Cert.Pre_finite_inputs.Facts]
    (a0 : FVec Ideal S50000x3 .f32) (a1 : IVec S2x800000 32) (a2 : FVec Ideal S3x64 .f32) (a3 : FVec Ideal S64 .f32)
    (a4 : FVec Ideal S3x128x64 .f32) (a5 : FVec Ideal S3x64 .f32) (a6 : FVec Ideal S3x64x64 .f32) (a7 : FVec Ideal S3x64 .f32)
    (a8 : FVec Ideal S3x128x64 .f32) (a9 : FVec Ideal S3x64 .f32) (a10 : FVec Ideal S3x64x64 .f32) (a11 : FVec Ideal S3x64 .f32)
    (a12 : FVec Ideal S64x128 .f32) (a13 : FVec Ideal S128 .f32)
    (e : fn (F := Ideal) a0 a1 a2 a3 a4 a5 a6 a7 a8 a9 a10 a11 a12 a13 = fun _ => 1#1) : InRange a1 := by
  intro i
  have e0 := congrFun e ix0
  dsimp only [fn, fn_part1, fn_part2, fn_part3, fn_part4] at e0
  have e1 := (IntOp.andi_eq_one.1 e0).2
  have e2 := Host.reduce_andi_all _ _ _ _ _ e1 i
  obtain ⟨hge, hlt⟩ := IntOp.andi_eq_one.1 e2
  have h0 := IntOp.cmpi_sge.1 hge
  have h1 := IntOp.cmpi_slt.1 hlt
  exact ⟨toInt_zero32 ▸ h0, toInt_50000 ▸ h1⟩

end Pre

/-- On every device the edge list the kernel starts from is in range. -/
theorem range_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (S := Cert.KernelIdeal.S2x800000) (m ((c.tc : Thread Cert.KernelIdeal.nD Cert.KernelIdeal.τ).loc Cert.KernelIdeal.main_arg1)) :=
  range_of_fn _ _ _ _ _ _ _ _ _ _ _ _ _ _ (h c)

/-! ## The kernel's row gather (its function `@_take`) -/

section Kernel
open Cert.KernelIdeal Cert.KernelIdeal.Facts₀
variable [Cert.KernelIdeal.Facts]

/-- A nonnegative index is not wrapped. -/
theorem wrap_eq (r : IVec S800000 32) (hr : InRange r) :
    select (cmpi .slt r (broadcastInDim S800000 ![] bcast_S_S800000 (constantI S_ 32 0#32)))
      (addi r (broadcastInDim S800000 ![] bcast_S_S800000 (constantI S_ 32 50000#32))) r = r :=
  wrap_eq_gen r hr _ _ (fun _ => rfl)

/-- The operations of `@_take` from its index argument to its result, one `let` each: the wrapped index as a column, the mask
    "0 ≤ index ≤ 49999" reduced along the column's unit axis, the gathered rows where the mask holds and the
    fill value elsewhere. -/
def kerTake (h : FVec Ideal S50000x64 .f32) (r : IVec S800000 32) : FVec Ideal S800000x64 .f32 :=
  let c : IVec S_ 32 := constantI S_ 32 0#32
  let v0 : IVec S800000 32 := broadcastInDim S800000 ![] bcast_S_S800000 c
  let v1 : IVec S800000 1 := cmpi .slt r v0
  let c_0 : IVec S_ 32 := constantI S_ 32 50000#32
  let v2 : IVec S800000 32 := broadcastInDim S800000 ![] bcast_S_S800000 c_0
  let v3 : IVec S800000 32 := addi r v2
  let v4 : IVec S800000 32 := select v1 v3 r
  let v5 : IVec S800000x1 32 := broadcastInDim S800000x1 ![0] bcast_S800000_S800000x1_0 v4
  let c_1 : IVec S1 32 := constantI S1 32 49999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := Host.reduce IntOp.andi v11 c_3 reducesTo_S800000x1_S800000_d1 h_S_
  let v13 : FVec Ideal S800000x64 .f32 := Host.gather gather_S50000x64_S800000x1_S800000x64_1_0_n_n_0_1_164 h v5
  let v14 : IVec S800000x64 1 := broadcastInDim S800000x64 ![0] bcast_S800000_S800000x64_0 v12
  let cst : FVec Ideal S_ .f32 := constant (F := Ideal) S_ .f32 0x7FC00000#32
  let v15 : FVec Ideal S800000x64 .f32 := broadcastInDim S800000x64 ![] bcast_S_S800000x64 cst
  select v14 v13 v15

/-- In range the mask is all ones, so the fill value is never selected, and the wrap is the identity. -/
theorem kerTake_eq (h : FVec Ideal S50000x64 .f32) (r : IVec S800000 32) (hr : InRange r) :
    kerTake h r = Host.gather gather_S50000x64_S800000x1_S800000x64_1_0_n_n_0_1_164 h
      (broadcastInDim S800000x1 ![0] bcast_S800000_S800000x1_0 r) := by
  unfold kerTake
  dsimp only
  rw [wrap_eq r hr]
  funext j
  rw [select_apply]
  have hm : ∀ k, Host.reduce IntOp.andi
      (andi (cmpi .sge (broadcastInDim S800000x1 ![0] bcast_S800000_S800000x1_0 r)
          (broadcastInDim S800000x1 ![] bcast_S_S800000x1 (constantI S_ 32 0#32)))
        (cmpi .sle (broadcastInDim S800000x1 ![0] bcast_S800000_S800000x1_0 r)
          (broadcastInDim S800000x1 ![0, 1] bcast_S1x1_S800000x1_0_1
            (broadcastInDim S1x1 ![1] bcast_S1_S1x1_1 (constantI S1 32 49999#32)))))
      (constantI S_ 1 1#1) reducesTo_S800000x1_S800000_d1 h_S_ k = 1#1 := fun k =>
    reduce_andi_of_all _ _ _ _
      (mask_gen _ (hr.broadcastInDim _ _) _ _ (fun _ => rfl) (fun _ => rfl)) (fun _ => rfl) k
  have hc : broadcastInDim S800000x64 ![0] bcast_S800000_S800000x64_0
      (Host.reduce IntOp.andi
        (andi (cmpi .sge (broadcastInDim S800000x1 ![0] bcast_S800000_S800000x1_0 r)
            (broadcastInDim S800000x1 ![] bcast_S_S800000x1 (constantI S_ 32 0#32)))
          (cmpi .sle (broadcastInDim S800000x1 ![0] bcast_S800000_S800000x1_0 r)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_) j = 1#1 := hm _
  rw [hc, select_one]

end Kernel

/-! ## The reference's row gather -/

section Reference
open Cert.ReferenceIdeal Cert.ReferenceIdeal.Facts₀
variable [Cert.ReferenceIdeal.Facts]

/-- The reference's gather of rows: the same wrap, then the gather, no mask. -/
def refTake (h : FVec Ideal S50000x64 .f32) (r : IVec S800000 32) : FVec Ideal S800000x64 .f32 :=
  Host.gather gather_S50000x64_S800000x1_S800000x64_1_0_n_n_0_1_164 h
    (broadcastInDim S800000x1 ![0] bcast_S800000_S800000x1_0
      (select (cmpi .slt r (broadcastInDim S800000 ![] bcast_S_S800000 (constantI S_ 32 0#32)))
        (addi r (broadcastInDim S800000 ![] bcast_S_S800000 (constantI S_ 32 50000#32))) r))

/-- A nonnegative index is not wrapped (the reference's spelling). -/
theorem wrap_eq_ref (r : IVec S800000 32) (hr : InRange r) :
    select (cmpi .slt r (broadcastInDim S800000 ![] bcast_S_S800000 (constantI S_ 32 0#32)))
      (addi r (broadcastInDim S800000 ![] bcast_S_S800000 (constantI S_ 32 50000#32))) r = r :=
  wrap_eq_gen r hr _ _ (fun _ => rfl)

/-- In range the wrap is the identity. -/
theorem refTake_eq (h : FVec Ideal S50000x64 .f32) (r : IVec S800000 32) (hr : InRange r) :
    refTake h r = Host.gather gather_S50000x64_S800000x1_S800000x64_1_0_n_n_0_1_164 h
      (broadcastInDim S800000x1 ![0] bcast_S800000_S800000x1_0 r) := by
  unfold refTake
  rw [wrap_eq_ref r hr]

end Reference

/-- The two programs' gather records carry the same dimension numbers (their well-formedness proofs are proofs of one
    proposition). -/
theorem gather_rec_eq [Cert.KernelIdeal.Facts] [Cert.ReferenceIdeal.Facts] :
    Cert.KernelIdeal.gather_S50000x64_S800000x1_S800000x64_1_0_n_n_0_1_164
      = Cert.ReferenceIdeal.gather_S50000x64_S800000x1_S800000x64_1_0_n_n_0_1_164 := rfl

/-- The two programs' broadcast of an index vector to a column is one function. -/
theorem bcast_col_eq [Cert.KernelIdeal.Facts] [Cert.ReferenceIdeal.Facts] (r : IVec Cert.KernelIdeal.S800000 32) :
    broadcastInDim Cert.KernelIdeal.S800000x1 ![0] Cert.KernelIdeal.Facts₀.bcast_S800000_S800000x1_0 r
      = broadcastInDim Cert.ReferenceIdeal.S800000x1 ![0] Cert.ReferenceIdeal.Facts₀.bcast_S800000_S800000x1_0 r := rfl

/-- In range the kernel's and the reference's row gathers agree. -/
theorem kerTake_eq_refTake [Cert.KernelIdeal.Facts] [Cert.ReferenceIdeal.Facts]
    (h : FVec Ideal Cert.KernelIdeal.S50000x64 .f32) (r : IVec Cert.KernelIdeal.S800000 32) (hr : InRange r) :
    kerTake h r = refTake h r := by
  rw [kerTake_eq h r hr, refTake_eq h r hr]; rfl

/-! ## The two rows of the edge list -/

/-- Row `k` of an edge list in range, entry by entry. -/
theorem inRange_row (a : IVec Cert.KernelIdeal.S2x800000 32) (ha : InRange a) (k : Fin 2) :
    ∀ e : Fin 800000, 0 ≤ (a (ix2 k e)).toInt ∧ (a (ix2 k e)).toInt < 50000 := fun e => ha _

/-- An index vector whose every entry is in range. -/
theorem inRange_of_forall (r : IVec Cert.KernelIdeal.S800000 32)
    (hr : ∀ e : Fin 800000, 0 ≤ (r (ix1 e)).toInt ∧ (r (ix1 e)).toInt < 50000) : InRange r := fun i => by
  rw [eq_ix1 i]; exact hr _

/-- A row of the edge list as the two programs cut it out (a one-row slice at `off`, then a reshape to a vector) is in
    range. -/
theorem inRange_edge_row (a : IVec Cert.KernelIdeal.S2x800000 32) (ha : InRange a)
    (off : Fin Cert.KernelIdeal.S2x800000.rank → Nat) (hs : Cert.KernelIdeal.S2x800000.Slices off Cert.KernelIdeal.S1x800000)
    (hc : Cert.KernelIdeal.S1x800000.ShapeCasts Cert.KernelIdeal.S800000) :
    InRange (shapeCast Cert.KernelIdeal.S800000 (extractStridedSlice Cert.KernelIdeal.S1x800000 off a hs) hc) :=
  (ha.extractStridedSlice off hs).shapeCast hc

end Cert.IdxRange
end
-- ==== Proof.RefNet.lean ====
/-
  The reference's network, composed from its dense stages, its row gathers and its scatter-add, as functions of the
  fourteen arguments. One layer: messages from the gathered rows of h, scatter-added from zero into the rows named by
  the second row of the edge list, then the update of h with the aggregate. The network: the input projection, three
  layers on the three slices of the stacked weights, the output projection.
-/
import proofs.«126528_j60619168416173_1_alg».proof.Proof.RefLayers
import proofs.«126528_j60619168416173_1_alg».proof.Proof.IdxRange

noncomputable section

namespace Cert.ReferenceIdeal.Net

open Idealize.ShloMosaic
open Cert.ReferenceIdeal Cert.ReferenceIdeal.Layers Cert.IdxRange
open Cert.ReferenceIdeal.Facts₀ Cert.ReferenceIdeal.Facts

variable [Cert.ReferenceIdeal.Facts]

/-- Row k of the edge list as a vector of 800000 node indices. -/
def edgeRow (off : Fin S2x800000.rank → Nat) (hs : S2x800000.Slices off S1x800000) (x1 : IVec S2x800000 32) : IVec S800000 32 :=
  shapeCast S800000 (extractStridedSlice S1x800000 off x1 hs) shapeCasts_S1x800000_S800000

/-- Slice l of a stacked 3 × 128 × 64 weight, as a 128 × 64 matrix. -/
def w128 (off : Fin S3x128x64.rank → Nat) (hs : S3x128x64.Slices off S1x128x64) (x : FVec Ideal S3x128x64 .f32) : FVec Ideal S128x64 .f32 :=
  shapeCast S128x64 (extractStridedSlice S1x128x64 off x hs) shapeCasts_S1x128x64_S128x64

/-- Slice l of a stacked 3 × 64 × 64 weight, as a 64 × 64 matrix. -/
def w64 (off : Fin S3x64x64.rank → Nat) (hs : S3x64x64.Slices off S1x64x64) (x : FVec Ideal S3x64x64 .f32) : FVec Ideal S64x64 .f32 :=
  shapeCast S64x64 (extractStridedSlice S1x64x64 off x hs) shapeCasts_S1x64x64_S64x64

/-- Row l of a stacked 3 × 64 bias, as a vector. -/
def b64 (off : Fin S3x64.rank → Nat) (hs : S3x64.Slices off S1x64) (x : FVec Ideal S3x64 .f32) : FVec Ideal S64 .f32 :=
  shapeCast S64 (extractStridedSlice S1x64 off x hs) shapeCasts_S1x64_S64

/-- The messages scatter-added, from zero, into the rows the index vector names. -/
def agg (cl : IVec S800000 32) (msg : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 cl) msg

/-- One layer of message passing. -/
def layer (h : FVec Ideal S50000x64 .f32) (r cl : IVec S800000 32)
    (W₁ : FVec Ideal S128x64 .f32) (b₁ : FVec Ideal S64 .f32) (W₂ : FVec Ideal S64x64 .f32) (b₂ : FVec Ideal S64 .f32)
    (U₁ : FVec Ideal S128x64 .f32) (c₁ : FVec Ideal S64 .f32) (U₂ : FVec Ideal S64x64 .f32) (c₂ : FVec Ideal S64 .f32) :
    FVec Ideal S50000x64 .f32 :=
  refUpd h (agg cl (refMsg (refTake h r) (refTake h cl) W₁ b₁ W₂ b₂)) U₁ c₁ U₂ c₂

variable (x0 : FVec Ideal S50000x3 .f32) (x1 : IVec S2x800000 32) (x2 : FVec Ideal S3x64 .f32) (x3 : FVec Ideal S64 .f32)
  (x4 : FVec Ideal S3x128x64 .f32) (x5 : FVec Ideal S3x64 .f32) (x6 : FVec Ideal S3x64x64 .f32) (x7 : FVec Ideal S3x64 .f32)
  (x8 : FVec Ideal S3x128x64 .f32) (x9 : FVec Ideal S3x64 .f32) (x10 : FVec Ideal S3x64x64 .f32) (x11 : FVec Ideal S3x64 .f32)
  (x12 : FVec Ideal S64x128 .f32) (x13 : FVec Ideal S128 .f32)

/-- The first row of the edge list (the source nodes) and the second (the destinations). -/
def row : IVec S800000 32 := edgeRow ![0, 0] slices_S2x800000_S1x800000_0_0 x1
def col : IVec S800000 32 := edgeRow ![1, 0] slices_S2x800000_S1x800000_1_0 x1

/-- The node features after the input projection and after each layer. -/
def h0 : FVec Ideal S50000x64 .f32 := refLin x0 x2 x3
def h1 : FVec Ideal S50000x64 .f32 :=
  layer (h0 x0 x2 x3) (row x1) (col x1)
    (w128 ![0, 0, 0] slices_S3x128x64_S1x128x64_0_0_0 x4) (b64 ![0, 0] slices_S3x64_S1x64_0_0 x5)
    (w64 ![0, 0, 0] slices_S3x64x64_S1x64x64_0_0_0 x6) (b64 ![0, 0] slices_S3x64_S1x64_0_0 x7)
    (w128 ![0, 0, 0] slices_S3x128x64_S1x128x64_0_0_0 x8) (b64 ![0, 0] slices_S3x64_S1x64_0_0 x9)
    (w64 ![0, 0, 0] slices_S3x64x64_S1x64x64_0_0_0 x10) (b64 ![0, 0] slices_S3x64_S1x64_0_0 x11)
def h2 : FVec Ideal S50000x64 .f32 :=
  layer (h1 x0 x1 x2 x3 x4 x5 x6 x7 x8 x9 x10 x11) (row x1) (col x1)
    (w128 ![1, 0, 0] slices_S3x128x64_S1x128x64_1_0_0 x4) (b64 ![1, 0] slices_S3x64_S1x64_1_0 x5)
    (w64 ![1, 0, 0] slices_S3x64x64_S1x64x64_1_0_0 x6) (b64 ![1, 0] slices_S3x64_S1x64_1_0 x7)
    (w128 ![1, 0, 0] slices_S3x128x64_S1x128x64_1_0_0 x8) (b64 ![1, 0] slices_S3x64_S1x64_1_0 x9)
    (w64 ![1, 0, 0] slices_S3x64x64_S1x64x64_1_0_0 x10) (b64 ![1, 0] slices_S3x64_S1x64_1_0 x11)
def h3 : FVec Ideal S50000x64 .f32 :=
  layer (h2 x0 x1 x2 x3 x4 x5 x6 x7 x8 x9 x10 x11) (row x1) (col x1)
    (w128 ![2, 0, 0] slices_S3x128x64_S1x128x64_2_0_0 x4) (b64 ![2, 0] slices_S3x64_S1x64_2_0 x5)
    (w64 ![2, 0, 0] slices_S3x64x64_S1x64x64_2_0_0 x6) (b64 ![2, 0] slices_S3x64_S1x64_2_0 x7)
    (w128 ![2, 0, 0] slices_S3x128x64_S1x128x64_2_0_0 x8) (b64 ![2, 0] slices_S3x64_S1x64_2_0 x9)
    (w64 ![2, 0, 0] slices_S3x64x64_S1x64x64_2_0_0 x10) (b64 ![2, 0] slices_S3x64_S1x64_2_0 x11)

/-- The network's result. -/
def out : FVec Ideal S50000x128 .f32 :=
  refOut (h3 x0 x1 x2 x3 x4 x5 x6 x7 x8 x9 x10 x11) x12 x13

end Cert.ReferenceIdeal.Net

end
-- ==== Proof.RefValue.lean ====
/-
  The reference's run with its result named. The reference is a straight line of 207 host operations: the two rows of the
  edge list and the input projection, three layers of 65 operations each, and the output projection. From any contents V
  of the buffers, each of these five stretches leaves in the buffer the next stretch starts from the named function of what
  V holds in the buffers it reads — the input projection, one layer of message passing on one slice of the stacked
  weights, the output projection — and leaves alone the edge rows and the weights that later stretches read. Folding the
  five, the result buffer ends at the network of the argument arrays; the argument buffers are written by no operation.
-/
import proofs.«126528_j60619168416173_1_alg».proof.Proof.RefRun
import proofs.«126528_j60619168416173_1_alg».proof.Proof.RefNet
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.Net Cert.ReferenceIdeal.Layers

/-- The fold of a line of operations over a concatenation is the fold of the second part over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (V : Valuation τ sig (Elt Ideal))

/-- The first row of the edge list. -/
theorem seg0_row : after (seg0 (F := Ideal)) V (Proc.devRef .tc main_v1) = row (V (Proc.devRef .tc main_arg1)) := by
  after_results_simp <;> rfl
/-- The second row of the edge list. -/
theorem seg0_col : after (seg0 (F := Ideal)) V (Proc.devRef .tc main_v3) = col (V (Proc.devRef .tc main_arg1)) := by
  after_results_simp <;> rfl
/-- The input projection. -/
theorem seg0_h : after (seg0 (F := Ideal)) V (Proc.devRef .tc main_v7) = h0 (V (Proc.devRef .tc main_arg0)) (V (Proc.devRef .tc main_arg2)) (V (Proc.devRef .tc main_arg3)) := by
  after_results_simp <;> rfl

/-- Layer 1: the node features after it are the layer of the node features before it, of the two rows of the edge
    list and of slice 0 of each stacked weight. -/
theorem layer1_h : after (seg1 (F := Ideal)) V (Proc.devRef .tc main_v61)
    = layer (V (Proc.devRef .tc main_v7)) (V (Proc.devRef .tc main_v1)) (V (Proc.devRef .tc main_v3))
        (w128 ![0, 0, 0] slices_S3x128x64_S1x128x64_0_0_0 (V (Proc.devRef .tc main_arg4))) (b64 ![0, 0] slices_S3x64_S1x64_0_0 (V (Proc.devRef .tc main_arg5)))
        (w64 ![0, 0, 0] slices_S3x64x64_S1x64x64_0_0_0 (V (Proc.devRef .tc main_arg6))) (b64 ![0, 0] slices_S3x64_S1x64_0_0 (V (Proc.devRef .tc main_arg7)))
        (w128 ![0, 0, 0] slices_S3x128x64_S1x128x64_0_0_0 (V (Proc.devRef .tc main_arg8))) (b64 ![0, 0] slices_S3x64_S1x64_0_0 (V (Proc.devRef .tc main_arg9)))
        (w64 ![0, 0, 0] slices_S3x64x64_S1x64x64_0_0_0 (V (Proc.devRef .tc main_arg10))) (b64 ![0, 0] slices_S3x64_S1x64_0_0 (V (Proc.devRef .tc main_arg11))) := by
  after_results_simp <;> rfl

/-- Layer 2: the node features after it are the layer of the node features before it, of the two rows of the edge
    list and of slice 1 of each stacked weight. -/
theorem layer2_h : after (seg2 (F := Ideal)) V (Proc.devRef .tc main_v115)
    = layer (V (Proc.devRef .tc main_v61)) (V (Proc.devRef .tc main_v1)) (V (Proc.devRef .tc main_v3))
        (w128 ![1, 0, 0] slices_S3x128x64_S1x128x64_1_0_0 (V (Proc.devRef .tc main_arg4))) (b64 ![1, 0] slices_S3x64_S1x64_1_0 (V (Proc.devRef .tc main_arg5)))
        (w64 ![1, 0, 0] slices_S3x64x64_S1x64x64_1_0_0 (V (Proc.devRef .tc main_arg6))) (b64 ![1, 0] slices_S3x64_S1x64_1_0 (V (Proc.devRef .tc main_arg7)))
        (w128 ![1, 0, 0] slices_S3x128x64_S1x128x64_1_0_0 (V (Proc.devRef .tc main_arg8))) (b64 ![1, 0] slices_S3x64_S1x64_1_0 (V (Proc.devRef .tc main_arg9)))
        (w64 ![1, 0, 0] slices_S3x64x64_S1x64x64_1_0_0 (V (Proc.devRef .tc main_arg10))) (b64 ![1, 0] slices_S3x64_S1x64_1_0 (V (Proc.devRef .tc main_arg11))) := by
  after_results_simp <;> rfl

/-- Layer 3: the node features after it are the layer of the node features before it, of the two rows of the edge
    list and of slice 2 of each stacked weight. -/
theorem layer3_h : after (seg3 (F := Ideal)) V (Proc.devRef .tc main_v169)
    = layer (V (Proc.devRef .tc main_v115)) (V (Proc.devRef .tc main_v1)) (V (Proc.devRef .tc main_v3))
        (w128 ![2, 0, 0] slices_S3x128x64_S1x128x64_2_0_0 (V (Proc.devRef .tc main_arg4))) (b64 ![2, 0] slices_S3x64_S1x64_2_0 (V (Proc.devRef .tc main_arg5)))
        (w64 ![2, 0, 0] slices_S3x64x64_S1x64x64_2_0_0 (V (Proc.devRef .tc main_arg6))) (b64 ![2, 0] slices_S3x64_S1x64_2_0 (V (Proc.devRef .tc main_arg7)))
        (w128 ![2, 0, 0] slices_S3x128x64_S1x128x64_2_0_0 (V (Proc.devRef .tc main_arg8))) (b64 ![2, 0] slices_S3x64_S1x64_2_0 (V (Proc.devRef .tc main_arg9)))
        (w64 ![2, 0, 0] slices_S3x64x64_S1x64x64_2_0_0 (V (Proc.devRef .tc main_arg10))) (b64 ![2, 0] slices_S3x64_S1x64_2_0 (V (Proc.devRef .tc main_arg11))) := by
  after_results_simp <;> rfl

/-- The output projection. -/
theorem seg4_out : after (seg4 (F := Ideal)) V (Proc.devRef .tc main_v173) = refOut (V (Proc.devRef .tc main_v169)) (V (Proc.devRef .tc main_arg12)) (V (Proc.devRef .tc main_arg13)) := by
  after_results_simp <;> rfl

/-! What each stretch leaves alone, of the buffers a later stretch reads. -/
theorem keep0_main_arg4 : after (seg0 (F := Ideal)) V (Proc.devRef .tc main_arg4) = V (Proc.devRef .tc main_arg4) := by
  after_results_simp
theorem keep0_main_arg5 : after (seg0 (F := Ideal)) V (Proc.devRef .tc main_arg5) = V (Proc.devRef .tc main_arg5) := by
  after_results_simp
theorem keep0_main_arg6 : after (seg0 (F := Ideal)) V (Proc.devRef .tc main_arg6) = V (Proc.devRef .tc main_arg6) := by
  after_results_simp
theorem keep0_main_arg7 : after (seg0 (F := Ideal)) V (Proc.devRef .tc main_arg7) = V (Proc.devRef .tc main_arg7) := by
  after_results_simp
theorem keep0_main_arg8 : after (seg0 (F := Ideal)) V (Proc.devRef .tc main_arg8) = V (Proc.devRef .tc main_arg8) := by
  after_results_simp
theorem keep0_main_arg9 : after (seg0 (F := Ideal)) V (Proc.devRef .tc main_arg9) = V (Proc.devRef .tc main_arg9) := by
  after_results_simp
theorem keep0_main_arg10 : after (seg0 (F := Ideal)) V (Proc.devRef .tc main_arg10) = V (Proc.devRef .tc main_arg10) := by
  after_results_simp
theorem keep0_main_arg11 : after (seg0 (F := Ideal)) V (Proc.devRef .tc main_arg11) = V (Proc.devRef .tc main_arg11) := by
  after_results_simp
theorem keep0_main_arg12 : after (seg0 (F := Ideal)) V (Proc.devRef .tc main_arg12) = V (Proc.devRef .tc main_arg12) := by
  after_results_simp
theorem keep0_main_arg13 : after (seg0 (F := Ideal)) V (Proc.devRef .tc main_arg13) = V (Proc.devRef .tc main_arg13) := by
  after_results_simp
theorem keep1_main_v1 : after (seg1 (F := Ideal)) V (Proc.devRef .tc main_v1) = V (Proc.devRef .tc main_v1) := by
  after_results_simp
theorem keep1_main_v3 : after (seg1 (F := Ideal)) V (Proc.devRef .tc main_v3) = V (Proc.devRef .tc main_v3) := by
  after_results_simp
theorem keep1_main_arg4 : after (seg1 (F := Ideal)) V (Proc.devRef .tc main_arg4) = V (Proc.devRef .tc main_arg4) := by
  after_results_simp
theorem keep1_main_arg5 : after (seg1 (F := Ideal)) V (Proc.devRef .tc main_arg5) = V (Proc.devRef .tc main_arg5) := by
  after_results_simp
theorem keep1_main_arg6 : after (seg1 (F := Ideal)) V (Proc.devRef .tc main_arg6) = V (Proc.devRef .tc main_arg6) := by
  after_results_simp
theorem keep1_main_arg7 : after (seg1 (F := Ideal)) V (Proc.devRef .tc main_arg7) = V (Proc.devRef .tc main_arg7) := by
  after_results_simp
theorem keep1_main_arg8 : after (seg1 (F := Ideal)) V (Proc.devRef .tc main_arg8) = V (Proc.devRef .tc main_arg8) := by
  after_results_simp
theorem keep1_main_arg9 : after (seg1 (F := Ideal)) V (Proc.devRef .tc main_arg9) = V (Proc.devRef .tc main_arg9) := by
  after_results_simp
theorem keep1_main_arg10 : after (seg1 (F := Ideal)) V (Proc.devRef .tc main_arg10) = V (Proc.devRef .tc main_arg10) := by
  after_results_simp
theorem keep1_main_arg11 : after (seg1 (F := Ideal)) V (Proc.devRef .tc main_arg11) = V (Proc.devRef .tc main_arg11) := by
  after_results_simp
theorem keep1_main_arg12 : after (seg1 (F := Ideal)) V (Proc.devRef .tc main_arg12) = V (Proc.devRef .tc main_arg12) := by
  after_results_simp
theorem keep1_main_arg13 : after (seg1 (F := Ideal)) V (Proc.devRef .tc main_arg13) = V (Proc.devRef .tc main_arg13) := by
  after_results_simp
theorem keep2_main_v1 : after (seg2 (F := Ideal)) V (Proc.devRef .tc main_v1) = V (Proc.devRef .tc main_v1) := by
  after_results_simp
theorem keep2_main_v3 : after (seg2 (F := Ideal)) V (Proc.devRef .tc main_v3) = V (Proc.devRef .tc main_v3) := by
  after_results_simp
theorem keep2_main_arg4 : after (seg2 (F := Ideal)) V (Proc.devRef .tc main_arg4) = V (Proc.devRef .tc main_arg4) := by
  after_results_simp
theorem keep2_main_arg5 : after (seg2 (F := Ideal)) V (Proc.devRef .tc main_arg5) = V (Proc.devRef .tc main_arg5) := by
  after_results_simp
theorem keep2_main_arg6 : after (seg2 (F := Ideal)) V (Proc.devRef .tc main_arg6) = V (Proc.devRef .tc main_arg6) := by
  after_results_simp
theorem keep2_main_arg7 : after (seg2 (F := Ideal)) V (Proc.devRef .tc main_arg7) = V (Proc.devRef .tc main_arg7) := by
  after_results_simp
theorem keep2_main_arg8 : after (seg2 (F := Ideal)) V (Proc.devRef .tc main_arg8) = V (Proc.devRef .tc main_arg8) := by
  after_results_simp
theorem keep2_main_arg9 : after (seg2 (F := Ideal)) V (Proc.devRef .tc main_arg9) = V (Proc.devRef .tc main_arg9) := by
  after_results_simp
theorem keep2_main_arg10 : after (seg2 (F := Ideal)) V (Proc.devRef .tc main_arg10) = V (Proc.devRef .tc main_arg10) := by
  after_results_simp
theorem keep2_main_arg11 : after (seg2 (F := Ideal)) V (Proc.devRef .tc main_arg11) = V (Proc.devRef .tc main_arg11) := by
  after_results_simp
theorem keep2_main_arg12 : after (seg2 (F := Ideal)) V (Proc.devRef .tc main_arg12) = V (Proc.devRef .tc main_arg12) := by
  after_results_simp
theorem keep2_main_arg13 : after (seg2 (F := Ideal)) V (Proc.devRef .tc main_arg13) = V (Proc.devRef .tc main_arg13) := by
  after_results_simp
theorem keep3_main_arg12 : after (seg3 (F := Ideal)) V (Proc.devRef .tc main_arg12) = V (Proc.devRef .tc main_arg12) := by
  after_results_simp
theorem keep3_main_arg13 : after (seg3 (F := Ideal)) V (Proc.devRef .tc main_arg13) = V (Proc.devRef .tc main_arg13) := by
  after_results_simp

/-- The result buffer after all 207 operations, from any launch contents L: the network of what L holds in the arguments. -/
theorem result (L : Valuation τ sig (Elt Ideal)) :
    after (ops (F := Ideal)) L (Proc.devRef .tc main_v173) = out (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) := by
  rw [ops_split, after_append, after_append, after_append, after_append]
  rw [seg4_out, layer3_h, keep3_main_arg12, keep3_main_arg13, layer2_h, keep2_main_v1, keep2_main_v3, keep2_main_arg4, keep2_main_arg5, keep2_main_arg6, keep2_main_arg7, keep2_main_arg8, keep2_main_arg9, keep2_main_arg10, keep2_main_arg11, keep2_main_arg12, keep2_main_arg13,
    layer1_h, keep1_main_v1, keep1_main_v3, keep1_main_arg4, keep1_main_arg5, keep1_main_arg6, keep1_main_arg7, keep1_main_arg8, keep1_main_arg9, keep1_main_arg10, keep1_main_arg11, keep1_main_arg12, keep1_main_arg13, seg0_h, seg0_row, seg0_col, keep0_main_arg4, keep0_main_arg5, keep0_main_arg6, keep0_main_arg7, keep0_main_arg8, keep0_main_arg9, keep0_main_arg10, keep0_main_arg11, keep0_main_arg12, keep0_main_arg13]
  rfl

set_option maxRecDepth 8192 in
set_option maxHeartbeats 4000000 in
/-- On every device, from any memory with zero counters: every weakly fair execution of the reference terminates with the
    result at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v173) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v173).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_after m ρ)

end Cert.ReferenceIdeal.RefValue

end
-- ==== Proof.KernelRun.lean ====
/-
  The idealized kernel's run with its result named. Every weakly fair execution of the program terminates,
  nothing faulting, the argument arrays end as launched, and the result array ends at the contents the
  fold of the program's twenty-two segments leaves there (host stretches applied to the contents before
  them; a dense stage's arrays at what its write-backs leave): the segments' run, its last thread state read
  against the final memory at the result's buffer as well as at the arguments'.
-/
import proofs.«126528_j60619168416173_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program, the result array read at the last boundary's contents. -/
theorem run_result : θ_run defs (onTc (τ := τ) (main (F := F))) ⟨m, fun _ => 0, ρ⟩ (fun r => ∀ c : Dev nD,
      r.2.mem ((c.tc : Thread nD τ).loc main_v100) = W22 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v100 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.KernelIdeal.Result

end
-- ==== Proof.KernelBodies.lean ====
/-
  The four kernel bodies of the graph network, each read at one entry on the extended reals.
  A body is a chain of pointwise operations around matrix products into a zero accumulator; on the
  extended reals a change of float format is the identity, a cast of a block to its own shape is the
  identity, a bias row broadcast down the rows reads the row, and the zero a body takes a maximum
  with is the extended real 0. So
    the linear body and the output projection are  x · w + b                          (Gnn.affine),
    the message body is  max (x · wa + y · wb + b₁, 0) · w₂ + b₂                       (Gnn.mlp2),
    the update body is   max (max (x · wa + y · wb + b₁, 0) · w₂ + b₂, 0)              (Gnn.mlp2r).
  Each is first shown for blocks of arbitrary extents and then read off at the kernel's extents.
-/
import proofs.«126528_j60619168416173_1_alg».proof.Proof.Gen.KernelIdeal.Skeleton
import proofs.«126528_j60619168416173_1_alg».proof.Proof.Spec
import proofs.«126528_j60619168416173_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Idealize.ShloMosaic Idealize.ShloMosaic.ValueIdx

/-! ## Blocks of arbitrary extents -/

section General

variable {M K N P : Nat}

/-- A bias row, cast to its own shape and broadcast down the rows, reads the row at the column. -/
theorem bias_apply (b : FVec Ideal ⟨2, ![1, N]⟩ .f32)
    (hc : (⟨2, ![1, N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix2 0 q) := by
  rw [shapeCast_self]
  exact broadcastTo_1b_ab_apply b hb p q

/-- The product of two blocks, each narrowed to the matrix unit's input format, into the zero block:
    entry (p, q) is the sum over k of x[p, k] · w[k, q]. -/
theorem prod_apply (h : FTy.bits .bf16 < FTy.bits .f32)
    (x : FVec Ideal ⟨2, ![M, K]⟩ .f32) (w : FVec Ideal ⟨2, ![K, N]⟩ .f32) (p : Fin M) (q : Fin N) :
    matmul (DotDims.plain M K N) none (truncf .bf16 x h) (truncf .bf16 w h)
        (constant (F := Ideal) ⟨2, ![M, N]⟩ .f32 0x00000000#32) (ix2 p q)
      = ∑ k : Fin K, x (ix2 p k) * w (ix2 k q) :=
  LibMatmulNN.matmul_zero_apply M K N none (truncf .bf16 x h) (truncf .bf16 w h) p q

/-- x · w + b at an entry. -/
theorem affine_body (h : FTy.bits .bf16 < FTy.bits .f32)
    (hc : (⟨2, ![1, N]⟩ : Shape).ShapeCasts ⟨2, ![1, N]⟩)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (p : Fin M) (q : Fin N) :
    addf (matmul (DotDims.plain M K N) none (truncf .bf16 x h) (truncf .bf16 w h)
            (constant (F := Ideal) ⟨2, ![M, N]⟩ .f32 0x00000000#32))
         (broadcastTo ⟨2, ![M, N]⟩ (shapeCast ⟨2, ![1, N]⟩ b hc) hb) (ix2 p q)
      = Gnn.affine (fun p k => x (ix2 p k)) (fun k q => w (ix2 k q)) (fun q => b (ix2 0 q)) p q := by
  rw [addf_apply, prod_apply, bias_apply]
  rfl

/-- max (x · wa + y · wb + b, 0) at an entry. -/
theorem hidden_body (h : FTy.bits .bf16 < FTy.bits .f32)
    (hc : (⟨2, ![1, N]⟩ : Shape).ShapeCasts ⟨2, ![1, N]⟩)
    (hb : (⟨2, ![1, N]⟩ : Shape).Broadcasts ⟨2, ![M, N]⟩)
    (x y : FVec Ideal ⟨2, ![M, K]⟩ .f32) (wa wb : FVec Ideal ⟨2, ![K, N]⟩ .f32) (b : FVec Ideal ⟨2, ![1, N]⟩ .f32)
    (p : Fin M) (j : Fin N) :
    maximumf
        (addf
          (addf
            (matmul (DotDims.plain M K N) none (truncf .bf16 x h) (truncf .bf16 wa h)
              (constant (F := Ideal) ⟨2, ![M, N]⟩ .f32 0x00000000#32))
            (matmul (DotDims.plain M K N) none (truncf .bf16 y h) (truncf .bf16 wb h)
              (constant (F := Ideal) ⟨2, ![M, N]⟩ .f32 0x00000000#32)))
          (broadcastTo ⟨2, ![M, N]⟩ (shapeCast ⟨2, ![1, N]⟩ b hc) hb))
        (broadcast ⟨2, ![M, N]⟩ (Scalar.ofBits (F := Ideal) .f32 0x00000000#32)) (ix2 p j)
      = Gnn.hidden (fun p k => x (ix2 p k)) (fun p k => y (ix2 p k)) (fun k j => wa (ix2 k j))
          (fun k j => wb (ix2 k j)) (fun j => b (ix2 0 j)) p j := by
  rw [maximumf_apply, addf_apply, addf_apply, prod_apply, prod_apply, bias_apply, broadcast_apply]
  show max _ (Ideal.ofBits .f32 0x00000000#32) = _
  rw [Ideal.ofBits_zero_f32]
  rfl

/-- max (x · wa + y · wb + b₁, 0) · w₂ + b₂ at an entry. -/
theorem mlp2_body (h : FTy.bits .bf16 < FTy.bits .f32)
    (hc : (⟨2, ![1, N]⟩ : Shape).ShapeCasts ⟨2, ![1, N]⟩)
    (hb : (⟨2, ![1, N]⟩ : Shape).Broadcasts ⟨2, ![M, N]⟩)
    (hc' : (⟨2, ![1, P]⟩ : Shape).ShapeCasts ⟨2, ![1, P]⟩)
    (hb' : (⟨2, ![1, P]⟩ : Shape).Broadcasts ⟨2, ![M, P]⟩)
    (x y : FVec Ideal ⟨2, ![M, K]⟩ .f32) (wa wb : FVec Ideal ⟨2, ![K, N]⟩ .f32) (b₁ : FVec Ideal ⟨2, ![1, N]⟩ .f32)
    (w₂ : FVec Ideal ⟨2, ![N, P]⟩ .f32) (b₂ : FVec Ideal ⟨2, ![1, P]⟩ .f32) (p : Fin M) (q : Fin P) :
    addf
        (matmul (DotDims.plain M N P) none
          (truncf .bf16
            (maximumf
              (addf
                (addf
                  (matmul (DotDims.plain M K N) none (truncf .bf16 x h) (truncf .bf16 wa h)
                    (constant (F := Ideal) ⟨2, ![M, N]⟩ .f32 0x00000000#32))
                  (matmul (DotDims.plain M K N) none (truncf .bf16 y h) (truncf .bf16 wb h)
                    (constant (F := Ideal) ⟨2, ![M, N]⟩ .f32 0x00000000#32)))
                (broadcastTo ⟨2, ![M, N]⟩ (shapeCast ⟨2, ![1, N]⟩ b₁ hc) hb))
              (broadcast ⟨2, ![M, N]⟩ (Scalar.ofBits (F := Ideal) .f32 0x00000000#32))) h)
          (truncf .bf16 w₂ h) (constant (F := Ideal) ⟨2, ![M, P]⟩ .f32 0x00000000#32))
        (broadcastTo ⟨2, ![M, P]⟩ (shapeCast ⟨2, ![1, P]⟩ b₂ hc') hb') (ix2 p q)
      = Gnn.mlp2 (fun p k => x (ix2 p k)) (fun p k => y (ix2 p k)) (fun k j => wa (ix2 k j))
          (fun k j => wb (ix2 k j)) (fun j => b₁ (ix2 0 j)) (fun j q => w₂ (ix2 j q)) (fun q => b₂ (ix2 0 q)) p q := by
  refine (affine_body h hc' hb' _ w₂ b₂ p q).trans ?_
  exact congrArg (fun H => Gnn.affine H (fun j q => w₂ (ix2 j q)) (fun q => b₂ (ix2 0 q)) p q)
    (funext fun p => funext fun j => hidden_body h hc hb x y wa wb b₁ p j)

/-- max (max (x · wa + y · wb + b₁, 0) · w₂ + b₂, 0) at an entry. -/
theorem mlp2r_body (h : FTy.bits .bf16 < FTy.bits .f32)
    (hc : (⟨2, ![1, N]⟩ : Shape).ShapeCasts ⟨2, ![1, N]⟩)
    (hb : (⟨2, ![1, N]⟩ : Shape).Broadcasts ⟨2, ![M, N]⟩)
    (hc' : (⟨2, ![1, P]⟩ : Shape).ShapeCasts ⟨2, ![1, P]⟩)
    (hb' : (⟨2, ![1, P]⟩ : Shape).Broadcasts ⟨2, ![M, P]⟩)
    (x y : FVec Ideal ⟨2, ![M, K]⟩ .f32) (wa wb : FVec Ideal ⟨2, ![K, N]⟩ .f32) (b₁ : FVec Ideal ⟨2, ![1, N]⟩ .f32)
    (w₂ : FVec Ideal ⟨2, ![N, P]⟩ .f32) (b₂ : FVec Ideal ⟨2, ![1, P]⟩ .f32) (p : Fin M) (q : Fin P) :
    maximumf
        (addf
          (matmul (DotDims.plain M N P) none
            (truncf .bf16
              (maximumf
                (addf
                  (addf
                    (matmul (DotDims.plain M K N) none (truncf .bf16 x h) (truncf .bf16 wa h)
                      (constant (F := Ideal) ⟨2, ![M, N]⟩ .f32 0x00000000#32))
                    (matmul (DotDims.plain M K N) none (truncf .bf16 y h) (truncf .bf16 wb h)
                      (constant (F := Ideal) ⟨2, ![M, N]⟩ .f32 0x00000000#32)))
                  (broadcastTo ⟨2, ![M, N]⟩ (shapeCast ⟨2, ![1, N]⟩ b₁ hc) hb))
                (broadcast ⟨2, ![M, N]⟩ (Scalar.ofBits (F := Ideal) .f32 0x00000000#32))) h)
            (truncf .bf16 w₂ h) (constant (F := Ideal) ⟨2, ![M, P]⟩ .f32 0x00000000#32))
          (broadcastTo ⟨2, ![M, P]⟩ (shapeCast ⟨2, ![1, P]⟩ b₂ hc') hb'))
        (broadcast ⟨2, ![M, P]⟩ (Scalar.ofBits (F := Ideal) .f32 0x00000000#32)) (ix2 p q)
      = Gnn.mlp2r (fun p k => x (ix2 p k)) (fun p k => y (ix2 p k)) (fun k j => wa (ix2 k j))
          (fun k j => wb (ix2 k j)) (fun j => b₁ (ix2 0 j)) (fun j q => w₂ (ix2 j q)) (fun q => b₂ (ix2 0 q)) p q := by
  rw [maximumf_apply, mlp2_body, broadcast_apply]
  show max _ (Ideal.ofBits .f32 0x00000000#32) = _
  rw [Ideal.ofBits_zero_f32]
  rfl

end General

/-! ## The kernel's extents -/

/-- The linear body: entry (p, q) of the stored block is x · w + b there. -/
theorem linear_apply (v0 : Vec Ideal S5000x3 .f32) (v2 : Vec Ideal S3x64 .f32) (v5 : Vec Ideal S1x64 .f32)
    (p : Fin 5000) (q : Fin 64) :
    Gen.k0_pay1 (F := Ideal) v0 v2 v5 (ix2 p q)
      = Gnn.affine (fun p k => v0 (ix2 p k)) (fun k q => v2 (ix2 k q)) (fun q => v5 (ix2 0 q)) p q :=
  affine_body (M := 5000) (K := 3) (N := 64) Gen.bitsLt_bf16_f32 Gen.shapeCasts_S1x64_S1x64
    Gen.broadcasts_S1x64_S5000x64 v0 v2 v5 p q

/-- The message body: entry (p, q) of the stored block is max (x · wa + y · wb + b₁, 0) · w₂ + b₂ there. -/
theorem message_apply (v0 v3 : Vec Ideal S5000x64 .f32) (v6 v9 : Vec Ideal S64x64 .f32) (v15 : Vec Ideal S1x64 .f32)
    (v22 : Vec Ideal S64x64 .f32) (v26 : Vec Ideal S1x64 .f32) (p : Fin 5000) (q : Fin 64) :
    Gen.k1_pay1 (F := Ideal) v0 v3 v6 v9 v15 v22 v26 (ix2 p q)
      = Gnn.mlp2 (fun p k => v0 (ix2 p k)) (fun p k => v3 (ix2 p k)) (fun k j => v6 (ix2 k j))
          (fun k j => v9 (ix2 k j)) (fun j => v15 (ix2 0 j)) (fun j q => v22 (ix2 j q)) (fun q => v26 (ix2 0 q)) p q := by
  refine (mlp2_body (M := 5000) (K := 64) (N := 64) (P := 64) Gen.bitsLt_bf16_f32 Gen.shapeCasts_S1x64_S1x64
    Gen.broadcasts_S1x64_S5000x64 Gen.shapeCasts_S1x64_S1x64 Gen.broadcasts_S1x64_S5000x64
    (shapeCast S5000x64 v0 Gen.shapeCasts_S5000x64_S5000x64) (shapeCast S5000x64 v3 Gen.shapeCasts_S5000x64_S5000x64)
    (shapeCast S64x64 v6 Gen.shapeCasts_S64x64_S64x64) (shapeCast S64x64 v9 Gen.shapeCasts_S64x64_S64x64) v15
    (shapeCast S64x64 v22 Gen.shapeCasts_S64x64_S64x64) v26 p q).trans ?_
  simp only [shapeCast_self]

/-- The update body: entry (p, q) of the stored block is max (max (x · wa + y · wb + b₁, 0) · w₂ + b₂, 0) there. -/
theorem update_apply (v0 v3 : Vec Ideal S5000x64 .f32) (v6 v9 : Vec Ideal S64x64 .f32) (v15 : Vec Ideal S1x64 .f32)
    (v22 : Vec Ideal S64x64 .f32) (v26 : Vec Ideal S1x64 .f32) (p : Fin 5000) (q : Fin 64) :
    Gen.k2_pay1 (F := Ideal) v0 v3 v6 v9 v15 v22 v26 (ix2 p q)
      = Gnn.mlp2r (fun p k => v0 (ix2 p k)) (fun p k => v3 (ix2 p k)) (fun k j => v6 (ix2 k j))
          (fun k j => v9 (ix2 k j)) (fun j => v15 (ix2 0 j)) (fun j q => v22 (ix2 j q)) (fun q => v26 (ix2 0 q)) p q := by
  refine (mlp2r_body (M := 5000) (K := 64) (N := 64) (P := 64) Gen.bitsLt_bf16_f32 Gen.shapeCasts_S1x64_S1x64
    Gen.broadcasts_S1x64_S5000x64 Gen.shapeCasts_S1x64_S1x64 Gen.broadcasts_S1x64_S5000x64
    (shapeCast S5000x64 v0 Gen.shapeCasts_S5000x64_S5000x64) (shapeCast S5000x64 v3 Gen.shapeCasts_S5000x64_S5000x64)
    (shapeCast S64x64 v6 Gen.shapeCasts_S64x64_S64x64) (shapeCast S64x64 v9 Gen.shapeCasts_S64x64_S64x64) v15
    (shapeCast S64x64 v22 Gen.shapeCasts_S64x64_S64x64) v26 p q).trans ?_
  simp only [shapeCast_self]

/-- The output projection: entry (p, q) of the stored block is x · w + b there. -/
theorem outproj_apply (v0 : Vec Ideal S5000x64 .f32) (v3 : Vec Ideal S64x128 .f32) (v6 : Vec Ideal S1x128 .f32)
    (p : Fin 5000) (q : Fin 128) :
    Gen.k7_pay1 (F := Ideal) v0 v3 v6 (ix2 p q)
      = Gnn.affine (fun p k => v0 (ix2 p k)) (fun k q => v3 (ix2 k q)) (fun q => v6 (ix2 0 q)) p q := by
  refine (affine_body (M := 5000) (K := 64) (N := 128) Gen.bitsLt_bf16_f32 Gen.shapeCasts_S1x128_S1x128
    Gen.broadcasts_S1x128_S5000x128 (shapeCast S5000x64 v0 Gen.shapeCasts_S5000x64_S5000x64) v3 v6 p q).trans ?_
  simp only [shapeCast_self]

/-- The second message body is the first, word for word. -/
theorem k3_eq : @Gen.k3_pay1 = @Gen.k1_pay1 := rfl
/-- The third message body is the first. -/
theorem k5_eq : @Gen.k5_pay1 = @Gen.k1_pay1 := rfl
/-- The second update body is the first. -/
theorem k4_eq : @Gen.k4_pay1 = @Gen.k2_pay1 := rfl
/-- The third update body is the first. -/
theorem k6_eq : @Gen.k6_pay1 = @Gen.k2_pay1 := rfl

end Cert.KernelIdeal.Bodies

end
-- ==== Proof.RegionCommon.lean ====
/-
  Facts shared by the eight dense stages: the printed zero offsets are the zero function.
-/
import Idealize.ShloMosaic.Lib.Pipeline.Value
import Idealize.ShloMosaic.Lib.ValueIdx

namespace Cert.KernelIdeal.Regions

/-- The printed rank-2 zero offsets are the zero function. -/
theorem hz : (![0, 0] : Fin 2 → Nat) = fun _ => 0 := funext fun a => by fin_cases a <;> rfl

end Cert.KernelIdeal.Regions
-- ==== Proof.StageArrays.lean ====
/-
  The four dense stages as whole-array functions on the extended reals, entry by entry, over the literal shapes
  of the program: the input projection (50000 × 3 against 3 × 64), the message stage over the 800000 edges, the
  update stage over the 50000 nodes, and the output projection (50000 × 64 against 64 × 128). A bias is a
  1 × n row; entry (r, q) of a result depends on row r of the row-indexed operands only.
-/
import proofs.«126528_j60619168416173_1_alg».proof.KernelIdeal
import proofs.«126528_j60619168416173_1_alg».proof.Proof.Spec
import Idealize.ShloMosaic.Lib.ValueIdx

noncomputable section

namespace Cert.KernelIdeal.Regions

open Idealize.ShloMosaic Idealize.ShloMosaic.ValueIdx
open Cert.KernelIdeal

/-- x · w + b over the node axis. -/
def linArr (x : S50000x3.Idx → Elt Ideal .f32) (w : S3x64.Idx → Elt Ideal .f32) (b : S1x64.Idx → Elt Ideal .f32) :
    S50000x64.Idx → Elt Ideal .f32 :=
  fun i => Gnn.affine (M := 50000) (K := 3) (N := 64) (fun p k => x (ix2 p k)) (fun k q => w (ix2 k q))
    (fun q => b (ix2 0 q)) (i 0) (i 1)

/-- max (x · wa + y · wb + b₁, 0) · w₂ + b₂ over the edge axis. -/
def msgArr (x y : S800000x64.Idx → Elt Ideal .f32) (wa wb : S64x64.Idx → Elt Ideal .f32)
    (b₁ : S1x64.Idx → Elt Ideal .f32) (w₂ : S64x64.Idx → Elt Ideal .f32) (b₂ : S1x64.Idx → Elt Ideal .f32) :
    S800000x64.Idx → Elt Ideal .f32 :=
  fun i => Gnn.mlp2 (M := 800000) (K := 64) (N := 64) (P := 64) (fun p k => x (ix2 p k)) (fun p k => y (ix2 p k))
    (fun k j => wa (ix2 k j)) (fun k j => wb (ix2 k j)) (fun j => b₁ (ix2 0 j)) (fun j q => w₂ (ix2 j q))
    (fun q => b₂ (ix2 0 q)) (i 0) (i 1)

/-- max (max (x · wa + y · wb + b₁, 0) · w₂ + b₂, 0) over the node axis. -/
def updArr (x y : S50000x64.Idx → Elt Ideal .f32) (wa wb : S64x64.Idx → Elt Ideal .f32)
    (b₁ : S1x64.Idx → Elt Ideal .f32) (w₂ : S64x64.Idx → Elt Ideal .f32) (b₂ : S1x64.Idx → Elt Ideal .f32) :
    S50000x64.Idx → Elt Ideal .f32 :=
  fun i => Gnn.mlp2r (M := 50000) (K := 64) (N := 64) (P := 64) (fun p k => x (ix2 p k)) (fun p k => y (ix2 p k))
    (fun k j => wa (ix2 k j)) (fun k j => wb (ix2 k j)) (fun j => b₁ (ix2 0 j)) (fun j q => w₂ (ix2 j q))
    (fun q => b₂ (ix2 0 q)) (i 0) (i 1)

/-- x · w + b over the node axis, 64 → 128. -/
def outArr (x : S50000x64.Idx → Elt Ideal .f32) (w : S64x128.Idx → Elt Ideal .f32) (b : S1x128.Idx → Elt Ideal .f32) :
    S50000x128.Idx → Elt Ideal .f32 :=
  fun i => Gnn.affine (M := 50000) (K := 64) (N := 128) (fun p k => x (ix2 p k)) (fun k q => w (ix2 k q))
    (fun q => b (ix2 0 q)) (i 0) (i 1)

end Cert.KernelIdeal.Regions

end
-- ==== Proof.Region7.lean ====
/-
  The output projection's array. The grid has ten points; point t reads rows 5000·t … 5000·t + 4999 of the node
  features, the whole weight and the whole bias row, and writes the same rows of the result. So entry (r, q) of the
  result array is (∑ k, h[r, k] · w[k, q]) + b[0, q]: the blocks are restrictions of one whole-array function, and
  they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the node features and the result move together along the rows, everything else stays. -/
theorem idx_facts7 : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) ≤ 9 :=
  (by decide +kernel : ∀ t : Fin grid7.N, _)

/-- Every row block of the result is some point's. -/
theorem idx_onto7 : ∀ q0 : Fin 10, ∃ t : Fin cfg7.N, win7_3.index t = ![q0.val, 0] :=
  (by decide +kernel : ∀ q0 : Fin 10, ∃ t : Fin grid7.N, win7_3.index t = ![q0.val, 0])

/-- What point t writes back is block t of the whole-array function of the arrays the stage finds. -/
theorem flushed7_eq (c : Dev nD) (t : Fin cfg7.N) :
    (dat7 V c).flushed 3 t = ((cfg7.win 3).blk t).view.read (Elt Ideal)
      (outArr (V c main_v98) (V c main_arg12) (V c main_v99)) := by
  show (cfg7.win 3).cut (grid7.coords t) ((dat7 V c).after 3 t) = _
  rw [after7_3]
  unfold out7_3
  rw [View.canon_unit_zero hz]
  simp only [View.ld_unit_zero (S := S5000x64) hz, View.ld_unit_zero (S := S64x128) hz, View.ld_unit_zero (S := S1x128) hz]
  obtain ⟨e0, e1, e2, e3, e4, e5, e6, e7⟩ := idx_facts7 t
  funext j
  obtain ⟨p, q, rfl⟩ : ∃ (p : Fin 5000) (q : Fin 128), j = ix2 p q := ⟨j 0, j 1, eq_ix2 j⟩
  refine (Bodies.outproj_apply (iblk7 V c 0 t) (iblk7 V c 1 t) (iblk7 V c 2 t) p q).trans ?_
  show _ = outArr (V c main_v98) (V c main_arg12) (V c main_v99) (((cfg7.win 3).blk t).view.emb (ix2 p q))
  unfold outArr Gnn.affine
  have hx : ∀ k : Fin 64, iblk7 V c 0 t (ix2 p k)
      = V c main_v98 (ix2 ((((cfg7.win 3).blk t).view.emb (ix2 p q)) 0) k) := fun k => by
    show V c main_v98 (((cfg7.win 0).blk t).view.emb (ix2 p k)) = _
    refine congrArg (V c main_v98) (funext fun a => Fin.ext ?_)
    match a with
    | ⟨0, _⟩ => show win7_0.index t (0 : Fin 2) * 5000 + 1 * p.val = win7_3.index t (0 : Fin 2) * 5000 + 1 * p.val; omega
    | ⟨1, _⟩ => show win7_0.index t (1 : Fin 2) * 64 + 1 * k.val = k.val; omega
  have hw : ∀ k : Fin 64, iblk7 V c 1 t (ix2 k q)
      = V c main_arg12 (ix2 k ((((cfg7.win 3).blk t).view.emb (ix2 p q)) 1)) := fun k => by
    show V c main_arg12 (((cfg7.win 1).blk t).view.emb (ix2 k q)) = _
    refine congrArg (V c main_arg12) (funext fun a => Fin.ext ?_)
    match a with
    | ⟨0, _⟩ => show win7_1.index t (0 : Fin 2) * 64 + 1 * k.val = k.val; omega
    | ⟨1, _⟩ => show win7_1.index t (1 : Fin 2) * 128 + 1 * q.val = win7_3.index t (1 : Fin 2) * 128 + 1 * q.val; omega
  have hb : iblk7 V c 2 t (ix2 0 q)
      = V c main_v99 (ix2 0 ((((cfg7.win 3).blk t).view.emb (ix2 p q)) 1)) := by
    show V c main_v99 (((cfg7.win 2).blk t).view.emb (ix2 0 q)) = _
    refine congrArg (V c main_v99) (funext fun a => Fin.ext ?_)
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega
  simp only [hx, hw, hb]

/-- An index of the result array is in point t's block iff each coordinate is in the block's range. -/
theorem mem_blk7 (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v100).slice (win7_3.rect t)).set ↔ _
  rw [View.set_slice_whole, Rect.mem_set_unit]
  exact Iff.rfl

/-- The ten row blocks tile the result array: row r is in the block of the point whose block index is r / 5000. -/
theorem cover7 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := idx_onto7 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The result array after the stage: x · w + b of the arrays the stage finds. -/
theorem final7 (c : Dev nD) :
    (dat7 V c).arrAt 3 cfg7.N = outArr (V c main_v98) (V c main_arg12) (V c main_v99) :=
  (dat7 V c).arrAt_eq_of_cover 3 _ (fun t _ => flushed7_eq V c t) cover7

end Cert.KernelIdeal.Regions

end
-- ==== Proof.LayerEq.lean ====
/-
  The four dense stages, kernel against reference, as whole arrays on the extended reals.
  The kernel's stage takes the two halves of the stacked first-layer weight (rows 0…63 and 64…127 of a 128 × 64
  matrix) and the biases as 1 × 64 rows; the reference contracts the concatenation [x, y] with the stacked weight
  and adds the biases as vectors. Entry by entry both are the same two-input perceptron: a contraction over the
  concatenated axis of extent 64 + 64 is the sum of the two contractions (only commutativity and associativity
  of the sum), a slice reads the stacked weight at the shifted row, and a vector cast to a one-row matrix reads
  the vector.
-/
import proofs.«126528_j60619168416173_1_alg».proof.Proof.StageArrays
import proofs.«126528_j60619168416173_1_alg».proof.Proof.RefLayers
import Idealize.ShloMosaic.Lib.Pipeline.Value
import Idealize.ShloMosaic.Lib.ValueIdx
import Idealize.ShloMosaic.Lib.ValueLayout

noncomputable section

namespace Cert.LayerEq

open Idealize.ShloMosaic Idealize.ShloMosaic.ValueIdx
open Cert.KernelIdeal.Regions Cert.ReferenceIdeal.Layers

variable {α : Type}

/-- Rows 0 … 63 of a 128-row matrix: the slice at offset (0, 0) reads row k. -/
theorem slice_top (W : (⟨2, ![128, 64]⟩ : Shape).Idx → α)
    (s : (⟨2, ![128, 64]⟩ : Shape).Slices ![0, 0] ⟨2, ![64, 64]⟩) (k j : Fin 64) :
    extractStridedSlice ⟨2, ![64, 64]⟩ ![0, 0] W s (ix2 k j) = W (ix2 (Fin.castAdd 64 k) j) :=
  extractStridedSlice_apply _ W s _ _ fun a => by
    match a with
    | ⟨0, _⟩ => show k.val = 0 + k.val; omega
    | ⟨1, _⟩ => show j.val = 0 + j.val; omega

/-- Rows 64 … 127 of a 128-row matrix: the slice at offset (64, 0) reads row 64 + k. -/
theorem slice_bot (W : (⟨2, ![128, 64]⟩ : Shape).Idx → α)
    (s : (⟨2, ![128, 64]⟩ : Shape).Slices ![64, 0] ⟨2, ![64, 64]⟩) (k j : Fin 64) :
    extractStridedSlice ⟨2, ![64, 64]⟩ ![64, 0] W s (ix2 k j) = W (ix2 (Fin.natAdd 64 k) j) :=
  extractStridedSlice_apply _ W s _ _ fun a => by
    match a with
    | ⟨0, _⟩ => show 64 + k.val = 64 + k.val; rfl
    | ⟨1, _⟩ => show j.val = 0 + j.val; omega

variable [Cert.ReferenceIdeal.Facts]

/-- The input projection. -/
theorem lin_eq (x : FVec Ideal Cert.ReferenceIdeal.S50000x3 .f32) (w : FVec Ideal Cert.ReferenceIdeal.S3x64 .f32)
    (b : FVec Ideal Cert.ReferenceIdeal.S64 .f32) (hc : (⟨1, ![64]⟩ : Shape).ShapeCasts ⟨2, ![1, 64]⟩) :
    linArr x w (shapeCast ⟨2, ![1, 64]⟩ b hc) = refLin x w b := by
  funext i
  obtain ⟨p, q, rfl⟩ : ∃ (p : Fin 50000) (q : Fin 64), i = ix2 p q := ⟨i 0, i 1, eq_ix2 i⟩
  rw [refLin_apply]
  simp only [linArr, shapeCast_a_1a_apply]

/-- The output projection. -/
theorem out_eq (x : FVec Ideal Cert.ReferenceIdeal.S50000x64 .f32) (w : FVec Ideal Cert.ReferenceIdeal.S64x128 .f32)
    (b : FVec Ideal Cert.ReferenceIdeal.S128 .f32) (hc : (⟨1, ![128]⟩ : Shape).ShapeCasts ⟨2, ![1, 128]⟩) :
    outArr x w (shapeCast ⟨2, ![1, 128]⟩ b hc) = refOut x w b := by
  funext i
  obtain ⟨p, q, rfl⟩ : ∃ (p : Fin 50000) (q : Fin 128), i = ix2 p q := ⟨i 0, i 1, eq_ix2 i⟩
  rw [refOut_apply]
  simp only [outArr, shapeCast_a_1a_apply]

/-- The message stage. -/
theorem msg_eq (x y : FVec Ideal Cert.ReferenceIdeal.S800000x64 .f32) (W₁ : FVec Ideal Cert.ReferenceIdeal.S128x64 .f32)
    (b₁ : FVec Ideal Cert.ReferenceIdeal.S64 .f32) (W₂ : FVec Ideal Cert.ReferenceIdeal.S64x64 .f32)
    (b₂ : FVec Ideal Cert.ReferenceIdeal.S64 .f32)
    (sa : (⟨2, ![128, 64]⟩ : Shape).Slices ![0, 0] ⟨2, ![64, 64]⟩)
    (sb : (⟨2, ![128, 64]⟩ : Shape).Slices ![64, 0] ⟨2, ![64, 64]⟩)
    (h₁ h₂ : (⟨1, ![64]⟩ : Shape).ShapeCasts ⟨2, ![1, 64]⟩) :
    msgArr x y (extractStridedSlice ⟨2, ![64, 64]⟩ ![0, 0] W₁ sa) (extractStridedSlice ⟨2, ![64, 64]⟩ ![64, 0] W₁ sb)
      (shapeCast ⟨2, ![1, 64]⟩ b₁ h₁) W₂ (shapeCast ⟨2, ![1, 64]⟩ b₂ h₂) = refMsg x y W₁ b₁ W₂ b₂ := by
  funext i
  obtain ⟨p, q, rfl⟩ : ∃ (p : Fin 800000) (q : Fin 64), i = ix2 p q := ⟨i 0, i 1, eq_ix2 i⟩
  rw [refMsg_apply]
  simp only [msgArr, slice_top, slice_bot, shapeCast_a_1a_apply]

/-- The update stage. -/
theorem upd_eq (x y : FVec Ideal Cert.ReferenceIdeal.S50000x64 .f32) (W₁ : FVec Ideal Cert.ReferenceIdeal.S128x64 .f32)
    (b₁ : FVec Ideal Cert.ReferenceIdeal.S64 .f32) (W₂ : FVec Ideal Cert.ReferenceIdeal.S64x64 .f32)
    (b₂ : FVec Ideal Cert.ReferenceIdeal.S64 .f32)
    (sa : (⟨2, ![128, 64]⟩ : Shape).Slices ![0, 0] ⟨2, ![64, 64]⟩)
    (sb : (⟨2, ![128, 64]⟩ : Shape).Slices ![64, 0] ⟨2, ![64, 64]⟩)
    (h₁ h₂ : (⟨1, ![64]⟩ : Shape).ShapeCasts ⟨2, ![1, 64]⟩) :
    updArr x y (extractStridedSlice ⟨2, ![64, 64]⟩ ![0, 0] W₁ sa) (extractStridedSlice ⟨2, ![64, 64]⟩ ![64, 0] W₁ sb)
      (shapeCast ⟨2, ![1, 64]⟩ b₁ h₁) W₂ (shapeCast ⟨2, ![1, 64]⟩ b₂ h₂) = refUpd x y W₁ b₁ W₂ b₂ := by
  funext i
  obtain ⟨p, q, rfl⟩ : ∃ (p : Fin 50000) (q : Fin 64), i = ix2 p q := ⟨i 0, i 1, eq_ix2 i⟩
  rw [refUpd_apply]
  simp only [updArr, slice_top, slice_bot, shapeCast_a_1a_apply]

end Cert.LayerEq

end
-- ==== Proof.Region0.lean ====
/-
  The input projection's array. The grid has ten points; point t reads rows 5000·t … 5000·t + 4999 of x, the
  whole weight and the whole bias row, and writes the same rows of the result. So entry (r, q) of the result
  array is (∑ k, x[r, k] · w[k, q]) + b[0, q]: the blocks are restrictions of one whole-array function, and
  they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: x and the result move together along the rows, everything else stays. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block of the result is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- What point t writes back is block t of the whole-array function of the arrays the stage finds. -/
theorem flushed0_eq (c : Dev nD) (t : Fin cfg0.N) :
    (dat0 V c).flushed 3 t = ((cfg0.win 3).blk t).view.read (Elt Ideal)
      (linArr (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S5000x3) hz, View.ld_unit_zero (S := S3x64) hz, View.ld_unit_zero (S := S1x64) hz]
  obtain ⟨e0, e1, e2, e3, e4, e5, e6, e7⟩ := idx_facts0 t
  funext j
  obtain ⟨p, q, rfl⟩ : ∃ (p : Fin 5000) (q : Fin 64), j = ix2 p q := ⟨j 0, j 1, eq_ix2 j⟩
  refine (Bodies.linear_apply (iblk0 V c 0 t) (iblk0 V c 1 t) (iblk0 V c 2 t) p q).trans ?_
  show _ = linArr (V c main_arg0) (V c main_arg2) (V c main_v4) (((cfg0.win 3).blk t).view.emb (ix2 p q))
  unfold linArr Gnn.affine
  have hx : ∀ k : Fin 3, iblk0 V c 0 t (ix2 p k)
      = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 3 + 1 * k.val = k.val; omega
  have hw : ∀ k : Fin 3, iblk0 V c 1 t (ix2 k q)
      = V c main_arg2 (ix2 k ((((cfg0.win 3).blk t).view.emb (ix2 p q)) 1)) := fun k => by
    show V c main_arg2 (((cfg0.win 1).blk t).view.emb (ix2 k q)) = _
    refine congrArg (V c main_arg2) (funext fun a => Fin.ext ?_)
    match a with
    | ⟨0, _⟩ => show win0_1.index t (0 : Fin 2) * 3 + 1 * k.val = k.val; omega
    | ⟨1, _⟩ => show win0_1.index t (1 : Fin 2) * 64 + 1 * q.val = win0_3.index t (1 : Fin 2) * 64 + 1 * q.val; omega
  have hb : iblk0 V c 2 t (ix2 0 q)
      = V c main_v4 (ix2 0 ((((cfg0.win 3).blk t).view.emb (ix2 p q)) 1)) := by
    show V c main_v4 (((cfg0.win 2).blk t).view.emb (ix2 0 q)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  simp only [hx, hw, hb]

/-- An index of the result array is in point t's block iff each coordinate is in the block's range. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- The ten row blocks tile the result array: row r is in the block of the point whose block index is r / 5000. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the stage: x · w + b of the arrays the stage finds. -/
theorem final0 (c : Dev nD) :
    (dat0 V c).arrAt 3 cfg0.N = linArr (V c main_arg0) (V c main_arg2) (V c main_v4) :=
  (dat0 V c).arrAt_eq_of_cover 3 _ (fun t _ => flushed0_eq V c t) cover0

end Cert.KernelIdeal.Regions

end
-- ==== Proof.PassC.lean ====
/-
  The output projection's weight and bias keep their launch contents along the program, and the first dense stage
  leaves the input projection x · w + b of the arguments in its result array.
-/
import proofs.«126528_j60619168416173_1_alg».proof.Proof.Gen.KernelIdeal.Frame
import proofs.«126528_j60619168416173_1_alg».proof.Proof.Region0
import proofs.«126528_j60619168416173_1_alg».proof.Proof.LayerEq
import proofs.«126528_j60619168416173_1_alg».proof.Proof.RefNet
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

theorem W2_main_arg12 : W2 m ρ c (Proc.devRef .tc main_arg12) = (m ((c : Thread nD τ).loc main_arg12)) := by
  rw [W2_of_ne m ρ c main_arg12 (by decide)]
  show (StableHlo.after hostOps0 (W0 m ρ c)) (Proc.devRef .tc main_arg12) = _
  after_results

theorem W6_main_arg12 : W6 m ρ c (Proc.devRef .tc main_arg12) = (m ((c : Thread nD τ).loc main_arg12)) := by
  rw [W6_of_ne m ρ c main_arg12 (by decide)]
  show (StableHlo.after hostOps1_2 (StableHlo.after hostOps1_1 (StableHlo.after hostOps1 (W2 m ρ c)))) (Proc.devRef .tc main_arg12) = _
  after_results
  exact W2_main_arg12 m ρ c

theorem W8_main_arg12 : W8 m ρ c (Proc.devRef .tc main_arg12) = (m ((c : Thread nD τ).loc main_arg12)) := by
  rw [W8_of_ne m ρ c main_arg12 (by decide)]
  show (StableHlo.after hostOps2 (W6 m ρ c)) (Proc.devRef .tc main_arg12) = _
  after_results
  exact W6_main_arg12 m ρ c

theorem W12_main_arg12 : W12 m ρ c (Proc.devRef .tc main_arg12) = (m ((c : Thread nD τ).loc main_arg12)) := by
  rw [W12_of_ne m ρ c main_arg12 (by decide)]
  show (StableHlo.after hostOps3_2 (StableHlo.after hostOps3_1 (StableHlo.after hostOps3 (W8 m ρ c)))) (Proc.devRef .tc main_arg12) = _
  after_results
  exact W8_main_arg12 m ρ c

theorem W14_main_arg12 : W14 m ρ c (Proc.devRef .tc main_arg12) = (m ((c : Thread nD τ).loc main_arg12)) := by
  rw [W14_of_ne m ρ c main_arg12 (by decide)]
  show (StableHlo.after hostOps4 (W12 m ρ c)) (Proc.devRef .tc main_arg12) = _
  after_results
  exact W12_main_arg12 m ρ c

theorem W18_main_arg12 : W18 m ρ c (Proc.devRef .tc main_arg12) = (m ((c : Thread nD τ).loc main_arg12)) := by
  rw [W18_of_ne m ρ c main_arg12 (by decide)]
  show (StableHlo.after hostOps5_2 (StableHlo.after hostOps5_1 (StableHlo.after hostOps5 (W14 m ρ c)))) (Proc.devRef .tc main_arg12) = _
  after_results
  exact W14_main_arg12 m ρ c

theorem W20_main_arg12 : W20 m ρ c (Proc.devRef .tc main_arg12) = (m ((c : Thread nD τ).loc main_arg12)) := by
  rw [W20_of_ne m ρ c main_arg12 (by decide)]
  show (StableHlo.after hostOps6 (W18 m ρ c)) (Proc.devRef .tc main_arg12) = _
  after_results
  exact W18_main_arg12 m ρ c

theorem W2_main_arg13 : W2 m ρ c (Proc.devRef .tc main_arg13) = (m ((c : Thread nD τ).loc main_arg13)) := by
  rw [W2_of_ne m ρ c main_arg13 (by decide)]
  show (StableHlo.after hostOps0 (W0 m ρ c)) (Proc.devRef .tc main_arg13) = _
  after_results

theorem W6_main_arg13 : W6 m ρ c (Proc.devRef .tc main_arg13) = (m ((c : Thread nD τ).loc main_arg13)) := by
  rw [W6_of_ne m ρ c main_arg13 (by decide)]
  show (StableHlo.after hostOps1_2 (StableHlo.after hostOps1_1 (StableHlo.after hostOps1 (W2 m ρ c)))) (Proc.devRef .tc main_arg13) = _
  after_results
  exact W2_main_arg13 m ρ c

theorem W8_main_arg13 : W8 m ρ c (Proc.devRef .tc main_arg13) = (m ((c : Thread nD τ).loc main_arg13)) := by
  rw [W8_of_ne m ρ c main_arg13 (by decide)]
  show (StableHlo.after hostOps2 (W6 m ρ c)) (Proc.devRef .tc main_arg13) = _
  after_results
  exact W6_main_arg13 m ρ c

theorem W12_main_arg13 : W12 m ρ c (Proc.devRef .tc main_arg13) = (m ((c : Thread nD τ).loc main_arg13)) := by
  rw [W12_of_ne m ρ c main_arg13 (by decide)]
  show (StableHlo.after hostOps3_2 (StableHlo.after hostOps3_1 (StableHlo.after hostOps3 (W8 m ρ c)))) (Proc.devRef .tc main_arg13) = _
  after_results
  exact W8_main_arg13 m ρ c

theorem W14_main_arg13 : W14 m ρ c (Proc.devRef .tc main_arg13) = (m ((c : Thread nD τ).loc main_arg13)) := by
  rw [W14_of_ne m ρ c main_arg13 (by decide)]
  show (StableHlo.after hostOps4 (W12 m ρ c)) (Proc.devRef .tc main_arg13) = _
  after_results
  exact W12_main_arg13 m ρ c

theorem W18_main_arg13 : W18 m ρ c (Proc.devRef .tc main_arg13) = (m ((c : Thread nD τ).loc main_arg13)) := by
  rw [W18_of_ne m ρ c main_arg13 (by decide)]
  show (StableHlo.after hostOps5_2 (StableHlo.after hostOps5_1 (StableHlo.after hostOps5 (W14 m ρ c)))) (Proc.devRef .tc main_arg13) = _
  after_results
  exact W14_main_arg13 m ρ c

theorem W20_main_arg13 : W20 m ρ c (Proc.devRef .tc main_arg13) = (m ((c : Thread nD τ).loc main_arg13)) := by
  rw [W20_of_ne m ρ c main_arg13 (by decide)]
  show (StableHlo.after hostOps6 (W18 m ρ c)) (Proc.devRef .tc main_arg13) = _
  after_results
  exact W18_main_arg13 m ρ c

/-- After the first dense stage the node features are the reference's input projection of the arguments. -/
theorem W2_h0 : W2 m ρ c (Proc.devRef .tc main_v5) = Cert.ReferenceIdeal.Net.h0 (m ((c : Thread nD τ).loc main_arg0)) (m ((c : Thread nD τ).loc main_arg2)) (m ((c : Thread nD τ).loc main_arg3)) := by
  refine Eq.trans (W2_arr m ρ c 3) ?_
  rw [Cert.KernelIdeal.Regions.final0]
  have e0 : V1 m ρ c main_arg0 = (m ((c : Thread nD τ).loc main_arg0)) := by
    show StableHlo.after hostOps0 (W0 m ρ c) (Proc.devRef .tc main_arg0) = _
    after_results
  have e2 : V1 m ρ c main_arg2 = (m ((c : Thread nD τ).loc main_arg2)) := by
    show StableHlo.after hostOps0 (W0 m ρ c) (Proc.devRef .tc main_arg2) = _
    after_results
  have e4 : V1 m ρ c main_v4 = shapeCast S1x64 (m ((c : Thread nD τ).loc main_arg3)) Gen.shapeCasts_S64_S1x64 := by
    show StableHlo.after hostOps0 (W0 m ρ c) (Proc.devRef .tc main_v4) = _
    after_results
    rfl
  rw [e0, e2, e4]
  exact Cert.LayerEq.lin_eq _ _ _ _

end Cert.Fold

end
-- ==== Proof.Region1.lean ====
/-
  The message stage's array. The grid has 160 points; point t reads rows 5000·t … 5000·t + 4999 of the two gathered
  row arrays, the whole weights and bias rows, and writes the same rows of the result. Entry (e, q) of the result
  array is the two-input perceptron of row e of the two operands: the blocks are restrictions of one whole-array
  function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts1 : ∀ t : Fin cfg1.N, win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 159 :=
  (by decide +kernel : ∀ t : Fin grid1.N, _)

/-- Every row block of the result is some point's. -/
theorem idx_onto1 : ∀ q0 : Fin 160, ∃ t : Fin cfg1.N, win1_7.index t = ![q0.val, 0] :=
  (by decide +kernel : ∀ q0 : Fin 160, ∃ t : Fin grid1.N, win1_7.index t = ![q0.val, 0])

set_option maxHeartbeats 2000000 in
/-- What point t writes back is block t of the whole-array function of the arrays the stage finds. -/
theorem flushed1_eq (c : Dev nD) (t : Fin cfg1.N) :
    (dat1 V c).flushed 7 t = ((cfg1.win 7).blk t).view.read (Elt Ideal)
      (msgArr (V c main_v6) (V c main_v7) (V c main_v16) (V c main_v17) (V c main_v18) (V c main_v13) (V c main_v19)) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts1 t
  funext j
  obtain ⟨p, q, rfl⟩ : ∃ (p : Fin 5000) (q : Fin 64), j = ix2 p q := ⟨j 0, j 1, eq_ix2 j⟩
  refine (Bodies.message_apply (iblk1 V c 0 t) (iblk1 V c 1 t) (iblk1 V c 2 t) (iblk1 V c 3 t) (iblk1 V c 4 t) (iblk1 V c 5 t) (iblk1 V c 6 t) p q).trans ?_
  show _ = msgArr (V c main_v6) (V c main_v7) (V c main_v16) (V c main_v17) (V c main_v18) (V c main_v13) (V c main_v19) (((cfg1.win 7).blk t).view.emb (ix2 p q))
  have hx : ∀ k : Fin 64, iblk1 V c 0 t (ix2 p k) = V c main_v6 (ix2 ((((cfg1.win 7).blk t).view.emb (ix2 p q)) 0) k) := fun k => by
    show V c main_v6 (((cfg1.win 0).blk t).view.emb (ix2 p k)) = _
    refine congrArg (V c main_v6) (funext fun a => Fin.ext ?_)
    match a with
    | ⟨0, _⟩ => show win1_0.index t (0 : Fin 2) * 5000 + 1 * p.val = win1_7.index t (0 : Fin 2) * 5000 + 1 * p.val; omega
    | ⟨1, _⟩ => show win1_0.index t (1 : Fin 2) * 64 + 1 * k.val = k.val; omega
  have hy : ∀ k : Fin 64, iblk1 V c 1 t (ix2 p k) = V c main_v7 (ix2 ((((cfg1.win 7).blk t).view.emb (ix2 p q)) 0) k) := fun k => by
    show V c main_v7 (((cfg1.win 1).blk t).view.emb (ix2 p k)) = _
    refine congrArg (V c main_v7) (funext fun a => Fin.ext ?_)
    match a with
    | ⟨0, _⟩ => show win1_1.index t (0 : Fin 2) * 5000 + 1 * p.val = win1_7.index t (0 : Fin 2) * 5000 + 1 * p.val; omega
    | ⟨1, _⟩ => show win1_1.index t (1 : Fin 2) * 64 + 1 * k.val = k.val; omega
  have hwa : ∀ (k j : Fin 64), iblk1 V c 2 t (ix2 k j) = V c main_v16 (ix2 k j) := fun k j => by
    show V c main_v16 (((cfg1.win 2).blk t).view.emb (ix2 k j)) = _
    refine congrArg (V c main_v16) (funext fun a => Fin.ext ?_)
    match a with
    | ⟨0, _⟩ => show win1_2.index t (0 : Fin 2) * 64 + 1 * k.val = k.val; omega
    | ⟨1, _⟩ => show win1_2.index t (1 : Fin 2) * 64 + 1 * j.val = j.val; omega
  have hwb : ∀ (k j : Fin 64), iblk1 V c 3 t (ix2 k j) = V c main_v17 (ix2 k j) := fun k j => by
    show V c main_v17 (((cfg1.win 3).blk t).view.emb (ix2 k j)) = _
    refine congrArg (V c main_v17) (funext fun a => Fin.ext ?_)
    match a with
    | ⟨0, _⟩ => show win1_3.index t (0 : Fin 2) * 64 + 1 * k.val = k.val; omega
    | ⟨1, _⟩ => show win1_3.index t (1 : Fin 2) * 64 + 1 * j.val = j.val; omega
  have hb1 : ∀ j : Fin 64, iblk1 V c 4 t (ix2 0 j) = V c main_v18 (ix2 0 j) := fun j => by
    show V c main_v18 (((cfg1.win 4).blk t).view.emb (ix2 0 j)) = _
    refine congrArg (V c main_v18) (funext fun a => Fin.ext ?_)
    match a with
    | ⟨0, _⟩ => show win1_4.index t (0 : Fin 2) * 1 + 1 * 0 = 0; omega
    | ⟨1, _⟩ => show win1_4.index t (1 : Fin 2) * 64 + 1 * j.val = j.val; omega
  have hw2 : ∀ j : Fin 64, iblk1 V c 5 t (ix2 j q) = V c main_v13 (ix2 j ((((cfg1.win 7).blk t).view.emb (ix2 p q)) 1)) := fun j => by
    show V c main_v13 (((cfg1.win 5).blk t).view.emb (ix2 j q)) = _
    refine congrArg (V c main_v13) (funext fun a => Fin.ext ?_)
    match a with
    | ⟨0, _⟩ => show win1_5.index t (0 : Fin 2) * 64 + 1 * j.val = j.val; omega
    | ⟨1, _⟩ => show win1_5.index t (1 : Fin 2) * 64 + 1 * q.val = win1_7.index t (1 : Fin 2) * 64 + 1 * q.val; omega
  have hb2 : iblk1 V c 6 t (ix2 0 q) = V c main_v19 (ix2 0 ((((cfg1.win 7).blk t).view.emb (ix2 p q)) 1)) := by
    show V c main_v19 (((cfg1.win 6).blk t).view.emb (ix2 0 q)) = _
    refine congrArg (V c main_v19) (funext fun a => Fin.ext ?_)
    match a with
    | ⟨0, _⟩ => show win1_6.index t (0 : Fin 2) * 1 + 1 * 0 = 0; omega
    | ⟨1, _⟩ => show win1_6.index t (1 : Fin 2) * 64 + 1 * q.val = win1_7.index t (1 : Fin 2) * 64 + 1 * q.val; omega
  simp only [msgArr, Gnn.mlp2, Gnn.affine, Gnn.hidden, hx, hy, hwa, hwb, hb1, hw2, hb2]

/-- An index of the result array is in point t's block iff each coordinate is in the block's range. -/
theorem mem_blk1 (t : Fin cfg1.N) (i : S800000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v20).slice (win1_7.rect t)).set ↔ _
  rw [View.set_slice_whole, Rect.mem_set_unit]
  exact Iff.rfl

/-- The row blocks tile the result array: row r is in the block of the point whose block index is r / 5000. -/
theorem cover1 (i : S800000x64.Idx) :
    ∃ t : Fin cfg1.N, (cfg1.win 7).flush t = true ∧ i ∈ ((cfg1.win 7).blk t).view.set := by
  have hi0 : (i 0).val < 800000 := (i 0).isLt
  have hi1 : (i 1).val < 64 := (i 1).isLt
  obtain ⟨t, ht⟩ := idx_onto1 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The result array after the stage. -/
theorem final1 (c : Dev nD) :
    (dat1 V c).arrAt 7 cfg1.N = msgArr (V c main_v6) (V c main_v7) (V c main_v16) (V c main_v17) (V c main_v18) (V c main_v13) (V c main_v19) :=
  (dat1 V c).arrAt_eq_of_cover 7 _ (fun t _ => flushed1_eq V c t) cover1

end Cert.KernelIdeal.Regions

end
-- ==== Proof.Region2.lean ====
/-
  The update stage's array. The grid has ten points; point t reads rows 5000·t … 5000·t + 4999 of the node features
  and of the aggregated messages, the whole weights and bias rows, and writes the same rows of the result. Entry
  (r, q) of the result array is the two-input perceptron of row r of the two operands, followed by max(·, 0): the
  blocks are restrictions of one whole-array function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts2 : ∀ t : Fin cfg2.N, win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 9 :=
  (by decide +kernel : ∀ t : Fin grid2.N, _)

/-- Every row block of the result is some point's. -/
theorem idx_onto2 : ∀ q0 : Fin 10, ∃ t : Fin cfg2.N, win2_7.index t = ![q0.val, 0] :=
  (by decide +kernel : ∀ q0 : Fin 10, ∃ t : Fin grid2.N, win2_7.index t = ![q0.val, 0])

set_option maxHeartbeats 2000000 in
/-- What point t writes back is block t of the whole-array function of the arrays the stage finds. -/
theorem flushed2_eq (c : Dev nD) (t : Fin cfg2.N) :
    (dat2 V c).flushed 7 t = ((cfg2.win 7).blk t).view.read (Elt Ideal)
      (updArr (V c main_v5) (V c main_v23) (V c main_v32) (V c main_v33) (V c main_v34) (V c main_v29) (V c main_v35)) := by
  show (cfg2.win 7).cut (grid2.coords t) ((dat2 V c).after 7 t) = _
  rw [after2_7]
  unfold out2_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts2 t
  funext j
  obtain ⟨p, q, rfl⟩ : ∃ (p : Fin 5000) (q : Fin 64), j = ix2 p q := ⟨j 0, j 1, eq_ix2 j⟩
  refine (Bodies.update_apply (iblk2 V c 0 t) (iblk2 V c 1 t) (iblk2 V c 2 t) (iblk2 V c 3 t) (iblk2 V c 4 t) (iblk2 V c 5 t) (iblk2 V c 6 t) p q).trans ?_
  show _ = updArr (V c main_v5) (V c main_v23) (V c main_v32) (V c main_v33) (V c main_v34) (V c main_v29) (V c main_v35) (((cfg2.win 7).blk t).view.emb (ix2 p q))
  have hx : ∀ k : Fin 64, iblk2 V c 0 t (ix2 p k) = V c main_v5 (ix2 ((((cfg2.win 7).blk t).view.emb (ix2 p q)) 0) k) := fun k => by
    show V c main_v5 (((cfg2.win 0).blk t).view.emb (ix2 p k)) = _
    refine congrArg (V c main_v5) (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 64 + 1 * k.val = k.val; omega
  have hy : ∀ k : Fin 64, iblk2 V c 1 t (ix2 p k) = V c main_v23 (ix2 ((((cfg2.win 7).blk t).view.emb (ix2 p q)) 0) k) := fun k => by
    show V c main_v23 (((cfg2.win 1).blk t).view.emb (ix2 p k)) = _
    refine congrArg (V c main_v23) (funext fun a => Fin.ext ?_)
    match a with
    | ⟨0, _⟩ => show win2_1.index t (0 : Fin 2) * 5000 + 1 * p.val = win2_7.index t (0 : Fin 2) * 5000 + 1 * p.val; omega
    | ⟨1, _⟩ => show win2_1.index t (1 : Fin 2) * 64 + 1 * k.val = k.val; omega
  have hwa : ∀ (k j : Fin 64), iblk2 V c 2 t (ix2 k j) = V c main_v32 (ix2 k j) := fun k j => by
    show V c main_v32 (((cfg2.win 2).blk t).view.emb (ix2 k j)) = _
    refine congrArg (V c main_v32) (funext fun a => Fin.ext ?_)
    match a with
    | ⟨0, _⟩ => show win2_2.index t (0 : Fin 2) * 64 + 1 * k.val = k.val; omega
    | ⟨1, _⟩ => show win2_2.index t (1 : Fin 2) * 64 + 1 * j.val = j.val; omega
  have hwb : ∀ (k j : Fin 64), iblk2 V c 3 t (ix2 k j) = V c main_v33 (ix2 k j) := fun k j => by
    show V c main_v33 (((cfg2.win 3).blk t).view.emb (ix2 k j)) = _
    refine congrArg (V c main_v33) (funext fun a => Fin.ext ?_)
    match a with
    | ⟨0, _⟩ => show win2_3.index t (0 : Fin 2) * 64 + 1 * k.val = k.val; omega
    | ⟨1, _⟩ => show win2_3.index t (1 : Fin 2) * 64 + 1 * j.val = j.val; omega
  have hb1 : ∀ j : Fin 64, iblk2 V c 4 t (ix2 0 j) = V c main_v34 (ix2 0 j) := fun j => by
    show V c main_v34 (((cfg2.win 4).blk t).view.emb (ix2 0 j)) = _
    refine congrArg (V c main_v34) (funext fun a => Fin.ext ?_)
    match a with
    | ⟨0, _⟩ => show win2_4.index t (0 : Fin 2) * 1 + 1 * 0 = 0; omega
    | ⟨1, _⟩ => show win2_4.index t (1 : Fin 2) * 64 + 1 * j.val = j.val; omega
  have hw2 : ∀ j : Fin 64, iblk2 V c 5 t (ix2 j q) = V c main_v29 (ix2 j ((((cfg2.win 7).blk t).view.emb (ix2 p q)) 1)) := fun j => by
    show V c main_v29 (((cfg2.win 5).blk t).view.emb (ix2 j q)) = _
    refine congrArg (V c main_v29) (funext fun a => Fin.ext ?_)
    match a with
    | ⟨0, _⟩ => show win2_5.index t (0 : Fin 2) * 64 + 1 * j.val = j.val; omega
    | ⟨1, _⟩ => show win2_5.index t (1 : Fin 2) * 64 + 1 * q.val = win2_7.index t (1 : Fin 2) * 64 + 1 * q.val; omega
  have hb2 : iblk2 V c 6 t (ix2 0 q) = V c main_v35 (ix2 0 ((((cfg2.win 7).blk t).view.emb (ix2 p q)) 1)) := by
    show V c main_v35 (((cfg2.win 6).blk t).view.emb (ix2 0 q)) = _
    refine congrArg (V c main_v35) (funext fun a => Fin.ext ?_)
    match a with
    | ⟨0, _⟩ => show win2_6.index t (0 : Fin 2) * 1 + 1 * 0 = 0; omega
    | ⟨1, _⟩ => show win2_6.index t (1 : Fin 2) * 64 + 1 * q.val = win2_7.index t (1 : Fin 2) * 64 + 1 * q.val; omega
  simp only [updArr, Gnn.mlp2r, Gnn.mlp2, Gnn.affine, Gnn.hidden, hx, hy, hwa, hwb, hb1, hw2, hb2]

/-- An index of the result array is in point t's block iff each coordinate is in the block's range. -/
theorem mem_blk2 (t : Fin cfg2.N) (i : S50000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v36).slice (win2_7.rect t)).set ↔ _
  rw [View.set_slice_whole, Rect.mem_set_unit]
  exact Iff.rfl

/-- The row blocks tile the result array: row r is in the block of the point whose block index is r / 5000. -/
theorem cover2 (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  obtain ⟨t, ht⟩ := idx_onto2 ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-- The result array after the stage. -/
theorem final2 (c : Dev nD) :
    (dat2 V c).arrAt 7 cfg2.N = updArr (V c main_v5) (V c main_v23) (V c main_v32) (V c main_v33) (V c main_v34) (V c main_v29) (V c main_v35) :=
  (dat2 V c).arrAt_eq_of_cover 7 _ (fun t _ => flushed2_eq V c t) cover2

end Cert.KernelIdeal.Regions

end
-- ==== Proof.PassA.lean ====
/-
  Buffers that no dense stage writes and no host operation overwrites keep their contents along the program:
  at the exit of each dense stage, the two rows of the edge list and the message weights still read what they held at launch
  (the two rows of the edge list: what the first host operations made of the edge list).
-/
import proofs.«126528_j60619168416173_1_alg».proof.Proof.Gen.KernelIdeal.Frame
import proofs.«126528_j60619168416173_1_alg».proof.Proof.RefNet
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

theorem W2_main_v1 : W2 m ρ c (Proc.devRef .tc main_v1) = Cert.ReferenceIdeal.Net.row (m ((c : Thread nD τ).loc main_arg1)) := by
  rw [W2_of_ne m ρ c main_v1 (by decide)]
  show (StableHlo.after hostOps0 (W0 m ρ c)) (Proc.devRef .tc main_v1) = _
  after_results
  rfl

theorem W6_main_v1 : W6 m ρ c (Proc.devRef .tc main_v1) = Cert.ReferenceIdeal.Net.row (m ((c : Thread nD τ).loc main_arg1)) := by
  rw [W6_of_ne m ρ c main_v1 (by decide)]
  show (StableHlo.after hostOps1_2 (StableHlo.after hostOps1_1 (StableHlo.after hostOps1 (W2 m ρ c)))) (Proc.devRef .tc main_v1) = _
  after_results
  exact W2_main_v1 m ρ c

theorem W8_main_v1 : W8 m ρ c (Proc.devRef .tc main_v1) = Cert.ReferenceIdeal.Net.row (m ((c : Thread nD τ).loc main_arg1)) := by
  rw [W8_of_ne m ρ c main_v1 (by decide)]
  show (StableHlo.after hostOps2 (W6 m ρ c)) (Proc.devRef .tc main_v1) = _
  after_results
  exact W6_main_v1 m ρ c

theorem W12_main_v1 : W12 m ρ c (Proc.devRef .tc main_v1) = Cert.ReferenceIdeal.Net.row (m ((c : Thread nD τ).loc main_arg1)) := by
  rw [W12_of_ne m ρ c main_v1 (by decide)]
  show (StableHlo.after hostOps3_2 (StableHlo.after hostOps3_1 (StableHlo.after hostOps3 (W8 m ρ c)))) (Proc.devRef .tc main_v1) = _
  after_results
  exact W8_main_v1 m ρ c

theorem W14_main_v1 : W14 m ρ c (Proc.devRef .tc main_v1) = Cert.ReferenceIdeal.Net.row (m ((c : Thread nD τ).loc main_arg1)) := by
  rw [W14_of_ne m ρ c main_v1 (by decide)]
  show (StableHlo.after hostOps4 (W12 m ρ c)) (Proc.devRef .tc main_v1) = _
  after_results
  exact W12_main_v1 m ρ c

theorem W2_main_v3 : W2 m ρ c (Proc.devRef .tc main_v3) = Cert.ReferenceIdeal.Net.col (m ((c : Thread nD τ).loc main_arg1)) := by
  rw [W2_of_ne m ρ c main_v3 (by decide)]
  show (StableHlo.after hostOps0 (W0 m ρ c)) (Proc.devRef .tc main_v3) = _
  after_results
  rfl

theorem W6_main_v3 : W6 m ρ c (Proc.devRef .tc main_v3) = Cert.ReferenceIdeal.Net.col (m ((c : Thread nD τ).loc main_arg1)) := by
  rw [W6_of_ne m ρ c main_v3 (by decide)]
  show (StableHlo.after hostOps1_2 (StableHlo.after hostOps1_1 (StableHlo.after hostOps1 (W2 m ρ c)))) (Proc.devRef .tc main_v3) = _
  after_results
  exact W2_main_v3 m ρ c

theorem W8_main_v3 : W8 m ρ c (Proc.devRef .tc main_v3) = Cert.ReferenceIdeal.Net.col (m ((c : Thread nD τ).loc main_arg1)) := by
  rw [W8_of_ne m ρ c main_v3 (by decide)]
  show (StableHlo.after hostOps2 (W6 m ρ c)) (Proc.devRef .tc main_v3) = _
  after_results
  exact W6_main_v3 m ρ c

theorem W12_main_v3 : W12 m ρ c (Proc.devRef .tc main_v3) = Cert.ReferenceIdeal.Net.col (m ((c : Thread nD τ).loc main_arg1)) := by
  rw [W12_of_ne m ρ c main_v3 (by decide)]
  show (StableHlo.after hostOps3_2 (StableHlo.after hostOps3_1 (StableHlo.after hostOps3 (W8 m ρ c)))) (Proc.devRef .tc main_v3) = _
  after_results
  exact W8_main_v3 m ρ c

theorem W14_main_v3 : W14 m ρ c (Proc.devRef .tc main_v3) = Cert.ReferenceIdeal.Net.col (m ((c : Thread nD τ).loc main_arg1)) := by
  rw [W14_of_ne m ρ c main_v3 (by decide)]
  show (StableHlo.after hostOps4 (W12 m ρ c)) (Proc.devRef .tc main_v3) = _
  after_results
  exact W12_main_v3 m ρ c

theorem W18_main_v3 : W18 m ρ c (Proc.devRef .tc main_v3) = Cert.ReferenceIdeal.Net.col (m ((c : Thread nD τ).loc main_arg1)) := by
  rw [W18_of_ne m ρ c main_v3 (by decide)]
  show (StableHlo.after hostOps5_2 (StableHlo.after hostOps5_1 (StableHlo.after hostOps5 (W14 m ρ c)))) (Proc.devRef .tc main_v3) = _
  after_results
  exact W14_main_v3 m ρ c

theorem W2_main_arg4 : W2 m ρ c (Proc.devRef .tc main_arg4) = (m ((c : Thread nD τ).loc main_arg4)) := by
  rw [W2_of_ne m ρ c main_arg4 (by decide)]
  show (StableHlo.after hostOps0 (W0 m ρ c)) (Proc.devRef .tc main_arg4) = _
  after_results

theorem W6_main_arg4 : W6 m ρ c (Proc.devRef .tc main_arg4) = (m ((c : Thread nD τ).loc main_arg4)) := by
  rw [W6_of_ne m ρ c main_arg4 (by decide)]
  show (StableHlo.after hostOps1_2 (StableHlo.after hostOps1_1 (StableHlo.after hostOps1 (W2 m ρ c)))) (Proc.devRef .tc main_arg4) = _
  after_results
  exact W2_main_arg4 m ρ c

theorem W8_main_arg4 : W8 m ρ c (Proc.devRef .tc main_arg4) = (m ((c : Thread nD τ).loc main_arg4)) := by
  rw [W8_of_ne m ρ c main_arg4 (by decide)]
  show (StableHlo.after hostOps2 (W6 m ρ c)) (Proc.devRef .tc main_arg4) = _
  after_results
  exact W6_main_arg4 m ρ c

theorem W12_main_arg4 : W12 m ρ c (Proc.devRef .tc main_arg4) = (m ((c : Thread nD τ).loc main_arg4)) := by
  rw [W12_of_ne m ρ c main_arg4 (by decide)]
  show (StableHlo.after hostOps3_2 (StableHlo.after hostOps3_1 (StableHlo.after hostOps3 (W8 m ρ c)))) (Proc.devRef .tc main_arg4) = _
  after_results
  exact W8_main_arg4 m ρ c

theorem W14_main_arg4 : W14 m ρ c (Proc.devRef .tc main_arg4) = (m ((c : Thread nD τ).loc main_arg4)) := by
  rw [W14_of_ne m ρ c main_arg4 (by decide)]
  show (StableHlo.after hostOps4 (W12 m ρ c)) (Proc.devRef .tc main_arg4) = _
  after_results
  exact W12_main_arg4 m ρ c

theorem W2_main_arg5 : W2 m ρ c (Proc.devRef .tc main_arg5) = (m ((c : Thread nD τ).loc main_arg5)) := by
  rw [W2_of_ne m ρ c main_arg5 (by decide)]
  show (StableHlo.after hostOps0 (W0 m ρ c)) (Proc.devRef .tc main_arg5) = _
  after_results

theorem W6_main_arg5 : W6 m ρ c (Proc.devRef .tc main_arg5) = (m ((c : Thread nD τ).loc main_arg5)) := by
  rw [W6_of_ne m ρ c main_arg5 (by decide)]
  show (StableHlo.after hostOps1_2 (StableHlo.after hostOps1_1 (StableHlo.after hostOps1 (W2 m ρ c)))) (Proc.devRef .tc main_arg5) = _
  after_results
  exact W2_main_arg5 m ρ c

theorem W8_main_arg5 : W8 m ρ c (Proc.devRef .tc main_arg5) = (m ((c : Thread nD τ).loc main_arg5)) := by
  rw [W8_of_ne m ρ c main_arg5 (by decide)]
  show (StableHlo.after hostOps2 (W6 m ρ c)) (Proc.devRef .tc main_arg5) = _
  after_results
  exact W6_main_arg5 m ρ c

theorem W12_main_arg5 : W12 m ρ c (Proc.devRef .tc main_arg5) = (m ((c : Thread nD τ).loc main_arg5)) := by
  rw [W12_of_ne m ρ c main_arg5 (by decide)]
  show (StableHlo.after hostOps3_2 (StableHlo.after hostOps3_1 (StableHlo.after hostOps3 (W8 m ρ c)))) (Proc.devRef .tc main_arg5) = _
  after_results
  exact W8_main_arg5 m ρ c

theorem W14_main_arg5 : W14 m ρ c (Proc.devRef .tc main_arg5) = (m ((c : Thread nD τ).loc main_arg5)) := by
  rw [W14_of_ne m ρ c main_arg5 (by decide)]
  show (StableHlo.after hostOps4 (W12 m ρ c)) (Proc.devRef .tc main_arg5) = _
  after_results
  exact W12_main_arg5 m ρ c

theorem W2_main_arg6 : W2 m ρ c (Proc.devRef .tc main_arg6) = (m ((c : Thread nD τ).loc main_arg6)) := by
  rw [W2_of_ne m ρ c main_arg6 (by decide)]
  show (StableHlo.after hostOps0 (W0 m ρ c)) (Proc.devRef .tc main_arg6) = _
  after_results

theorem W6_main_arg6 : W6 m ρ c (Proc.devRef .tc main_arg6) = (m ((c : Thread nD τ).loc main_arg6)) := by
  rw [W6_of_ne m ρ c main_arg6 (by decide)]
  show (StableHlo.after hostOps1_2 (StableHlo.after hostOps1_1 (StableHlo.after hostOps1 (W2 m ρ c)))) (Proc.devRef .tc main_arg6) = _
  after_results
  exact W2_main_arg6 m ρ c

theorem W8_main_arg6 : W8 m ρ c (Proc.devRef .tc main_arg6) = (m ((c : Thread nD τ).loc main_arg6)) := by
  rw [W8_of_ne m ρ c main_arg6 (by decide)]
  show (StableHlo.after hostOps2 (W6 m ρ c)) (Proc.devRef .tc main_arg6) = _
  after_results
  exact W6_main_arg6 m ρ c

theorem W12_main_arg6 : W12 m ρ c (Proc.devRef .tc main_arg6) = (m ((c : Thread nD τ).loc main_arg6)) := by
  rw [W12_of_ne m ρ c main_arg6 (by decide)]
  show (StableHlo.after hostOps3_2 (StableHlo.after hostOps3_1 (StableHlo.after hostOps3 (W8 m ρ c)))) (Proc.devRef .tc main_arg6) = _
  after_results
  exact W8_main_arg6 m ρ c

theorem W14_main_arg6 : W14 m ρ c (Proc.devRef .tc main_arg6) = (m ((c : Thread nD τ).loc main_arg6)) := by
  rw [W14_of_ne m ρ c main_arg6 (by decide)]
  show (StableHlo.after hostOps4 (W12 m ρ c)) (Proc.devRef .tc main_arg6) = _
  after_results
  exact W12_main_arg6 m ρ c

theorem W2_main_arg7 : W2 m ρ c (Proc.devRef .tc main_arg7) = (m ((c : Thread nD τ).loc main_arg7)) := by
  rw [W2_of_ne m ρ c main_arg7 (by decide)]
  show (StableHlo.after hostOps0 (W0 m ρ c)) (Proc.devRef .tc main_arg7) = _
  after_results

theorem W6_main_arg7 : W6 m ρ c (Proc.devRef .tc main_arg7) = (m ((c : Thread nD τ).loc main_arg7)) := by
  rw [W6_of_ne m ρ c main_arg7 (by decide)]
  show (StableHlo.after hostOps1_2 (StableHlo.after hostOps1_1 (StableHlo.after hostOps1 (W2 m ρ c)))) (Proc.devRef .tc main_arg7) = _
  after_results
  exact W2_main_arg7 m ρ c

theorem W8_main_arg7 : W8 m ρ c (Proc.devRef .tc main_arg7) = (m ((c : Thread nD τ).loc main_arg7)) := by
  rw [W8_of_ne m ρ c main_arg7 (by decide)]
  show (StableHlo.after hostOps2 (W6 m ρ c)) (Proc.devRef .tc main_arg7) = _
  after_results
  exact W6_main_arg7 m ρ c

theorem W12_main_arg7 : W12 m ρ c (Proc.devRef .tc main_arg7) = (m ((c : Thread nD τ).loc main_arg7)) := by
  rw [W12_of_ne m ρ c main_arg7 (by decide)]
  show (StableHlo.after hostOps3_2 (StableHlo.after hostOps3_1 (StableHlo.after hostOps3 (W8 m ρ c)))) (Proc.devRef .tc main_arg7) = _
  after_results
  exact W8_main_arg7 m ρ c

theorem W14_main_arg7 : W14 m ρ c (Proc.devRef .tc main_arg7) = (m ((c : Thread nD τ).loc main_arg7)) := by
  rw [W14_of_ne m ρ c main_arg7 (by decide)]
  show (StableHlo.after hostOps4 (W12 m ρ c)) (Proc.devRef .tc main_arg7) = _
  after_results
  exact W12_main_arg7 m ρ c

end Cert.Fold

end
-- ==== Proof.PassB.lean ====
/-
  Buffers that no dense stage writes and no host operation overwrites keep their contents along the program:
  at the exit of each dense stage, the update weights still read what they held at launch
  (the two rows of the edge list: what the first host operations made of the edge list).
-/
import proofs.«126528_j60619168416173_1_alg».proof.Proof.Gen.KernelIdeal.Frame
import proofs.«126528_j60619168416173_1_alg».proof.Proof.RefNet
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

theorem W2_main_arg8 : W2 m ρ c (Proc.devRef .tc main_arg8) = (m ((c : Thread nD τ).loc main_arg8)) := by
  rw [W2_of_ne m ρ c main_arg8 (by decide)]
  show (StableHlo.after hostOps0 (W0 m ρ c)) (Proc.devRef .tc main_arg8) = _
  after_results

theorem W6_main_arg8 : W6 m ρ c (Proc.devRef .tc main_arg8) = (m ((c : Thread nD τ).loc main_arg8)) := by
  rw [W6_of_ne m ρ c main_arg8 (by decide)]
  show (StableHlo.after hostOps1_2 (StableHlo.after hostOps1_1 (StableHlo.after hostOps1 (W2 m ρ c)))) (Proc.devRef .tc main_arg8) = _
  after_results
  exact W2_main_arg8 m ρ c

theorem W8_main_arg8 : W8 m ρ c (Proc.devRef .tc main_arg8) = (m ((c : Thread nD τ).loc main_arg8)) := by
  rw [W8_of_ne m ρ c main_arg8 (by decide)]
  show (StableHlo.after hostOps2 (W6 m ρ c)) (Proc.devRef .tc main_arg8) = _
  after_results
  exact W6_main_arg8 m ρ c

theorem W12_main_arg8 : W12 m ρ c (Proc.devRef .tc main_arg8) = (m ((c : Thread nD τ).loc main_arg8)) := by
  rw [W12_of_ne m ρ c main_arg8 (by decide)]
  show (StableHlo.after hostOps3_2 (StableHlo.after hostOps3_1 (StableHlo.after hostOps3 (W8 m ρ c)))) (Proc.devRef .tc main_arg8) = _
  after_results
  exact W8_main_arg8 m ρ c

theorem W14_main_arg8 : W14 m ρ c (Proc.devRef .tc main_arg8) = (m ((c : Thread nD τ).loc main_arg8)) := by
  rw [W14_of_ne m ρ c main_arg8 (by decide)]
  show (StableHlo.after hostOps4 (W12 m ρ c)) (Proc.devRef .tc main_arg8) = _
  after_results
  exact W12_main_arg8 m ρ c

theorem W18_main_arg8 : W18 m ρ c (Proc.devRef .tc main_arg8) = (m ((c : Thread nD τ).loc main_arg8)) := by
  rw [W18_of_ne m ρ c main_arg8 (by decide)]
  show (StableHlo.after hostOps5_2 (StableHlo.after hostOps5_1 (StableHlo.after hostOps5 (W14 m ρ c)))) (Proc.devRef .tc main_arg8) = _
  after_results
  exact W14_main_arg8 m ρ c

theorem W2_main_arg9 : W2 m ρ c (Proc.devRef .tc main_arg9) = (m ((c : Thread nD τ).loc main_arg9)) := by
  rw [W2_of_ne m ρ c main_arg9 (by decide)]
  show (StableHlo.after hostOps0 (W0 m ρ c)) (Proc.devRef .tc main_arg9) = _
  after_results

theorem W6_main_arg9 : W6 m ρ c (Proc.devRef .tc main_arg9) = (m ((c : Thread nD τ).loc main_arg9)) := by
  rw [W6_of_ne m ρ c main_arg9 (by decide)]
  show (StableHlo.after hostOps1_2 (StableHlo.after hostOps1_1 (StableHlo.after hostOps1 (W2 m ρ c)))) (Proc.devRef .tc main_arg9) = _
  after_results
  exact W2_main_arg9 m ρ c

theorem W8_main_arg9 : W8 m ρ c (Proc.devRef .tc main_arg9) = (m ((c : Thread nD τ).loc main_arg9)) := by
  rw [W8_of_ne m ρ c main_arg9 (by decide)]
  show (StableHlo.after hostOps2 (W6 m ρ c)) (Proc.devRef .tc main_arg9) = _
  after_results
  exact W6_main_arg9 m ρ c

theorem W12_main_arg9 : W12 m ρ c (Proc.devRef .tc main_arg9) = (m ((c : Thread nD τ).loc main_arg9)) := by
  rw [W12_of_ne m ρ c main_arg9 (by decide)]
  show (StableHlo.after hostOps3_2 (StableHlo.after hostOps3_1 (StableHlo.after hostOps3 (W8 m ρ c)))) (Proc.devRef .tc main_arg9) = _
  after_results
  exact W8_main_arg9 m ρ c

theorem W14_main_arg9 : W14 m ρ c (Proc.devRef .tc main_arg9) = (m ((c : Thread nD τ).loc main_arg9)) := by
  rw [W14_of_ne m ρ c main_arg9 (by decide)]
  show (StableHlo.after hostOps4 (W12 m ρ c)) (Proc.devRef .tc main_arg9) = _
  after_results
  exact W12_main_arg9 m ρ c

theorem W18_main_arg9 : W18 m ρ c (Proc.devRef .tc main_arg9) = (m ((c : Thread nD τ).loc main_arg9)) := by
  rw [W18_of_ne m ρ c main_arg9 (by decide)]
  show (StableHlo.after hostOps5_2 (StableHlo.after hostOps5_1 (StableHlo.after hostOps5 (W14 m ρ c)))) (Proc.devRef .tc main_arg9) = _
  after_results
  exact W14_main_arg9 m ρ c

theorem W2_main_arg10 : W2 m ρ c (Proc.devRef .tc main_arg10) = (m ((c : Thread nD τ).loc main_arg10)) := by
  rw [W2_of_ne m ρ c main_arg10 (by decide)]
  show (StableHlo.after hostOps0 (W0 m ρ c)) (Proc.devRef .tc main_arg10) = _
  after_results

theorem W6_main_arg10 : W6 m ρ c (Proc.devRef .tc main_arg10) = (m ((c : Thread nD τ).loc main_arg10)) := by
  rw [W6_of_ne m ρ c main_arg10 (by decide)]
  show (StableHlo.after hostOps1_2 (StableHlo.after hostOps1_1 (StableHlo.after hostOps1 (W2 m ρ c)))) (Proc.devRef .tc main_arg10) = _
  after_results
  exact W2_main_arg10 m ρ c

theorem W8_main_arg10 : W8 m ρ c (Proc.devRef .tc main_arg10) = (m ((c : Thread nD τ).loc main_arg10)) := by
  rw [W8_of_ne m ρ c main_arg10 (by decide)]
  show (StableHlo.after hostOps2 (W6 m ρ c)) (Proc.devRef .tc main_arg10) = _
  after_results
  exact W6_main_arg10 m ρ c

theorem W12_main_arg10 : W12 m ρ c (Proc.devRef .tc main_arg10) = (m ((c : Thread nD τ).loc main_arg10)) := by
  rw [W12_of_ne m ρ c main_arg10 (by decide)]
  show (StableHlo.after hostOps3_2 (StableHlo.after hostOps3_1 (StableHlo.after hostOps3 (W8 m ρ c)))) (Proc.devRef .tc main_arg10) = _
  after_results
  exact W8_main_arg10 m ρ c

theorem W14_main_arg10 : W14 m ρ c (Proc.devRef .tc main_arg10) = (m ((c : Thread nD τ).loc main_arg10)) := by
  rw [W14_of_ne m ρ c main_arg10 (by decide)]
  show (StableHlo.after hostOps4 (W12 m ρ c)) (Proc.devRef .tc main_arg10) = _
  after_results
  exact W12_main_arg10 m ρ c

theorem W18_main_arg10 : W18 m ρ c (Proc.devRef .tc main_arg10) = (m ((c : Thread nD τ).loc main_arg10)) := by
  rw [W18_of_ne m ρ c main_arg10 (by decide)]
  show (StableHlo.after hostOps5_2 (StableHlo.after hostOps5_1 (StableHlo.after hostOps5 (W14 m ρ c)))) (Proc.devRef .tc main_arg10) = _
  after_results
  exact W14_main_arg10 m ρ c

theorem W2_main_arg11 : W2 m ρ c (Proc.devRef .tc main_arg11) = (m ((c : Thread nD τ).loc main_arg11)) := by
  rw [W2_of_ne m ρ c main_arg11 (by decide)]
  show (StableHlo.after hostOps0 (W0 m ρ c)) (Proc.devRef .tc main_arg11) = _
  after_results

theorem W6_main_arg11 : W6 m ρ c (Proc.devRef .tc main_arg11) = (m ((c : Thread nD τ).loc main_arg11)) := by
  rw [W6_of_ne m ρ c main_arg11 (by decide)]
  show (StableHlo.after hostOps1_2 (StableHlo.after hostOps1_1 (StableHlo.after hostOps1 (W2 m ρ c)))) (Proc.devRef .tc main_arg11) = _
  after_results
  exact W2_main_arg11 m ρ c

theorem W8_main_arg11 : W8 m ρ c (Proc.devRef .tc main_arg11) = (m ((c : Thread nD τ).loc main_arg11)) := by
  rw [W8_of_ne m ρ c main_arg11 (by decide)]
  show (StableHlo.after hostOps2 (W6 m ρ c)) (Proc.devRef .tc main_arg11) = _
  after_results
  exact W6_main_arg11 m ρ c

theorem W12_main_arg11 : W12 m ρ c (Proc.devRef .tc main_arg11) = (m ((c : Thread nD τ).loc main_arg11)) := by
  rw [W12_of_ne m ρ c main_arg11 (by decide)]
  show (StableHlo.after hostOps3_2 (StableHlo.after hostOps3_1 (StableHlo.after hostOps3 (W8 m ρ c)))) (Proc.devRef .tc main_arg11) = _
  after_results
  exact W8_main_arg11 m ρ c

theorem W14_main_arg11 : W14 m ρ c (Proc.devRef .tc main_arg11) = (m ((c : Thread nD τ).loc main_arg11)) := by
  rw [W14_of_ne m ρ c main_arg11 (by decide)]
  show (StableHlo.after hostOps4 (W12 m ρ c)) (Proc.devRef .tc main_arg11) = _
  after_results
  exact W12_main_arg11 m ρ c

theorem W18_main_arg11 : W18 m ρ c (Proc.devRef .tc main_arg11) = (m ((c : Thread nD τ).loc main_arg11)) := by
  rw [W18_of_ne m ρ c main_arg11 (by decide)]
  show (StableHlo.after hostOps5_2 (StableHlo.after hostOps5_1 (StableHlo.after hostOps5 (W14 m ρ c)))) (Proc.devRef .tc main_arg11) = _
  after_results
  exact W14_main_arg11 m ρ c

end Cert.Fold

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.StageInputs0.lean ====
/-
  Layer 0's two dense stages take arrays that the host operations before them prepare: for the message stage the
  guarded gathers of the node features at the two rows of the edge list, the two halves of the layer's slice of the
  stacked first weight, the slice of the second weight and the two biases as one-row matrices; for the update stage
  the node features, the scatter-add of the messages, and the update weights cut the same way. From any contents V
  of the buffers, each stretch of host operations leaves in each of these buffers the named function of what V
  holds in the buffers it reads, and leaves alone the buffers it does not write.
-/
import proofs.«126528_j60619168416173_1_alg».proof.Proof.Gen.KernelIdeal.Launch
import proofs.«126528_j60619168416173_1_alg».proof.Proof.RefNet
import proofs.«126528_j60619168416173_1_alg».proof.Proof.LibTypedRef
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (V : Valuation τ sig (Elt Ideal))

/-! A buffer named by a literal reference has the contents type the reference states, so reading its contents at that
    type, or storing a value of that type into it, is the identity. -/
theorem read_main_v1_l0 (p1 p2 p3) : (StableHlo.TRef.of (sig := sig) (T := ⟨S800000, .i32⟩) main_v1 p1 p2 p3).ofBuf (V (Proc.devRef .tc main_v1)) = V (Proc.devRef .tc main_v1) := rfl
theorem read_main_v3_l0 (p1 p2 p3) : (StableHlo.TRef.of (sig := sig) (T := ⟨S800000, .i32⟩) main_v3 p1 p2 p3).ofBuf (V (Proc.devRef .tc main_v3)) = V (Proc.devRef .tc main_v3) := rfl
theorem read_h_l0 (p1 p2 p3) : (StableHlo.TRef.of (sig := sig) (T := ⟨S50000x64, .f32⟩) main_v5 p1 p2 p3).ofBuf (V (Proc.devRef .tc main_v5)) = V (Proc.devRef .tc main_v5) := rfl
theorem store_row_l0 (p1 p2 p3) (v : (⟨S800000x64, .f32⟩ : BufTy).Contents (Elt Ideal)) : (StableHlo.TRef.of (sig := sig) (T := ⟨S800000x64, .f32⟩) main_v6 p1 p2 p3).toBuf v = v := rfl
theorem store_col_l0 (p1 p2 p3) (v : (⟨S800000x64, .f32⟩ : BufTy).Contents (Elt Ideal)) : (StableHlo.TRef.of (sig := sig) (T := ⟨S800000x64, .f32⟩) main_v7 p1 p2 p3).toBuf v = v := rfl

/-- The first guarded gather: the node features at the first row of the edge list. -/
theorem takeRow_l0 : StableHlo.after hostOps1 V (Proc.devRef .tc main_v6)
    = Cert.IdxRange.kerTake (V (Proc.devRef .tc main_v5)) (V (Proc.devRef .tc main_v1)) := by
  after_results_simp
  simp only [StableHlo.TRef.ofBuf_toBuf, read_main_v1_l0, read_h_l0, store_row_l0]
  rfl

/-- The second guarded gather: the node features at the second row of the edge list. -/
theorem takeCol_l0 : StableHlo.after hostOps1_1 V (Proc.devRef .tc main_v7)
    = Cert.IdxRange.kerTake (V (Proc.devRef .tc main_v5)) (V (Proc.devRef .tc main_v3)) := by
  after_results_simp
  simp only [StableHlo.TRef.ofBuf_toBuf, read_main_v3_l0, read_h_l0, store_col_l0]
  rfl

/-! The first gather's operations write neither the node features, nor the second row of the edge list, nor the weights. -/
theorem keepA_main_v5_l0 : StableHlo.after hostOps1 V (Proc.devRef .tc main_v5) = V (Proc.devRef .tc main_v5) := by
  after_results
theorem keepA_main_v3_l0 : StableHlo.after hostOps1 V (Proc.devRef .tc main_v3) = V (Proc.devRef .tc main_v3) := by
  after_results
theorem keepA_main_arg4_l0 : StableHlo.after hostOps1 V (Proc.devRef .tc main_arg4) = V (Proc.devRef .tc main_arg4) := by
  after_results
theorem keepA_main_arg5_l0 : StableHlo.after hostOps1 V (Proc.devRef .tc main_arg5) = V (Proc.devRef .tc main_arg5) := by
  after_results
theorem keepA_main_arg6_l0 : StableHlo.after hostOps1 V (Proc.devRef .tc main_arg6) = V (Proc.devRef .tc main_arg6) := by
  after_results
theorem keepA_main_arg7_l0 : StableHlo.after hostOps1 V (Proc.devRef .tc main_arg7) = V (Proc.devRef .tc main_arg7) := by
  after_results

/-! The second gather's operations write neither the node features, nor the first gather's result, nor the weights. -/
theorem keepB_main_v5_l0 : StableHlo.after hostOps1_1 V (Proc.devRef .tc main_v5) = V (Proc.devRef .tc main_v5) := by
  after_results
theorem keepB_main_v6_l0 : StableHlo.after hostOps1_1 V (Proc.devRef .tc main_v6) = V (Proc.devRef .tc main_v6) := by
  after_results
theorem keepB_main_arg4_l0 : StableHlo.after hostOps1_1 V (Proc.devRef .tc main_arg4) = V (Proc.devRef .tc main_arg4) := by
  after_results
theorem keepB_main_arg5_l0 : StableHlo.after hostOps1_1 V (Proc.devRef .tc main_arg5) = V (Proc.devRef .tc main_arg5) := by
  after_results
theorem keepB_main_arg6_l0 : StableHlo.after hostOps1_1 V (Proc.devRef .tc main_arg6) = V (Proc.devRef .tc main_arg6) := by
  after_results
theorem keepB_main_arg7_l0 : StableHlo.after hostOps1_1 V (Proc.devRef .tc main_arg7) = V (Proc.devRef .tc main_arg7) := by
  after_results

/-! The weight slicing writes neither the node features nor a gather's result. -/
theorem keepC_main_v5_l0 : StableHlo.after hostOps1_2 V (Proc.devRef .tc main_v5) = V (Proc.devRef .tc main_v5) := by
  after_results
theorem keepC_main_v6_l0 : StableHlo.after hostOps1_2 V (Proc.devRef .tc main_v6) = V (Proc.devRef .tc main_v6) := by
  after_results
theorem keepC_main_v7_l0 : StableHlo.after hostOps1_2 V (Proc.devRef .tc main_v7) = V (Proc.devRef .tc main_v7) := by
  after_results

/-- Rows 0 … 63 of the layer's slice of the stacked first message weight. -/
theorem wTop_l0 : StableHlo.after hostOps1_2 V (Proc.devRef .tc main_v16)
    = extractStridedSlice S64x64 ![0, 0] (Cert.ReferenceIdeal.Net.w128 ![0, 0, 0] Cert.ReferenceIdeal.Facts₀.slices_S3x128x64_S1x128x64_0_0_0 (V (Proc.devRef .tc main_arg4))) Cert.KernelIdeal.Facts₀.slices_S128x64_S64x64_0_0 := by
  after_results
  rfl

/-- Rows 64 … 127 of the layer's slice of the stacked first message weight. -/
theorem wBot_l0 : StableHlo.after hostOps1_2 V (Proc.devRef .tc main_v17)
    = extractStridedSlice S64x64 ![64, 0] (Cert.ReferenceIdeal.Net.w128 ![0, 0, 0] Cert.ReferenceIdeal.Facts₀.slices_S3x128x64_S1x128x64_0_0_0 (V (Proc.devRef .tc main_arg4))) Cert.KernelIdeal.Facts₀.slices_S128x64_S64x64_64_0 := by
  after_results
  rfl

/-- The layer's first message bias as a one-row matrix. -/
theorem b1_l0 : StableHlo.after hostOps1_2 V (Proc.devRef .tc main_v18)
    = shapeCast S1x64 (Cert.ReferenceIdeal.Net.b64 ![0, 0] Cert.ReferenceIdeal.Facts₀.slices_S3x64_S1x64_0_0 (V (Proc.devRef .tc main_arg5))) Cert.KernelIdeal.Facts₀.shapeCasts_S64_S1x64 := by
  after_results
  rfl

/-- The layer's slice of the stacked second message weight. -/
theorem w2_l0 : StableHlo.after hostOps1_2 V (Proc.devRef .tc main_v13)
    = Cert.ReferenceIdeal.Net.w64 ![0, 0, 0] Cert.ReferenceIdeal.Facts₀.slices_S3x64x64_S1x64x64_0_0_0 (V (Proc.devRef .tc main_arg6)) := by
  after_results
  rfl

/-- The layer's second message bias as a one-row matrix. -/
theorem b2_l0 : StableHlo.after hostOps1_2 V (Proc.devRef .tc main_v19)
    = shapeCast S1x64 (Cert.ReferenceIdeal.Net.b64 ![0, 0] Cert.ReferenceIdeal.Facts₀.slices_S3x64_S1x64_0_0 (V (Proc.devRef .tc main_arg7))) Cert.KernelIdeal.Facts₀.shapeCasts_S64_S1x64 := by
  after_results
  rfl

/-! The operations before the update stage do not write the node features. -/
theorem keepD_main_v5_l0 : StableHlo.after hostOps2 V (Proc.devRef .tc main_v5) = V (Proc.devRef .tc main_v5) := by
  after_results

/-- The messages scatter-added, from zero, into the rows the second row of the edge list names. -/
theorem aggD_l0 : StableHlo.after hostOps2 V (Proc.devRef .tc main_v23)
    = Cert.ReferenceIdeal.Net.agg (V (Proc.devRef .tc main_v3)) (V (Proc.devRef .tc main_v20)) := by
  after_results
  rfl

/-- Rows 0 … 63 of the layer's slice of the stacked first update weight. -/
theorem uTop_l0 : StableHlo.after hostOps2 V (Proc.devRef .tc main_v32)
    = extractStridedSlice S64x64 ![0, 0] (Cert.ReferenceIdeal.Net.w128 ![0, 0, 0] Cert.ReferenceIdeal.Facts₀.slices_S3x128x64_S1x128x64_0_0_0 (V (Proc.devRef .tc main_arg8))) Cert.KernelIdeal.Facts₀.slices_S128x64_S64x64_0_0 := by
  after_results
  rfl

/-- Rows 64 … 127 of the layer's slice of the stacked first update weight. -/
theorem uBot_l0 : StableHlo.after hostOps2 V (Proc.devRef .tc main_v33)
    = extractStridedSlice S64x64 ![64, 0] (Cert.ReferenceIdeal.Net.w128 ![0, 0, 0] Cert.ReferenceIdeal.Facts₀.slices_S3x128x64_S1x128x64_0_0_0 (V (Proc.devRef .tc main_arg8))) Cert.KernelIdeal.Facts₀.slices_S128x64_S64x64_64_0 := by
  after_results
  rfl

/-- The layer's first update bias as a one-row matrix. -/
theorem ub1_l0 : StableHlo.after hostOps2 V (Proc.devRef .tc main_v34)
    = shapeCast S1x64 (Cert.ReferenceIdeal.Net.b64 ![0, 0] Cert.ReferenceIdeal.Facts₀.slices_S3x64_S1x64_0_0 (V (Proc.devRef .tc main_arg9))) Cert.KernelIdeal.Facts₀.shapeCasts_S64_S1x64 := by
  after_results
  rfl

/-- The layer's slice of the stacked second update weight. -/
theorem uw2_l0 : StableHlo.after hostOps2 V (Proc.devRef .tc main_v29)
    = Cert.ReferenceIdeal.Net.w64 ![0, 0, 0] Cert.ReferenceIdeal.Facts₀.slices_S3x64x64_S1x64x64_0_0_0 (V (Proc.devRef .tc main_arg10)) := by
  after_results
  rfl

/-- The layer's second update bias as a one-row matrix. -/
theorem ub2_l0 : StableHlo.after hostOps2 V (Proc.devRef .tc main_v35)
    = shapeCast S1x64 (Cert.ReferenceIdeal.Net.b64 ![0, 0] Cert.ReferenceIdeal.Facts₀.slices_S3x64_S1x64_0_0 (V (Proc.devRef .tc main_arg11))) Cert.KernelIdeal.Facts₀.shapeCasts_S64_S1x64 := by
  after_results
  rfl

end Cert.Fold

end
-- ==== Proof.Layer0.lean ====
/-
  Layer 0 of the message passing, kernel against reference. Whatever node features h the layer starts from:
  the message stage's result array is the reference's message perceptron of the gathered rows of h (the indices are in
  range, so the kernel's guarded gather never fills and is the reference's gather), the scatter-add that follows is the
  reference's, and the update stage's result array is the reference's update perceptron of h and the aggregate.
-/
import proofs.«126528_j60619168416173_1_alg».proof.Proof.Gen.KernelIdeal.Frame
import proofs.«126528_j60619168416173_1_alg».proof.Proof.Region1
import proofs.«126528_j60619168416173_1_alg».proof.Proof.Region2
import proofs.«126528_j60619168416173_1_alg».proof.Proof.LayerEq
import proofs.«126528_j60619168416173_1_alg».proof.Proof.RefNet
import proofs.«126528_j60619168416173_1_alg».proof.Proof.PassA
import proofs.«126528_j60619168416173_1_alg».proof.Proof.PassB
import proofs.«126528_j60619168416173_1_alg».proof.Proof.StageInputs0
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

/-- The messages. -/
theorem msg_l0 (hR : Cert.IdxRange.InRange (m ((c : Thread nD τ).loc main_arg1))) (h : FVec Ideal Cert.ReferenceIdeal.S50000x64 .f32) (hh : W2 m ρ c (Proc.devRef .tc main_v5) = h) :
    W6 m ρ c (Proc.devRef .tc main_v20)
      = Cert.ReferenceIdeal.Layers.refMsg (Cert.IdxRange.refTake h (Cert.ReferenceIdeal.Net.row (m ((c : Thread nD τ).loc main_arg1)))) (Cert.IdxRange.refTake h (Cert.ReferenceIdeal.Net.col (m ((c : Thread nD τ).loc main_arg1)))) (Cert.ReferenceIdeal.Net.w128 ![0, 0, 0] Cert.ReferenceIdeal.Facts₀.slices_S3x128x64_S1x128x64_0_0_0 (m ((c : Thread nD τ).loc main_arg4))) (Cert.ReferenceIdeal.Net.b64 ![0, 0] Cert.ReferenceIdeal.Facts₀.slices_S3x64_S1x64_0_0 (m ((c : Thread nD τ).loc main_arg5))) (Cert.ReferenceIdeal.Net.w64 ![0, 0, 0] Cert.ReferenceIdeal.Facts₀.slices_S3x64x64_S1x64x64_0_0_0 (m ((c : Thread nD τ).loc main_arg6))) (Cert.ReferenceIdeal.Net.b64 ![0, 0] Cert.ReferenceIdeal.Facts₀.slices_S3x64_S1x64_0_0 (m ((c : Thread nD τ).loc main_arg7))) := by
  have hrow : Cert.IdxRange.InRange (Cert.ReferenceIdeal.Net.row (m ((c : Thread nD τ).loc main_arg1))) := Cert.IdxRange.inRange_edge_row _ hR ![0, 0] Cert.ReferenceIdeal.Facts₀.slices_S2x800000_S1x800000_0_0 Cert.ReferenceIdeal.Facts₀.shapeCasts_S1x800000_S800000
  have hcol : Cert.IdxRange.InRange (Cert.ReferenceIdeal.Net.col (m ((c : Thread nD τ).loc main_arg1))) := Cert.IdxRange.inRange_edge_row _ hR ![1, 0] Cert.ReferenceIdeal.Facts₀.slices_S2x800000_S1x800000_1_0 Cert.ReferenceIdeal.Facts₀.shapeCasts_S1x800000_S800000
  refine Eq.trans (W6_arr m ρ c 7) ?_
  rw [Cert.KernelIdeal.Regions.final1]
  show Cert.KernelIdeal.Regions.msgArr ((StableHlo.after hostOps1_2 (StableHlo.after hostOps1_1 (StableHlo.after hostOps1 (W2 m ρ c)))) (Proc.devRef .tc main_v6))
      ((StableHlo.after hostOps1_2 (StableHlo.after hostOps1_1 (StableHlo.after hostOps1 (W2 m ρ c)))) (Proc.devRef .tc main_v7))
      ((StableHlo.after hostOps1_2 (StableHlo.after hostOps1_1 (StableHlo.after hostOps1 (W2 m ρ c)))) (Proc.devRef .tc main_v16))
      ((StableHlo.after hostOps1_2 (StableHlo.after hostOps1_1 (StableHlo.after hostOps1 (W2 m ρ c)))) (Proc.devRef .tc main_v17))
      ((StableHlo.after hostOps1_2 (StableHlo.after hostOps1_1 (StableHlo.after hostOps1 (W2 m ρ c)))) (Proc.devRef .tc main_v18))
      ((StableHlo.after hostOps1_2 (StableHlo.after hostOps1_1 (StableHlo.after hostOps1 (W2 m ρ c)))) (Proc.devRef .tc main_v13))
      ((StableHlo.after hostOps1_2 (StableHlo.after hostOps1_1 (StableHlo.after hostOps1 (W2 m ρ c)))) (Proc.devRef .tc main_v19)) = _
  rw [keepC_main_v6_l0, keepB_main_v6_l0, takeRow_l0, keepC_main_v7_l0, takeCol_l0, keepA_main_v5_l0, keepA_main_v3_l0,
    wTop_l0, wBot_l0, b1_l0, w2_l0, b2_l0,
    keepB_main_arg4_l0, keepB_main_arg5_l0, keepB_main_arg6_l0, keepB_main_arg7_l0,
    keepA_main_arg4_l0, keepA_main_arg5_l0, keepA_main_arg6_l0, keepA_main_arg7_l0,
    hh, W2_main_v1 m ρ c, W2_main_v3 m ρ c, W2_main_arg4 m ρ c, W2_main_arg5 m ρ c, W2_main_arg6 m ρ c, W2_main_arg7 m ρ c]
  rw [Cert.IdxRange.kerTake_eq_refTake _ _ hrow, Cert.IdxRange.kerTake_eq_refTake _ _ hcol]
  exact Cert.LayerEq.msg_eq _ _ _ _ _ _ _ _ _ _

/-- The update, with the aggregate of any messages M the message stage left. -/
theorem upd_l0 (h : FVec Ideal Cert.ReferenceIdeal.S50000x64 .f32) (hh : W2 m ρ c (Proc.devRef .tc main_v5) = h) (M : FVec Ideal Cert.ReferenceIdeal.S800000x64 .f32)
    (hM : W6 m ρ c (Proc.devRef .tc main_v20) = M) :
    W8 m ρ c (Proc.devRef .tc main_v36)
      = Cert.ReferenceIdeal.Layers.refUpd h (Cert.ReferenceIdeal.Net.agg (Cert.ReferenceIdeal.Net.col (m ((c : Thread nD τ).loc main_arg1))) M) (Cert.ReferenceIdeal.Net.w128 ![0, 0, 0] Cert.ReferenceIdeal.Facts₀.slices_S3x128x64_S1x128x64_0_0_0 (m ((c : Thread nD τ).loc main_arg8))) (Cert.ReferenceIdeal.Net.b64 ![0, 0] Cert.ReferenceIdeal.Facts₀.slices_S3x64_S1x64_0_0 (m ((c : Thread nD τ).loc main_arg9))) (Cert.ReferenceIdeal.Net.w64 ![0, 0, 0] Cert.ReferenceIdeal.Facts₀.slices_S3x64x64_S1x64x64_0_0_0 (m ((c : Thread nD τ).loc main_arg10))) (Cert.ReferenceIdeal.Net.b64 ![0, 0] Cert.ReferenceIdeal.Facts₀.slices_S3x64_S1x64_0_0 (m ((c : Thread nD τ).loc main_arg11))) := by
  have hh' : W6 m ρ c (Proc.devRef .tc main_v5) = h := by
    rw [W6_of_ne m ρ c main_v5 (by decide)]
    show (StableHlo.after hostOps1_2 (StableHlo.after hostOps1_1 (StableHlo.after hostOps1 (W2 m ρ c)))) (Proc.devRef .tc main_v5) = _
    rw [keepC_main_v5_l0, keepB_main_v5_l0, keepA_main_v5_l0]
    exact hh
  refine Eq.trans (W8_arr m ρ c 7) ?_
  rw [Cert.KernelIdeal.Regions.final2]
  show Cert.KernelIdeal.Regions.updArr ((StableHlo.after hostOps2 (W6 m ρ c)) (Proc.devRef .tc main_v5))
      ((StableHlo.after hostOps2 (W6 m ρ c)) (Proc.devRef .tc main_v23))
      ((StableHlo.after hostOps2 (W6 m ρ c)) (Proc.devRef .tc main_v32))
      ((StableHlo.after hostOps2 (W6 m ρ c)) (Proc.devRef .tc main_v33))
      ((StableHlo.after hostOps2 (W6 m ρ c)) (Proc.devRef .tc main_v34))
      ((StableHlo.after hostOps2 (W6 m ρ c)) (Proc.devRef .tc main_v29))
      ((StableHlo.after hostOps2 (W6 m ρ c)) (Proc.devRef .tc main_v35)) = _
  rw [keepD_main_v5_l0, aggD_l0, uTop_l0, uBot_l0, ub1_l0, uw2_l0, ub2_l0,
    hh', hM, W6_main_v3 m ρ c, W6_main_arg8 m ρ c, W6_main_arg9 m ρ c, W6_main_arg10 m ρ c, W6_main_arg11 m ρ c]
  exact Cert.LayerEq.upd_eq _ _ _ _ _ _ _ _ _ _

/-- The layer. -/
theorem layer_l0 (hR : Cert.IdxRange.InRange (m ((c : Thread nD τ).loc main_arg1))) (h : FVec Ideal Cert.ReferenceIdeal.S50000x64 .f32) (hh : W2 m ρ c (Proc.devRef .tc main_v5) = h) :
    W8 m ρ c (Proc.devRef .tc main_v36)
      = Cert.ReferenceIdeal.Net.layer h (Cert.ReferenceIdeal.Net.row (m ((c : Thread nD τ).loc main_arg1))) (Cert.ReferenceIdeal.Net.col (m ((c : Thread nD τ).loc main_arg1))) (Cert.ReferenceIdeal.Net.w128 ![0, 0, 0] Cert.ReferenceIdeal.Facts₀.slices_S3x128x64_S1x128x64_0_0_0 (m ((c : Thread nD τ).loc main_arg4))) (Cert.ReferenceIdeal.Net.b64 ![0, 0] Cert.ReferenceIdeal.Facts₀.slices_S3x64_S1x64_0_0 (m ((c : Thread nD τ).loc main_arg5))) (Cert.ReferenceIdeal.Net.w64 ![0, 0, 0] Cert.ReferenceIdeal.Facts₀.slices_S3x64x64_S1x64x64_0_0_0 (m ((c : Thread nD τ).loc main_arg6))) (Cert.ReferenceIdeal.Net.b64 ![0, 0] Cert.ReferenceIdeal.Facts₀.slices_S3x64_S1x64_0_0 (m ((c : Thread nD τ).loc main_arg7))) (Cert.ReferenceIdeal.Net.w128 ![0, 0, 0] Cert.ReferenceIdeal.Facts₀.slices_S3x128x64_S1x128x64_0_0_0 (m ((c : Thread nD τ).loc main_arg8))) (Cert.ReferenceIdeal.Net.b64 ![0, 0] Cert.ReferenceIdeal.Facts₀.slices_S3x64_S1x64_0_0 (m ((c : Thread nD τ).loc main_arg9))) (Cert.ReferenceIdeal.Net.w64 ![0, 0, 0] Cert.ReferenceIdeal.Facts₀.slices_S3x64x64_S1x64x64_0_0_0 (m ((c : Thread nD τ).loc main_arg10))) (Cert.ReferenceIdeal.Net.b64 ![0, 0] Cert.ReferenceIdeal.Facts₀.slices_S3x64_S1x64_0_0 (m ((c : Thread nD τ).loc main_arg11))) :=
  upd_l0 m ρ c h hh _ (msg_l0 m ρ c hR h hh)

end Cert.Fold

end
-- ==== Proof.Region3.lean ====
/-
  The message stage's array. The grid has 160 points; point t reads rows 5000·t … 5000·t + 4999 of the two gathered
  row arrays, the whole weights and bias rows, and writes the same rows of the result. Entry (e, q) of the result
  array is the two-input perceptron of row e of the two operands: the blocks are restrictions of one whole-array
  function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts3 : ∀ t : Fin cfg3.N, win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (1 : Fin 2) = 0 ∧ win3_7.index t (0 : Fin 2) ≤ 159 :=
  (by decide +kernel : ∀ t : Fin grid3.N, _)

/-- Every row block of the result is some point's. -/
theorem idx_onto3 : ∀ q0 : Fin 160, ∃ t : Fin cfg3.N, win3_7.index t = ![q0.val, 0] :=
  (by decide +kernel : ∀ q0 : Fin 160, ∃ t : Fin grid3.N, win3_7.index t = ![q0.val, 0])

set_option maxHeartbeats 2000000 in
/-- What point t writes back is block t of the whole-array function of the arrays the stage finds. -/
theorem flushed3_eq (c : Dev nD) (t : Fin cfg3.N) :
    (dat3 V c).flushed 7 t = ((cfg3.win 7).blk t).view.read (Elt Ideal)
      (msgArr (V c main_v37) (V c main_v38) (V c main_v47) (V c main_v48) (V c main_v49) (V c main_v44) (V c main_v50)) := by
  show (cfg3.win 7).cut (grid3.coords t) ((dat3 V c).after 7 t) = _
  rw [after3_7]
  unfold out3_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts3 t
  funext j
  obtain ⟨p, q, rfl⟩ : ∃ (p : Fin 5000) (q : Fin 64), j = ix2 p q := ⟨j 0, j 1, eq_ix2 j⟩
  refine (Bodies.message_apply (iblk3 V c 0 t) (iblk3 V c 1 t) (iblk3 V c 2 t) (iblk3 V c 3 t) (iblk3 V c 4 t) (iblk3 V c 5 t) (iblk3 V c 6 t) p q).trans ?_
  show _ = msgArr (V c main_v37) (V c main_v38) (V c main_v47) (V c main_v48) (V c main_v49) (V c main_v44) (V c main_v50) (((cfg3.win 7).blk t).view.emb (ix2 p q))
  have hx : ∀ k : Fin 64, iblk3 V c 0 t (ix2 p k) = V c main_v37 (ix2 ((((cfg3.win 7).blk t).view.emb (ix2 p q)) 0) k) := fun k => by
    show V c main_v37 (((cfg3.win 0).blk t).view.emb (ix2 p k)) = _
    refine congrArg (V c main_v37) (funext fun a => Fin.ext ?_)
    match a with
    | ⟨0, _⟩ => show win3_0.index t (0 : Fin 2) * 5000 + 1 * p.val = win3_7.index t (0 : Fin 2) * 5000 + 1 * p.val; omega
    | ⟨1, _⟩ => show win3_0.index t (1 : Fin 2) * 64 + 1 * k.val = k.val; omega
  have hy : ∀ k : Fin 64, iblk3 V c 1 t (ix2 p k) = V c main_v38 (ix2 ((((cfg3.win 7).blk t).view.emb (ix2 p q)) 0) k) := fun k => by
    show V c main_v38 (((cfg3.win 1).blk t).view.emb (ix2 p k)) = _
    refine congrArg (V c main_v38) (funext fun a => Fin.ext ?_)
    match a with
    | ⟨0, _⟩ => show win3_1.index t (0 : Fin 2) * 5000 + 1 * p.val = win3_7.index t (0 : Fin 2) * 5000 + 1 * p.val; omega
    | ⟨1, _⟩ => show win3_1.index t (1 : Fin 2) * 64 + 1 * k.val = k.val; omega
  have hwa : ∀ (k j : Fin 64), iblk3 V c 2 t (ix2 k j) = V c main_v47 (ix2 k j) := fun k j => by
    show V c main_v47 (((cfg3.win 2).blk t).view.emb (ix2 k j)) = _
    refine congrArg (V c main_v47) (funext fun a => Fin.ext ?_)
    match a with
    | ⟨0, _⟩ => show win3_2.index t (0 : Fin 2) * 64 + 1 * k.val = k.val; omega
    | ⟨1, _⟩ => show win3_2.index t (1 : Fin 2) * 64 + 1 * j.val = j.val; omega
  have hwb : ∀ (k j : Fin 64), iblk3 V c 3 t (ix2 k j) = V c main_v48 (ix2 k j) := fun k j => by
    show V c main_v48 (((cfg3.win 3).blk t).view.emb (ix2 k j)) = _
    refine congrArg (V c main_v48) (funext fun a => Fin.ext ?_)
    match a with
    | ⟨0, _⟩ => show win3_3.index t (0 : Fin 2) * 64 + 1 * k.val = k.val; omega
    | ⟨1, _⟩ => show win3_3.index t (1 : Fin 2) * 64 + 1 * j.val = j.val; omega
  have hb1 : ∀ j : Fin 64, iblk3 V c 4 t (ix2 0 j) = V c main_v49 (ix2 0 j) := fun j => by
    show V c main_v49 (((cfg3.win 4).blk t).view.emb (ix2 0 j)) = _
    refine congrArg (V c main_v49) (funext fun a => Fin.ext ?_)
    match a with
    | ⟨0, _⟩ => show win3_4.index t (0 : Fin 2) * 1 + 1 * 0 = 0; omega
    | ⟨1, _⟩ => show win3_4.index t (1 : Fin 2) * 64 + 1 * j.val = j.val; omega
  have hw2 : ∀ j : Fin 64, iblk3 V c 5 t (ix2 j q) = V c main_v44 (ix2 j ((((cfg3.win 7).blk t).view.emb (ix2 p q)) 1)) := fun j => by
    show V c main_v44 (((cfg3.win 5).blk t).view.emb (ix2 j q)) = _
    refine congrArg (V c main_v44) (funext fun a => Fin.ext ?_)
    match a with
    | ⟨0, _⟩ => show win3_5.index t (0 : Fin 2) * 64 + 1 * j.val = j.val; omega
    | ⟨1, _⟩ => show win3_5.index t (1 : Fin 2) * 64 + 1 * q.val = win3_7.index t (1 : Fin 2) * 64 + 1 * q.val; omega
  have hb2 : iblk3 V c 6 t (ix2 0 q) = V c main_v50 (ix2 0 ((((cfg3.win 7).blk t).view.emb (ix2 p q)) 1)) := by
    show V c main_v50 (((cfg3.win 6).blk t).view.emb (ix2 0 q)) = _
    refine congrArg (V c main_v50) (funext fun a => Fin.ext ?_)
    match a with
    | ⟨0, _⟩ => show win3_6.index t (0 : Fin 2) * 1 + 1 * 0 = 0; omega
    | ⟨1, _⟩ => show win3_6.index t (1 : Fin 2) * 64 + 1 * q.val = win3_7.index t (1 : Fin 2) * 64 + 1 * q.val; omega
  simp only [msgArr, Gnn.mlp2, Gnn.affine, Gnn.hidden, hx, hy, hwa, hwb, hb1, hw2, hb2]

/-- An index of the result array is in point t's block iff each coordinate is in the block's range. -/
theorem mem_blk3 (t : Fin cfg3.N) (i : S800000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v51).slice (win3_7.rect t)).set ↔ _
  rw [View.set_slice_whole, Rect.mem_set_unit]
  exact Iff.rfl

/-- The row blocks tile the result array: row r is in the block of the point whose block index is r / 5000. -/
theorem cover3 (i : S800000x64.Idx) :
    ∃ t : Fin cfg3.N, (cfg3.win 7).flush t = true ∧ i ∈ ((cfg3.win 7).blk t).view.set := by
  have hi0 : (i 0).val < 800000 := (i 0).isLt
  have hi1 : (i 1).val < 64 := (i 1).isLt
  obtain ⟨t, ht⟩ := idx_onto3 ⟨(i 0).val / 5000, by omega⟩
  have q0 : win3_7.index t (0 : Fin 2) = (i 0).val / 5000 := congrFun ht 0
  have q1 : win3_7.index t (1 : Fin 2) = 0 := congrFun ht 1
  refine ⟨t, flush3_7 t, ?_⟩
  rw [mem_blk3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

/-- The result array after the stage. -/
theorem final3 (c : Dev nD) :
    (dat3 V c).arrAt 7 cfg3.N = msgArr (V c main_v37) (V c main_v38) (V c main_v47) (V c main_v48) (V c main_v49) (V c main_v44) (V c main_v50) :=
  (dat3 V c).arrAt_eq_of_cover 7 _ (fun t _ => flushed3_eq V c t) cover3

end Cert.KernelIdeal.Regions

end
-- ==== Proof.Region4.lean ====
/-
  The update stage's array. The grid has ten points; point t reads rows 5000·t … 5000·t + 4999 of the node features
  and of the aggregated messages, the whole weights and bias rows, and writes the same rows of the result. Entry
  (r, q) of the result array is the two-input perceptron of row r of the two operands, followed by max(·, 0): the
  blocks are restrictions of one whole-array function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts4 : ∀ t : Fin cfg4.N, win4_0.index t (0 : Fin 2) = win4_7.index t (0 : Fin 2) ∧ win4_0.index t (1 : Fin 2) = 0
    ∧ win4_1.index t (0 : Fin 2) = win4_7.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (1 : Fin 2) = 0 ∧ win4_7.index t (0 : Fin 2) ≤ 9 :=
  (by decide +kernel : ∀ t : Fin grid4.N, _)

/-- Every row block of the result is some point's. -/
theorem idx_onto4 : ∀ q0 : Fin 10, ∃ t : Fin cfg4.N, win4_7.index t = ![q0.val, 0] :=
  (by decide +kernel : ∀ q0 : Fin 10, ∃ t : Fin grid4.N, win4_7.index t = ![q0.val, 0])

set_option maxHeartbeats 2000000 in
/-- What point t writes back is block t of the whole-array function of the arrays the stage finds. -/
theorem flushed4_eq (c : Dev nD) (t : Fin cfg4.N) :
    (dat4 V c).flushed 7 t = ((cfg4.win 7).blk t).view.read (Elt Ideal)
      (updArr (V c main_v36) (V c main_v54) (V c main_v63) (V c main_v64) (V c main_v65) (V c main_v60) (V c main_v66)) := by
  show (cfg4.win 7).cut (grid4.coords t) ((dat4 V c).after 7 t) = _
  rw [after4_7]
  unfold out4_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts4 t
  funext j
  obtain ⟨p, q, rfl⟩ : ∃ (p : Fin 5000) (q : Fin 64), j = ix2 p q := ⟨j 0, j 1, eq_ix2 j⟩
  refine (Bodies.update_apply (iblk4 V c 0 t) (iblk4 V c 1 t) (iblk4 V c 2 t) (iblk4 V c 3 t) (iblk4 V c 4 t) (iblk4 V c 5 t) (iblk4 V c 6 t) p q).trans ?_
  show _ = updArr (V c main_v36) (V c main_v54) (V c main_v63) (V c main_v64) (V c main_v65) (V c main_v60) (V c main_v66) (((cfg4.win 7).blk t).view.emb (ix2 p q))
  have hx : ∀ k : Fin 64, iblk4 V c 0 t (ix2 p k) = V c main_v36 (ix2 ((((cfg4.win 7).blk t).view.emb (ix2 p q)) 0) k) := fun k => by
    show V c main_v36 (((cfg4.win 0).blk t).view.emb (ix2 p k)) = _
    refine congrArg (V c main_v36) (funext fun a => Fin.ext ?_)
    match a with
    | ⟨0, _⟩ => show win4_0.index t (0 : Fin 2) * 5000 + 1 * p.val = win4_7.index t (0 : Fin 2) * 5000 + 1 * p.val; omega
    | ⟨1, _⟩ => show win4_0.index t (1 : Fin 2) * 64 + 1 * k.val = k.val; omega
  have hy : ∀ k : Fin 64, iblk4 V c 1 t (ix2 p k) = V c main_v54 (ix2 ((((cfg4.win 7).blk t).view.emb (ix2 p q)) 0) k) := fun k => by
    show V c main_v54 (((cfg4.win 1).blk t).view.emb (ix2 p k)) = _
    refine congrArg (V c main_v54) (funext fun a => Fin.ext ?_)
    match a with
    | ⟨0, _⟩ => show win4_1.index t (0 : Fin 2) * 5000 + 1 * p.val = win4_7.index t (0 : Fin 2) * 5000 + 1 * p.val; omega
    | ⟨1, _⟩ => show win4_1.index t (1 : Fin 2) * 64 + 1 * k.val = k.val; omega
  have hwa : ∀ (k j : Fin 64), iblk4 V c 2 t (ix2 k j) = V c main_v63 (ix2 k j) := fun k j => by
    show V c main_v63 (((cfg4.win 2).blk t).view.emb (ix2 k j)) = _
    refine congrArg (V c main_v63) (funext fun a => Fin.ext ?_)
    match a with
    | ⟨0, _⟩ => show win4_2.index t (0 : Fin 2) * 64 + 1 * k.val = k.val; omega
    | ⟨1, _⟩ => show win4_2.index t (1 : Fin 2) * 64 + 1 * j.val = j.val; omega
  have hwb : ∀ (k j : Fin 64), iblk4 V c 3 t (ix2 k j) = V c main_v64 (ix2 k j) := fun k j => by
    show V c main_v64 (((cfg4.win 3).blk t).view.emb (ix2 k j)) = _
    refine congrArg (V c main_v64) (funext fun a => Fin.ext ?_)
    match a with
    | ⟨0, _⟩ => show win4_3.index t (0 : Fin 2) * 64 + 1 * k.val = k.val; omega
    | ⟨1, _⟩ => show win4_3.index t (1 : Fin 2) * 64 + 1 * j.val = j.val; omega
  have hb1 : ∀ j : Fin 64, iblk4 V c 4 t (ix2 0 j) = V c main_v65 (ix2 0 j) := fun j => by
    show V c main_v65 (((cfg4.win 4).blk t).view.emb (ix2 0 j)) = _
    refine congrArg (V c main_v65) (funext fun a => Fin.ext ?_)
    match a with
    | ⟨0, _⟩ => show win4_4.index t (0 : Fin 2) * 1 + 1 * 0 = 0; omega
    | ⟨1, _⟩ => show win4_4.index t (1 : Fin 2) * 64 + 1 * j.val = j.val; omega
  have hw2 : ∀ j : Fin 64, iblk4 V c 5 t (ix2 j q) = V c main_v60 (ix2 j ((((cfg4.win 7).blk t).view.emb (ix2 p q)) 1)) := fun j => by
    show V c main_v60 (((cfg4.win 5).blk t).view.emb (ix2 j q)) = _
    refine congrArg (V c main_v60) (funext fun a => Fin.ext ?_)
    match a with
    | ⟨0, _⟩ => show win4_5.index t (0 : Fin 2) * 64 + 1 * j.val = j.val; omega
    | ⟨1, _⟩ => show win4_5.index t (1 : Fin 2) * 64 + 1 * q.val = win4_7.index t (1 : Fin 2) * 64 + 1 * q.val; omega
  have hb2 : iblk4 V c 6 t (ix2 0 q) = V c main_v66 (ix2 0 ((((cfg4.win 7).blk t).view.emb (ix2 p q)) 1)) := by
    show V c main_v66 (((cfg4.win 6).blk t).view.emb (ix2 0 q)) = _
    refine congrArg (V c main_v66) (funext fun a => Fin.ext ?_)
    match a with
    | ⟨0, _⟩ => show win4_6.index t (0 : Fin 2) * 1 + 1 * 0 = 0; omega
    | ⟨1, _⟩ => show win4_6.index t (1 : Fin 2) * 64 + 1 * q.val = win4_7.index t (1 : Fin 2) * 64 + 1 * q.val; omega
  simp only [updArr, Gnn.mlp2r, Gnn.mlp2, Gnn.affine, Gnn.hidden, hx, hy, hwa, hwb, hb1, hw2, hb2]

/-- An index of the result array is in point t's block iff each coordinate is in the block's range. -/
theorem mem_blk4 (t : Fin cfg4.N) (i : S50000x64.Idx) :
    i ∈ ((cfg4.win 7).blk t).view.set ↔ ∀ a : Fin 2, win4_7.index t a * S5000x64.size a ≤ (i a).val
      ∧ (i a).val < win4_7.index t a * S5000x64.size a + S5000x64.size a := by
  show i ∈ ((View.whole main_v67).slice (win4_7.rect t)).set ↔ _
  rw [View.set_slice_whole, Rect.mem_set_unit]
  exact Iff.rfl

/-- The row blocks tile the result array: row r is in the block of the point whose block index is r / 5000. -/
theorem cover4 (i : S50000x64.Idx) :
    ∃ t : Fin cfg4.N, (cfg4.win 7).flush t = true ∧ i ∈ ((cfg4.win 7).blk t).view.set := by
  have hi0 : (i 0).val < 50000 := (i 0).isLt
  have hi1 : (i 1).val < 64 := (i 1).isLt
  obtain ⟨t, ht⟩ := idx_onto4 ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_blk4]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 64 ≤ (i 1).val ∧ (i 1).val < win4_7.index t (1 : Fin 2) * 64 + 64; omega

/-- The result array after the stage. -/
theorem final4 (c : Dev nD) :
    (dat4 V c).arrAt 7 cfg4.N = updArr (V c main_v36) (V c main_v54) (V c main_v63) (V c main_v64) (V c main_v65) (V c main_v60) (V c main_v66) :=
  (dat4 V c).arrAt_eq_of_cover 7 _ (fun t _ => flushed4_eq V c t) cover4

end Cert.KernelIdeal.Regions

end
-- ==== Proof.StageInputs1.lean ====
/-
  Layer 1's two dense stages take arrays that the host operations before them prepare: for the message stage the
  guarded gathers of the node features at the two rows of the edge list, the two halves of the layer's slice of the
  stacked first weight, the slice of the second weight and the two biases as one-row matrices; for the update stage
  the node features, the scatter-add of the messages, and the update weights cut the same way. From any contents V
  of the buffers, each stretch of host operations leaves in each of these buffers the named function of what V
  holds in the buffers it reads, and leaves alone the buffers it does not write.
-/
import proofs.«126528_j60619168416173_1_alg».proof.Proof.Gen.KernelIdeal.Launch
import proofs.«126528_j60619168416173_1_alg».proof.Proof.RefNet
import proofs.«126528_j60619168416173_1_alg».proof.Proof.LibTypedRef
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (V : Valuation τ sig (Elt Ideal))

/-! A buffer named by a literal reference has the contents type the reference states, so reading its contents at that
    type, or storing a value of that type into it, is the identity. -/
theorem read_main_v1_l1 (p1 p2 p3) : (StableHlo.TRef.of (sig := sig) (T := ⟨S800000, .i32⟩) main_v1 p1 p2 p3).ofBuf (V (Proc.devRef .tc main_v1)) = V (Proc.devRef .tc main_v1) := rfl
theorem read_main_v3_l1 (p1 p2 p3) : (StableHlo.TRef.of (sig := sig) (T := ⟨S800000, .i32⟩) main_v3 p1 p2 p3).ofBuf (V (Proc.devRef .tc main_v3)) = V (Proc.devRef .tc main_v3) := rfl
theorem read_h_l1 (p1 p2 p3) : (StableHlo.TRef.of (sig := sig) (T := ⟨S50000x64, .f32⟩) main_v36 p1 p2 p3).ofBuf (V (Proc.devRef .tc main_v36)) = V (Proc.devRef .tc main_v36) := rfl
theorem store_row_l1 (p1 p2 p3) (v : (⟨S800000x64, .f32⟩ : BufTy).Contents (Elt Ideal)) : (StableHlo.TRef.of (sig := sig) (T := ⟨S800000x64, .f32⟩) main_v37 p1 p2 p3).toBuf v = v := rfl
theorem store_col_l1 (p1 p2 p3) (v : (⟨S800000x64, .f32⟩ : BufTy).Contents (Elt Ideal)) : (StableHlo.TRef.of (sig := sig) (T := ⟨S800000x64, .f32⟩) main_v38 p1 p2 p3).toBuf v = v := rfl

/-- The first guarded gather: the node features at the first row of the edge list. -/
theorem takeRow_l1 : StableHlo.after hostOps3 V (Proc.devRef .tc main_v37)
    = Cert.IdxRange.kerTake (V (Proc.devRef .tc main_v36)) (V (Proc.devRef .tc main_v1)) := by
  after_results_simp
  simp only [StableHlo.TRef.ofBuf_toBuf, read_main_v1_l1, read_h_l1, store_row_l1]
  rfl

/-- The second guarded gather: the node features at the second row of the edge list. -/
theorem takeCol_l1 : StableHlo.after hostOps3_1 V (Proc.devRef .tc main_v38)
    = Cert.IdxRange.kerTake (V (Proc.devRef .tc main_v36)) (V (Proc.devRef .tc main_v3)) := by
  after_results_simp
  simp only [StableHlo.TRef.ofBuf_toBuf, read_main_v3_l1, read_h_l1, store_col_l1]
  rfl

/-! The first gather's operations write neither the node features, nor the second row of the edge list, nor the weights. -/
theorem keepA_main_v36_l1 : StableHlo.after hostOps3 V (Proc.devRef .tc main_v36) = V (Proc.devRef .tc main_v36) := by
  after_results
theorem keepA_main_v3_l1 : StableHlo.after hostOps3 V (Proc.devRef .tc main_v3) = V (Proc.devRef .tc main_v3) := by
  after_results
theorem keepA_main_arg4_l1 : StableHlo.after hostOps3 V (Proc.devRef .tc main_arg4) = V (Proc.devRef .tc main_arg4) := by
  after_results
theorem keepA_main_arg5_l1 : StableHlo.after hostOps3 V (Proc.devRef .tc main_arg5) = V (Proc.devRef .tc main_arg5) := by
  after_results
theorem keepA_main_arg6_l1 : StableHlo.after hostOps3 V (Proc.devRef .tc main_arg6) = V (Proc.devRef .tc main_arg6) := by
  after_results
theorem keepA_main_arg7_l1 : StableHlo.after hostOps3 V (Proc.devRef .tc main_arg7) = V (Proc.devRef .tc main_arg7) := by
  after_results

/-! The second gather's operations write neither the node features, nor the first gather's result, nor the weights. -/
theorem keepB_main_v36_l1 : StableHlo.after hostOps3_1 V (Proc.devRef .tc main_v36) = V (Proc.devRef .tc main_v36) := by
  after_results
theorem keepB_main_v37_l1 : StableHlo.after hostOps3_1 V (Proc.devRef .tc main_v37) = V (Proc.devRef .tc main_v37) := by
  after_results
theorem keepB_main_arg4_l1 : StableHlo.after hostOps3_1 V (Proc.devRef .tc main_arg4) = V (Proc.devRef .tc main_arg4) := by
  after_results
theorem keepB_main_arg5_l1 : StableHlo.after hostOps3_1 V (Proc.devRef .tc main_arg5) = V (Proc.devRef .tc main_arg5) := by
  after_results
theorem keepB_main_arg6_l1 : StableHlo.after hostOps3_1 V (Proc.devRef .tc main_arg6) = V (Proc.devRef .tc main_arg6) := by
  after_results
theorem keepB_main_arg7_l1 : StableHlo.after hostOps3_1 V (Proc.devRef .tc main_arg7) = V (Proc.devRef .tc main_arg7) := by
  after_results

/-! The weight slicing writes neither the node features nor a gather's result. -/
theorem keepC_main_v36_l1 : StableHlo.after hostOps3_2 V (Proc.devRef .tc main_v36) = V (Proc.devRef .tc main_v36) := by
  after_results
theorem keepC_main_v37_l1 : StableHlo.after hostOps3_2 V (Proc.devRef .tc main_v37) = V (Proc.devRef .tc main_v37) := by
  after_results
theorem keepC_main_v38_l1 : StableHlo.after hostOps3_2 V (Proc.devRef .tc main_v38) = V (Proc.devRef .tc main_v38) := by
  after_results

/-- Rows 0 … 63 of the layer's slice of the stacked first message weight. -/
theorem wTop_l1 : StableHlo.after hostOps3_2 V (Proc.devRef .tc main_v47)
    = extractStridedSlice S64x64 ![0, 0] (Cert.ReferenceIdeal.Net.w128 ![1, 0, 0] Cert.ReferenceIdeal.Facts₀.slices_S3x128x64_S1x128x64_1_0_0 (V (Proc.devRef .tc main_arg4))) Cert.KernelIdeal.Facts₀.slices_S128x64_S64x64_0_0 := by
  after_results
  rfl

/-- Rows 64 … 127 of the layer's slice of the stacked first message weight. -/
theorem wBot_l1 : StableHlo.after hostOps3_2 V (Proc.devRef .tc main_v48)
    = extractStridedSlice S64x64 ![64, 0] (Cert.ReferenceIdeal.Net.w128 ![1, 0, 0] Cert.ReferenceIdeal.Facts₀.slices_S3x128x64_S1x128x64_1_0_0 (V (Proc.devRef .tc main_arg4))) Cert.KernelIdeal.Facts₀.slices_S128x64_S64x64_64_0 := by
  after_results
  rfl

/-- The layer's first message bias as a one-row matrix. -/
theorem b1_l1 : StableHlo.after hostOps3_2 V (Proc.devRef .tc main_v49)
    = shapeCast S1x64 (Cert.ReferenceIdeal.Net.b64 ![1, 0] Cert.ReferenceIdeal.Facts₀.slices_S3x64_S1x64_1_0 (V (Proc.devRef .tc main_arg5))) Cert.KernelIdeal.Facts₀.shapeCasts_S64_S1x64 := by
  after_results
  rfl

/-- The layer's slice of the stacked second message weight. -/
theorem w2_l1 : StableHlo.after hostOps3_2 V (Proc.devRef .tc main_v44)
    = Cert.ReferenceIdeal.Net.w64 ![1, 0, 0] Cert.ReferenceIdeal.Facts₀.slices_S3x64x64_S1x64x64_1_0_0 (V (Proc.devRef .tc main_arg6)) := by
  after_results
  rfl

/-- The layer's second message bias as a one-row matrix. -/
theorem b2_l1 : StableHlo.after hostOps3_2 V (Proc.devRef .tc main_v50)
    = shapeCast S1x64 (Cert.ReferenceIdeal.Net.b64 ![1, 0] Cert.ReferenceIdeal.Facts₀.slices_S3x64_S1x64_1_0 (V (Proc.devRef .tc main_arg7))) Cert.KernelIdeal.Facts₀.shapeCasts_S64_S1x64 := by
  after_results
  rfl

/-! The operations before the update stage do not write the node features. -/
theorem keepD_main_v36_l1 : StableHlo.after hostOps4 V (Proc.devRef .tc main_v36) = V (Proc.devRef .tc main_v36) := by
  after_results

/-- The messages scatter-added, from zero, into the rows the second row of the edge list names. -/
theorem aggD_l1 : StableHlo.after hostOps4 V (Proc.devRef .tc main_v54)
    = Cert.ReferenceIdeal.Net.agg (V (Proc.devRef .tc main_v3)) (V (Proc.devRef .tc main_v51)) := by
  after_results
  rfl

/-- Rows 0 … 63 of the layer's slice of the stacked first update weight. -/
theorem uTop_l1 : StableHlo.after hostOps4 V (Proc.devRef .tc main_v63)
    = extractStridedSlice S64x64 ![0, 0] (Cert.ReferenceIdeal.Net.w128 ![1, 0, 0] Cert.ReferenceIdeal.Facts₀.slices_S3x128x64_S1x128x64_1_0_0 (V (Proc.devRef .tc main_arg8))) Cert.KernelIdeal.Facts₀.slices_S128x64_S64x64_0_0 := by
  after_results
  rfl

/-- Rows 64 … 127 of the layer's slice of the stacked first update weight. -/
theorem uBot_l1 : StableHlo.after hostOps4 V (Proc.devRef .tc main_v64)
    = extractStridedSlice S64x64 ![64, 0] (Cert.ReferenceIdeal.Net.w128 ![1, 0, 0] Cert.ReferenceIdeal.Facts₀.slices_S3x128x64_S1x128x64_1_0_0 (V (Proc.devRef .tc main_arg8))) Cert.KernelIdeal.Facts₀.slices_S128x64_S64x64_64_0 := by
  after_results
  rfl

/-- The layer's first update bias as a one-row matrix. -/
theorem ub1_l1 : StableHlo.after hostOps4 V (Proc.devRef .tc main_v65)
    = shapeCast S1x64 (Cert.ReferenceIdeal.Net.b64 ![1, 0] Cert.ReferenceIdeal.Facts₀.slices_S3x64_S1x64_1_0 (V (Proc.devRef .tc main_arg9))) Cert.KernelIdeal.Facts₀.shapeCasts_S64_S1x64 := by
  after_results
  rfl

/-- The layer's slice of the stacked second update weight. -/
theorem uw2_l1 : StableHlo.after hostOps4 V (Proc.devRef .tc main_v60)
    = Cert.ReferenceIdeal.Net.w64 ![1, 0, 0] Cert.ReferenceIdeal.Facts₀.slices_S3x64x64_S1x64x64_1_0_0 (V (Proc.devRef .tc main_arg10)) := by
  after_results
  rfl

/-- The layer's second update bias as a one-row matrix. -/
theorem ub2_l1 : StableHlo.after hostOps4 V (Proc.devRef .tc main_v66)
    = shapeCast S1x64 (Cert.ReferenceIdeal.Net.b64 ![1, 0] Cert.ReferenceIdeal.Facts₀.slices_S3x64_S1x64_1_0 (V (Proc.devRef .tc main_arg11))) Cert.KernelIdeal.Facts₀.shapeCasts_S64_S1x64 := by
  after_results
  rfl

end Cert.Fold

end
-- ==== Proof.Layer1.lean ====
/-
  Layer 1 of the message passing, kernel against reference. Whatever node features h the layer starts from:
  the message stage's result array is the reference's message perceptron of the gathered rows of h (the indices are in
  range, so the kernel's guarded gather never fills and is the reference's gather), the scatter-add that follows is the
  reference's, and the update stage's result array is the reference's update perceptron of h and the aggregate.
-/
import proofs.«126528_j60619168416173_1_alg».proof.Proof.Gen.KernelIdeal.Frame
import proofs.«126528_j60619168416173_1_alg».proof.Proof.Region3
import proofs.«126528_j60619168416173_1_alg».proof.Proof.Region4
import proofs.«126528_j60619168416173_1_alg».proof.Proof.LayerEq
import proofs.«126528_j60619168416173_1_alg».proof.Proof.RefNet
import proofs.«126528_j60619168416173_1_alg».proof.Proof.PassA
import proofs.«126528_j60619168416173_1_alg».proof.Proof.PassB
import proofs.«126528_j60619168416173_1_alg».proof.Proof.StageInputs1
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

/-- The messages. -/
theorem msg_l1 (hR : Cert.IdxRange.InRange (m ((c : Thread nD τ).loc main_arg1))) (h : FVec Ideal Cert.ReferenceIdeal.S50000x64 .f32) (hh : W8 m ρ c (Proc.devRef .tc main_v36) = h) :
    W12 m ρ c (Proc.devRef .tc main_v51)
      = Cert.ReferenceIdeal.Layers.refMsg (Cert.IdxRange.refTake h (Cert.ReferenceIdeal.Net.row (m ((c : Thread nD τ).loc main_arg1)))) (Cert.IdxRange.refTake h (Cert.ReferenceIdeal.Net.col (m ((c : Thread nD τ).loc main_arg1)))) (Cert.ReferenceIdeal.Net.w128 ![1, 0, 0] Cert.ReferenceIdeal.Facts₀.slices_S3x128x64_S1x128x64_1_0_0 (m ((c : Thread nD τ).loc main_arg4))) (Cert.ReferenceIdeal.Net.b64 ![1, 0] Cert.ReferenceIdeal.Facts₀.slices_S3x64_S1x64_1_0 (m ((c : Thread nD τ).loc main_arg5))) (Cert.ReferenceIdeal.Net.w64 ![1, 0, 0] Cert.ReferenceIdeal.Facts₀.slices_S3x64x64_S1x64x64_1_0_0 (m ((c : Thread nD τ).loc main_arg6))) (Cert.ReferenceIdeal.Net.b64 ![1, 0] Cert.ReferenceIdeal.Facts₀.slices_S3x64_S1x64_1_0 (m ((c : Thread nD τ).loc main_arg7))) := by
  have hrow : Cert.IdxRange.InRange (Cert.ReferenceIdeal.Net.row (m ((c : Thread nD τ).loc main_arg1))) := Cert.IdxRange.inRange_edge_row _ hR ![0, 0] Cert.ReferenceIdeal.Facts₀.slices_S2x800000_S1x800000_0_0 Cert.ReferenceIdeal.Facts₀.shapeCasts_S1x800000_S800000
  have hcol : Cert.IdxRange.InRange (Cert.ReferenceIdeal.Net.col (m ((c : Thread nD τ).loc main_arg1))) := Cert.IdxRange.inRange_edge_row _ hR ![1, 0] Cert.ReferenceIdeal.Facts₀.slices_S2x800000_S1x800000_1_0 Cert.ReferenceIdeal.Facts₀.shapeCasts_S1x800000_S800000
  refine Eq.trans (W12_arr m ρ c 7) ?_
  rw [Cert.KernelIdeal.Regions.final3]
  show Cert.KernelIdeal.Regions.msgArr ((StableHlo.after hostOps3_2 (StableHlo.after hostOps3_1 (StableHlo.after hostOps3 (W8 m ρ c)))) (Proc.devRef .tc main_v37))
      ((StableHlo.after hostOps3_2 (StableHlo.after hostOps3_1 (StableHlo.after hostOps3 (W8 m ρ c)))) (Proc.devRef .tc main_v38))
      ((StableHlo.after hostOps3_2 (StableHlo.after hostOps3_1 (StableHlo.after hostOps3 (W8 m ρ c)))) (Proc.devRef .tc main_v47))
      ((StableHlo.after hostOps3_2 (StableHlo.after hostOps3_1 (StableHlo.after hostOps3 (W8 m ρ c)))) (Proc.devRef .tc main_v48))
      ((StableHlo.after hostOps3_2 (StableHlo.after hostOps3_1 (StableHlo.after hostOps3 (W8 m ρ c)))) (Proc.devRef .tc main_v49))
      ((StableHlo.after hostOps3_2 (StableHlo.after hostOps3_1 (StableHlo.after hostOps3 (W8 m ρ c)))) (Proc.devRef .tc main_v44))
      ((StableHlo.after hostOps3_2 (StableHlo.after hostOps3_1 (StableHlo.after hostOps3 (W8 m ρ c)))) (Proc.devRef .tc main_v50)) = _
  rw [keepC_main_v37_l1, keepB_main_v37_l1, takeRow_l1, keepC_main_v38_l1, takeCol_l1, keepA_main_v36_l1, keepA_main_v3_l1,
    wTop_l1, wBot_l1, b1_l1, w2_l1, b2_l1,
    keepB_main_arg4_l1, keepB_main_arg5_l1, keepB_main_arg6_l1, keepB_main_arg7_l1,
    keepA_main_arg4_l1, keepA_main_arg5_l1, keepA_main_arg6_l1, keepA_main_arg7_l1,
    hh, W8_main_v1 m ρ c, W8_main_v3 m ρ c, W8_main_arg4 m ρ c, W8_main_arg5 m ρ c, W8_main_arg6 m ρ c, W8_main_arg7 m ρ c]
  rw [Cert.IdxRange.kerTake_eq_refTake _ _ hrow, Cert.IdxRange.kerTake_eq_refTake _ _ hcol]
  exact Cert.LayerEq.msg_eq _ _ _ _ _ _ _ _ _ _

/-- The update, with the aggregate of any messages M the message stage left. -/
theorem upd_l1 (h : FVec Ideal Cert.ReferenceIdeal.S50000x64 .f32) (hh : W8 m ρ c (Proc.devRef .tc main_v36) = h) (M : FVec Ideal Cert.ReferenceIdeal.S800000x64 .f32)
    (hM : W12 m ρ c (Proc.devRef .tc main_v51) = M) :
    W14 m ρ c (Proc.devRef .tc main_v67)
      = Cert.ReferenceIdeal.Layers.refUpd h (Cert.ReferenceIdeal.Net.agg (Cert.ReferenceIdeal.Net.col (m ((c : Thread nD τ).loc main_arg1))) M) (Cert.ReferenceIdeal.Net.w128 ![1, 0, 0] Cert.ReferenceIdeal.Facts₀.slices_S3x128x64_S1x128x64_1_0_0 (m ((c : Thread nD τ).loc main_arg8))) (Cert.ReferenceIdeal.Net.b64 ![1, 0] Cert.ReferenceIdeal.Facts₀.slices_S3x64_S1x64_1_0 (m ((c : Thread nD τ).loc main_arg9))) (Cert.ReferenceIdeal.Net.w64 ![1, 0, 0] Cert.ReferenceIdeal.Facts₀.slices_S3x64x64_S1x64x64_1_0_0 (m ((c : Thread nD τ).loc main_arg10))) (Cert.ReferenceIdeal.Net.b64 ![1, 0] Cert.ReferenceIdeal.Facts₀.slices_S3x64_S1x64_1_0 (m ((c : Thread nD τ).loc main_arg11))) := by
  have hh' : W12 m ρ c (Proc.devRef .tc main_v36) = h := by
    rw [W12_of_ne m ρ c main_v36 (by decide)]
    show (StableHlo.after hostOps3_2 (StableHlo.after hostOps3_1 (StableHlo.after hostOps3 (W8 m ρ c)))) (Proc.devRef .tc main_v36) = _
    rw [keepC_main_v36_l1, keepB_main_v36_l1, keepA_main_v36_l1]
    exact hh
  refine Eq.trans (W14_arr m ρ c 7) ?_
  rw [Cert.KernelIdeal.Regions.final4]
  show Cert.KernelIdeal.Regions.updArr ((StableHlo.after hostOps4 (W12 m ρ c)) (Proc.devRef .tc main_v36))
      ((StableHlo.after hostOps4 (W12 m ρ c)) (Proc.devRef .tc main_v54))
      ((StableHlo.after hostOps4 (W12 m ρ c)) (Proc.devRef .tc main_v63))
      ((StableHlo.after hostOps4 (W12 m ρ c)) (Proc.devRef .tc main_v64))
      ((StableHlo.after hostOps4 (W12 m ρ c)) (Proc.devRef .tc main_v65))
      ((StableHlo.after hostOps4 (W12 m ρ c)) (Proc.devRef .tc main_v60))
      ((StableHlo.after hostOps4 (W12 m ρ c)) (Proc.devRef .tc main_v66)) = _
  rw [keepD_main_v36_l1, aggD_l1, uTop_l1, uBot_l1, ub1_l1, uw2_l1, ub2_l1,
    hh', hM, W12_main_v3 m ρ c, W12_main_arg8 m ρ c, W12_main_arg9 m ρ c, W12_main_arg10 m ρ c, W12_main_arg11 m ρ c]
  exact Cert.LayerEq.upd_eq _ _ _ _ _ _ _ _ _ _

/-- The layer. -/
theorem layer_l1 (hR : Cert.IdxRange.InRange (m ((c : Thread nD τ).loc main_arg1))) (h : FVec Ideal Cert.ReferenceIdeal.S50000x64 .f32) (hh : W8 m ρ c (Proc.devRef .tc main_v36) = h) :
    W14 m ρ c (Proc.devRef .tc main_v67)
      = Cert.ReferenceIdeal.Net.layer h (Cert.ReferenceIdeal.Net.row (m ((c : Thread nD τ).loc main_arg1))) (Cert.ReferenceIdeal.Net.col (m ((c : Thread nD τ).loc main_arg1))) (Cert.ReferenceIdeal.Net.w128 ![1, 0, 0] Cert.ReferenceIdeal.Facts₀.slices_S3x128x64_S1x128x64_1_0_0 (m ((c : Thread nD τ).loc main_arg4))) (Cert.ReferenceIdeal.Net.b64 ![1, 0] Cert.ReferenceIdeal.Facts₀.slices_S3x64_S1x64_1_0 (m ((c : Thread nD τ).loc main_arg5))) (Cert.ReferenceIdeal.Net.w64 ![1, 0, 0] Cert.ReferenceIdeal.Facts₀.slices_S3x64x64_S1x64x64_1_0_0 (m ((c : Thread nD τ).loc main_arg6))) (Cert.ReferenceIdeal.Net.b64 ![1, 0] Cert.ReferenceIdeal.Facts₀.slices_S3x64_S1x64_1_0 (m ((c : Thread nD τ).loc main_arg7))) (Cert.ReferenceIdeal.Net.w128 ![1, 0, 0] Cert.ReferenceIdeal.Facts₀.slices_S3x128x64_S1x128x64_1_0_0 (m ((c : Thread nD τ).loc main_arg8))) (Cert.ReferenceIdeal.Net.b64 ![1, 0] Cert.ReferenceIdeal.Facts₀.slices_S3x64_S1x64_1_0 (m ((c : Thread nD τ).loc main_arg9))) (Cert.ReferenceIdeal.Net.w64 ![1, 0, 0] Cert.ReferenceIdeal.Facts₀.slices_S3x64x64_S1x64x64_1_0_0 (m ((c : Thread nD τ).loc main_arg10))) (Cert.ReferenceIdeal.Net.b64 ![1, 0] Cert.ReferenceIdeal.Facts₀.slices_S3x64_S1x64_1_0 (m ((c : Thread nD τ).loc main_arg11))) :=
  upd_l1 m ρ c h hh _ (msg_l1 m ρ c hR h hh)

end Cert.Fold

end
-- ==== Proof.Region5.lean ====
/-
  The message stage's array. The grid has 160 points; point t reads rows 5000·t … 5000·t + 4999 of the two gathered
  row arrays, the whole weights and bias rows, and writes the same rows of the result. Entry (e, q) of the result
  array is the two-input perceptron of row e of the two operands: the blocks are restrictions of one whole-array
  function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts5 : ∀ t : Fin cfg5.N, win5_0.index t (0 : Fin 2) = win5_7.index t (0 : Fin 2) ∧ win5_0.index t (1 : Fin 2) = 0
    ∧ win5_1.index t (0 : Fin 2) = win5_7.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (1 : Fin 2) = 0 ∧ win5_7.index t (0 : Fin 2) ≤ 159 :=
  (by decide +kernel : ∀ t : Fin grid5.N, _)

/-- Every row block of the result is some point's. -/
theorem idx_onto5 : ∀ q0 : Fin 160, ∃ t : Fin cfg5.N, win5_7.index t = ![q0.val, 0] :=
  (by decide +kernel : ∀ q0 : Fin 160, ∃ t : Fin grid5.N, win5_7.index t = ![q0.val, 0])

set_option maxHeartbeats 2000000 in
/-- What point t writes back is block t of the whole-array function of the arrays the stage finds. -/
theorem flushed5_eq (c : Dev nD) (t : Fin cfg5.N) :
    (dat5 V c).flushed 7 t = ((cfg5.win 7).blk t).view.read (Elt Ideal)
      (msgArr (V c main_v68) (V c main_v69) (V c main_v78) (V c main_v79) (V c main_v80) (V c main_v75) (V c main_v81)) := by
  show (cfg5.win 7).cut (grid5.coords t) ((dat5 V c).after 7 t) = _
  rw [after5_7]
  unfold out5_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts5 t
  funext j
  obtain ⟨p, q, rfl⟩ : ∃ (p : Fin 5000) (q : Fin 64), j = ix2 p q := ⟨j 0, j 1, eq_ix2 j⟩
  refine (Bodies.message_apply (iblk5 V c 0 t) (iblk5 V c 1 t) (iblk5 V c 2 t) (iblk5 V c 3 t) (iblk5 V c 4 t) (iblk5 V c 5 t) (iblk5 V c 6 t) p q).trans ?_
  show _ = msgArr (V c main_v68) (V c main_v69) (V c main_v78) (V c main_v79) (V c main_v80) (V c main_v75) (V c main_v81) (((cfg5.win 7).blk t).view.emb (ix2 p q))
  have hx : ∀ k : Fin 64, iblk5 V c 0 t (ix2 p k) = V c main_v68 (ix2 ((((cfg5.win 7).blk t).view.emb (ix2 p q)) 0) k) := fun k => by
    show V c main_v68 (((cfg5.win 0).blk t).view.emb (ix2 p k)) = _
    refine congrArg (V c main_v68) (funext fun a => Fin.ext ?_)
    match a with
    | ⟨0, _⟩ => show win5_0.index t (0 : Fin 2) * 5000 + 1 * p.val = win5_7.index t (0 : Fin 2) * 5000 + 1 * p.val; omega
    | ⟨1, _⟩ => show win5_0.index t (1 : Fin 2) * 64 + 1 * k.val = k.val; omega
  have hy : ∀ k : Fin 64, iblk5 V c 1 t (ix2 p k) = V c main_v69 (ix2 ((((cfg5.win 7).blk t).view.emb (ix2 p q)) 0) k) := fun k => by
    show V c main_v69 (((cfg5.win 1).blk t).view.emb (ix2 p k)) = _
    refine congrArg (V c main_v69) (funext fun a => Fin.ext ?_)
    match a with
    | ⟨0, _⟩ => show win5_1.index t (0 : Fin 2) * 5000 + 1 * p.val = win5_7.index t (0 : Fin 2) * 5000 + 1 * p.val; omega
    | ⟨1, _⟩ => show win5_1.index t (1 : Fin 2) * 64 + 1 * k.val = k.val; omega
  have hwa : ∀ (k j : Fin 64), iblk5 V c 2 t (ix2 k j) = V c main_v78 (ix2 k j) := fun k j => by
    show V c main_v78 (((cfg5.win 2).blk t).view.emb (ix2 k j)) = _
    refine congrArg (V c main_v78) (funext fun a => Fin.ext ?_)
    match a with
    | ⟨0, _⟩ => show win5_2.index t (0 : Fin 2) * 64 + 1 * k.val = k.val; omega
    | ⟨1, _⟩ => show win5_2.index t (1 : Fin 2) * 64 + 1 * j.val = j.val; omega
  have hwb : ∀ (k j : Fin 64), iblk5 V c 3 t (ix2 k j) = V c main_v79 (ix2 k j) := fun k j => by
    show V c main_v79 (((cfg5.win 3).blk t).view.emb (ix2 k j)) = _
    refine congrArg (V c main_v79) (funext fun a => Fin.ext ?_)
    match a with
    | ⟨0, _⟩ => show win5_3.index t (0 : Fin 2) * 64 + 1 * k.val = k.val; omega
    | ⟨1, _⟩ => show win5_3.index t (1 : Fin 2) * 64 + 1 * j.val = j.val; omega
  have hb1 : ∀ j : Fin 64, iblk5 V c 4 t (ix2 0 j) = V c main_v80 (ix2 0 j) := fun j => by
    show V c main_v80 (((cfg5.win 4).blk t).view.emb (ix2 0 j)) = _
    refine congrArg (V c main_v80) (funext fun a => Fin.ext ?_)
    match a with
    | ⟨0, _⟩ => show win5_4.index t (0 : Fin 2) * 1 + 1 * 0 = 0; omega
    | ⟨1, _⟩ => show win5_4.index t (1 : Fin 2) * 64 + 1 * j.val = j.val; omega
  have hw2 : ∀ j : Fin 64, iblk5 V c 5 t (ix2 j q) = V c main_v75 (ix2 j ((((cfg5.win 7).blk t).view.emb (ix2 p q)) 1)) := fun j => by
    show V c main_v75 (((cfg5.win 5).blk t).view.emb (ix2 j q)) = _
    refine congrArg (V c main_v75) (funext fun a => Fin.ext ?_)
    match a with
    | ⟨0, _⟩ => show win5_5.index t (0 : Fin 2) * 64 + 1 * j.val = j.val; omega
    | ⟨1, _⟩ => show win5_5.index t (1 : Fin 2) * 64 + 1 * q.val = win5_7.index t (1 : Fin 2) * 64 + 1 * q.val; omega
  have hb2 : iblk5 V c 6 t (ix2 0 q) = V c main_v81 (ix2 0 ((((cfg5.win 7).blk t).view.emb (ix2 p q)) 1)) := by
    show V c main_v81 (((cfg5.win 6).blk t).view.emb (ix2 0 q)) = _
    refine congrArg (V c main_v81) (funext fun a => Fin.ext ?_)
    match a with
    | ⟨0, _⟩ => show win5_6.index t (0 : Fin 2) * 1 + 1 * 0 = 0; omega
    | ⟨1, _⟩ => show win5_6.index t (1 : Fin 2) * 64 + 1 * q.val = win5_7.index t (1 : Fin 2) * 64 + 1 * q.val; omega
  simp only [msgArr, Gnn.mlp2, Gnn.affine, Gnn.hidden, hx, hy, hwa, hwb, hb1, hw2, hb2]

/-- An index of the result array is in point t's block iff each coordinate is in the block's range. -/
theorem mem_blk5 (t : Fin cfg5.N) (i : S800000x64.Idx) :
    i ∈ ((cfg5.win 7).blk t).view.set ↔ ∀ a : Fin 2, win5_7.index t a * S5000x64.size a ≤ (i a).val
      ∧ (i a).val < win5_7.index t a * S5000x64.size a + S5000x64.size a := by
  show i ∈ ((View.whole main_v82).slice (win5_7.rect t)).set ↔ _
  rw [View.set_slice_whole, Rect.mem_set_unit]
  exact Iff.rfl

/-- The row blocks tile the result array: row r is in the block of the point whose block index is r / 5000. -/
theorem cover5 (i : S800000x64.Idx) :
    ∃ t : Fin cfg5.N, (cfg5.win 7).flush t = true ∧ i ∈ ((cfg5.win 7).blk t).view.set := by
  have hi0 : (i 0).val < 800000 := (i 0).isLt
  have hi1 : (i 1).val < 64 := (i 1).isLt
  obtain ⟨t, ht⟩ := idx_onto5 ⟨(i 0).val / 5000, by omega⟩
  have q0 : win5_7.index t (0 : Fin 2) = (i 0).val / 5000 := congrFun ht 0
  have q1 : win5_7.index t (1 : Fin 2) = 0 := congrFun ht 1
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 64 ≤ (i 1).val ∧ (i 1).val < win5_7.index t (1 : Fin 2) * 64 + 64; omega

/-- The result array after the stage. -/
theorem final5 (c : Dev nD) :
    (dat5 V c).arrAt 7 cfg5.N = msgArr (V c main_v68) (V c main_v69) (V c main_v78) (V c main_v79) (V c main_v80) (V c main_v75) (V c main_v81) :=
  (dat5 V c).arrAt_eq_of_cover 7 _ (fun t _ => flushed5_eq V c t) cover5

end Cert.KernelIdeal.Regions

end
-- ==== Proof.Region6.lean ====
/-
  The update stage's array. The grid has ten points; point t reads rows 5000·t … 5000·t + 4999 of the node features
  and of the aggregated messages, the whole weights and bias rows, and writes the same rows of the result. Entry
  (r, q) of the result array is the two-input perceptron of row r of the two operands, followed by max(·, 0): the
  blocks are restrictions of one whole-array function, and they tile the array.
-/
import proofs.«126528_j60619168416173_1_alg».proof.Proof.Gen.KernelIdeal.Frame
import proofs.«126528_j60619168416173_1_alg».proof.Proof.KernelBodies
import proofs.«126528_j60619168416173_1_alg».proof.Proof.RegionCommon
import proofs.«126528_j60619168416173_1_alg».proof.Proof.StageArrays

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The printed index maps over the grid: the two row-indexed operands and the result move together along the rows,
    the weights and bias rows stay. -/
theorem idx_facts6 : ∀ t : Fin cfg6.N, win6_0.index t (0 : Fin 2) = win6_7.index t (0 : Fin 2) ∧ win6_0.index t (1 : Fin 2) = 0
    ∧ win6_1.index t (0 : Fin 2) = win6_7.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (1 : Fin 2) = 0 ∧ win6_7.index t (0 : Fin 2) ≤ 9 :=
  (by decide +kernel : ∀ t : Fin grid6.N, _)

/-- Every row block of the result is some point's. -/
theorem idx_onto6 : ∀ q0 : Fin 10, ∃ t : Fin cfg6.N, win6_7.index t = ![q0.val, 0] :=
  (by decide +kernel : ∀ q0 : Fin 10, ∃ t : Fin grid6.N, win6_7.index t = ![q0.val, 0])

set_option maxHeartbeats 2000000 in
/-- What point t writes back is block t of the whole-array function of the arrays the stage finds. -/
theorem flushed6_eq (c : Dev nD) (t : Fin cfg6.N) :
    (dat6 V c).flushed 7 t = ((cfg6.win 7).blk t).view.read (Elt Ideal)
      (updArr (V c main_v67) (V c main_v85) (V c main_v94) (V c main_v95) (V c main_v96) (V c main_v91) (V c main_v97)) := by
  show (cfg6.win 7).cut (grid6.coords t) ((dat6 V c).after 7 t) = _
  rw [after6_7]
  unfold out6_7
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1, g0, g1, o1, o0⟩ := idx_facts6 t
  funext j
  obtain ⟨p, q, rfl⟩ : ∃ (p : Fin 5000) (q : Fin 64), j = ix2 p q := ⟨j 0, j 1, eq_ix2 j⟩
  refine (Bodies.update_apply (iblk6 V c 0 t) (iblk6 V c 1 t) (iblk6 V c 2 t) (iblk6 V c 3 t) (iblk6 V c 4 t) (iblk6 V c 5 t) (iblk6 V c 6 t) p q).trans ?_
  show _ = updArr (V c main_v67) (V c main_v85) (V c main_v94) (V c main_v95) (V c main_v96) (V c main_v91) (V c main_v97) (((cfg6.win 7).blk t).view.emb (ix2 p q))
  have hx : ∀ k : Fin 64, iblk6 V c 0 t (ix2 p k) = V c main_v67 (ix2 ((((cfg6.win 7).blk t).view.emb (ix2 p q)) 0) k) := fun k => by
    show V c main_v67 (((cfg6.win 0).blk t).view.emb (ix2 p k)) = _
    refine congrArg (V c main_v67) (funext fun a => Fin.ext ?_)
    match a with
    | ⟨0, _⟩ => show win6_0.index t (0 : Fin 2) * 5000 + 1 * p.val = win6_7.index t (0 : Fin 2) * 5000 + 1 * p.val; omega
    | ⟨1, _⟩ => show win6_0.index t (1 : Fin 2) * 64 + 1 * k.val = k.val; omega
  have hy : ∀ k : Fin 64, iblk6 V c 1 t (ix2 p k) = V c main_v85 (ix2 ((((cfg6.win 7).blk t).view.emb (ix2 p q)) 0) k) := fun k => by
    show V c main_v85 (((cfg6.win 1).blk t).view.emb (ix2 p k)) = _
    refine congrArg (V c main_v85) (funext fun a => Fin.ext ?_)
    match a with
    | ⟨0, _⟩ => show win6_1.index t (0 : Fin 2) * 5000 + 1 * p.val = win6_7.index t (0 : Fin 2) * 5000 + 1 * p.val; omega
    | ⟨1, _⟩ => show win6_1.index t (1 : Fin 2) * 64 + 1 * k.val = k.val; omega
  have hwa : ∀ (k j : Fin 64), iblk6 V c 2 t (ix2 k j) = V c main_v94 (ix2 k j) := fun k j => by
    show V c main_v94 (((cfg6.win 2).blk t).view.emb (ix2 k j)) = _
    refine congrArg (V c main_v94) (funext fun a => Fin.ext ?_)
    match a with
    | ⟨0, _⟩ => show win6_2.index t (0 : Fin 2) * 64 + 1 * k.val = k.val; omega
    | ⟨1, _⟩ => show win6_2.index t (1 : Fin 2) * 64 + 1 * j.val = j.val; omega
  have hwb : ∀ (k j : Fin 64), iblk6 V c 3 t (ix2 k j) = V c main_v95 (ix2 k j) := fun k j => by
    show V c main_v95 (((cfg6.win 3).blk t).view.emb (ix2 k j)) = _
    refine congrArg (V c main_v95) (funext fun a => Fin.ext ?_)
    match a with
    | ⟨0, _⟩ => show win6_3.index t (0 : Fin 2) * 64 + 1 * k.val = k.val; omega
    | ⟨1, _⟩ => show win6_3.index t (1 : Fin 2) * 64 + 1 * j.val = j.val; omega
  have hb1 : ∀ j : Fin 64, iblk6 V c 4 t (ix2 0 j) = V c main_v96 (ix2 0 j) := fun j => by
    show V c main_v96 (((cfg6.win 4).blk t).view.emb (ix2 0 j)) = _
    refine congrArg (V c main_v96) (funext fun a => Fin.ext ?_)
    match a with
    | ⟨0, _⟩ => show win6_4.index t (0 : Fin 2) * 1 + 1 * 0 = 0; omega
    | ⟨1, _⟩ => show win6_4.index t (1 : Fin 2) * 64 + 1 * j.val = j.val; omega
  have hw2 : ∀ j : Fin 64, iblk6 V c 5 t (ix2 j q) = V c main_v91 (ix2 j ((((cfg6.win 7).blk t).view.emb (ix2 p q)) 1)) := fun j => by
    show V c main_v91 (((cfg6.win 5).blk t).view.emb (ix2 j q)) = _
    refine congrArg (V c main_v91) (funext fun a => Fin.ext ?_)
    match a with
    | ⟨0, _⟩ => show win6_5.index t (0 : Fin 2) * 64 + 1 * j.val = j.val; omega
    | ⟨1, _⟩ => show win6_5.index t (1 : Fin 2) * 64 + 1 * q.val = win6_7.index t (1 : Fin 2) * 64 + 1 * q.val; omega
  have hb2 : iblk6 V c 6 t (ix2 0 q) = V c main_v97 (ix2 0 ((((cfg6.win 7).blk t).view.emb (ix2 p q)) 1)) := by
    show V c main_v97 (((cfg6.win 6).blk t).view.emb (ix2 0 q)) = _
    refine congrArg (V c main_v97) (funext fun a => Fin.ext ?_)
    match a with
    | ⟨0, _⟩ => show win6_6.index t (0 : Fin 2) * 1 + 1 * 0 = 0; omega
    | ⟨1, _⟩ => show win6_6.index t (1 : Fin 2) * 64 + 1 * q.val = win6_7.index t (1 : Fin 2) * 64 + 1 * q.val; omega
  simp only [updArr, Gnn.mlp2r, Gnn.mlp2, Gnn.affine, Gnn.hidden, hx, hy, hwa, hwb, hb1, hw2, hb2]

/-- An index of the result array is in point t's block iff each coordinate is in the block's range. -/
theorem mem_blk6 (t : Fin cfg6.N) (i : S50000x64.Idx) :
    i ∈ ((cfg6.win 7).blk t).view.set ↔ ∀ a : Fin 2, win6_7.index t a * S5000x64.size a ≤ (i a).val
      ∧ (i a).val < win6_7.index t a * S5000x64.size a + S5000x64.size a := by
  show i ∈ ((View.whole main_v98).slice (win6_7.rect t)).set ↔ _
  rw [View.set_slice_whole, Rect.mem_set_unit]
  exact Iff.rfl

/-- The row blocks tile the result array: row r is in the block of the point whose block index is r / 5000. -/
theorem cover6 (i : S50000x64.Idx) :
    ∃ t : Fin cfg6.N, (cfg6.win 7).flush t = true ∧ i ∈ ((cfg6.win 7).blk t).view.set := by
  have hi0 : (i 0).val < 50000 := (i 0).isLt
  have hi1 : (i 1).val < 64 := (i 1).isLt
  obtain ⟨t, ht⟩ := idx_onto6 ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 64 ≤ (i 1).val ∧ (i 1).val < win6_7.index t (1 : Fin 2) * 64 + 64; omega

/-- The result array after the stage. -/
theorem final6 (c : Dev nD) :
    (dat6 V c).arrAt 7 cfg6.N = updArr (V c main_v67) (V c main_v85) (V c main_v94) (V c main_v95) (V c main_v96) (V c main_v91) (V c main_v97) :=
  (dat6 V c).arrAt_eq_of_cover 7 _ (fun t _ => flushed6_eq V c t) cover6

end Cert.KernelIdeal.Regions

end
-- ==== Proof.StageInputs2.lean ====
/-
  Layer 2's two dense stages take arrays that the host operations before them prepare: for the message stage the
  guarded gathers of the node features at the two rows of the edge list, the two halves of the layer's slice of the
  stacked first weight, the slice of the second weight and the two biases as one-row matrices; for the update stage
  the node features, the scatter-add of the messages, and the update weights cut the same way. From any contents V
  of the buffers, each stretch of host operations leaves in each of these buffers the named function of what V
  holds in the buffers it reads, and leaves alone the buffers it does not write.
-/
import proofs.«126528_j60619168416173_1_alg».proof.Proof.Gen.KernelIdeal.Launch
import proofs.«126528_j60619168416173_1_alg».proof.Proof.RefNet
import proofs.«126528_j60619168416173_1_alg».proof.Proof.LibTypedRef
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (V : Valuation τ sig (Elt Ideal))

/-! A buffer named by a literal reference has the contents type the reference states, so reading its contents at that
    type, or storing a value of that type into it, is the identity. -/
theorem read_main_v1_l2 (p1 p2 p3) : (StableHlo.TRef.of (sig := sig) (T := ⟨S800000, .i32⟩) main_v1 p1 p2 p3).ofBuf (V (Proc.devRef .tc main_v1)) = V (Proc.devRef .tc main_v1) := rfl
theorem read_main_v3_l2 (p1 p2 p3) : (StableHlo.TRef.of (sig := sig) (T := ⟨S800000, .i32⟩) main_v3 p1 p2 p3).ofBuf (V (Proc.devRef .tc main_v3)) = V (Proc.devRef .tc main_v3) := rfl
theorem read_h_l2 (p1 p2 p3) : (StableHlo.TRef.of (sig := sig) (T := ⟨S50000x64, .f32⟩) main_v67 p1 p2 p3).ofBuf (V (Proc.devRef .tc main_v67)) = V (Proc.devRef .tc main_v67) := rfl
theorem store_row_l2 (p1 p2 p3) (v : (⟨S800000x64, .f32⟩ : BufTy).Contents (Elt Ideal)) : (StableHlo.TRef.of (sig := sig) (T := ⟨S800000x64, .f32⟩) main_v68 p1 p2 p3).toBuf v = v := rfl
theorem store_col_l2 (p1 p2 p3) (v : (⟨S800000x64, .f32⟩ : BufTy).Contents (Elt Ideal)) : (StableHlo.TRef.of (sig := sig) (T := ⟨S800000x64, .f32⟩) main_v69 p1 p2 p3).toBuf v = v := rfl

/-- The first guarded gather: the node features at the first row of the edge list. -/
theorem takeRow_l2 : StableHlo.after hostOps5 V (Proc.devRef .tc main_v68)
    = Cert.IdxRange.kerTake (V (Proc.devRef .tc main_v67)) (V (Proc.devRef .tc main_v1)) := by
  after_results_simp
  simp only [StableHlo.TRef.ofBuf_toBuf, read_main_v1_l2, read_h_l2, store_row_l2]
  rfl

/-- The second guarded gather: the node features at the second row of the edge list. -/
theorem takeCol_l2 : StableHlo.after hostOps5_1 V (Proc.devRef .tc main_v69)
    = Cert.IdxRange.kerTake (V (Proc.devRef .tc main_v67)) (V (Proc.devRef .tc main_v3)) := by
  after_results_simp
  simp only [StableHlo.TRef.ofBuf_toBuf, read_main_v3_l2, read_h_l2, store_col_l2]
  rfl

/-! The first gather's operations write neither the node features, nor the second row of the edge list, nor the weights. -/
theorem keepA_main_v67_l2 : StableHlo.after hostOps5 V (Proc.devRef .tc main_v67) = V (Proc.devRef .tc main_v67) := by
  after_results
theorem keepA_main_v3_l2 : StableHlo.after hostOps5 V (Proc.devRef .tc main_v3) = V (Proc.devRef .tc main_v3) := by
  after_results
theorem keepA_main_arg4_l2 : StableHlo.after hostOps5 V (Proc.devRef .tc main_arg4) = V (Proc.devRef .tc main_arg4) := by
  after_results
theorem keepA_main_arg5_l2 : StableHlo.after hostOps5 V (Proc.devRef .tc main_arg5) = V (Proc.devRef .tc main_arg5) := by
  after_results
theorem keepA_main_arg6_l2 : StableHlo.after hostOps5 V (Proc.devRef .tc main_arg6) = V (Proc.devRef .tc main_arg6) := by
  after_results
theorem keepA_main_arg7_l2 : StableHlo.after hostOps5 V (Proc.devRef .tc main_arg7) = V (Proc.devRef .tc main_arg7) := by
  after_results

/-! The second gather's operations write neither the node features, nor the first gather's result, nor the weights. -/
theorem keepB_main_v67_l2 : StableHlo.after hostOps5_1 V (Proc.devRef .tc main_v67) = V (Proc.devRef .tc main_v67) := by
  after_results
theorem keepB_main_v68_l2 : StableHlo.after hostOps5_1 V (Proc.devRef .tc main_v68) = V (Proc.devRef .tc main_v68) := by
  after_results
theorem keepB_main_arg4_l2 : StableHlo.after hostOps5_1 V (Proc.devRef .tc main_arg4) = V (Proc.devRef .tc main_arg4) := by
  after_results
theorem keepB_main_arg5_l2 : StableHlo.after hostOps5_1 V (Proc.devRef .tc main_arg5) = V (Proc.devRef .tc main_arg5) := by
  after_results
theorem keepB_main_arg6_l2 : StableHlo.after hostOps5_1 V (Proc.devRef .tc main_arg6) = V (Proc.devRef .tc main_arg6) := by
  after_results
theorem keepB_main_arg7_l2 : StableHlo.after hostOps5_1 V (Proc.devRef .tc main_arg7) = V (Proc.devRef .tc main_arg7) := by
  after_results

/-! The weight slicing writes neither the node features nor a gather's result. -/
theorem keepC_main_v67_l2 : StableHlo.after hostOps5_2 V (Proc.devRef .tc main_v67) = V (Proc.devRef .tc main_v67) := by
  after_results
theorem keepC_main_v68_l2 : StableHlo.after hostOps5_2 V (Proc.devRef .tc main_v68) = V (Proc.devRef .tc main_v68) := by
  after_results
theorem keepC_main_v69_l2 : StableHlo.after hostOps5_2 V (Proc.devRef .tc main_v69) = V (Proc.devRef .tc main_v69) := by
  after_results

/-- Rows 0 … 63 of the layer's slice of the stacked first message weight. -/
theorem wTop_l2 : StableHlo.after hostOps5_2 V (Proc.devRef .tc main_v78)
    = extractStridedSlice S64x64 ![0, 0] (Cert.ReferenceIdeal.Net.w128 ![2, 0, 0] Cert.ReferenceIdeal.Facts₀.slices_S3x128x64_S1x128x64_2_0_0 (V (Proc.devRef .tc main_arg4))) Cert.KernelIdeal.Facts₀.slices_S128x64_S64x64_0_0 := by
  after_results
  rfl

/-- Rows 64 … 127 of the layer's slice of the stacked first message weight. -/
theorem wBot_l2 : StableHlo.after hostOps5_2 V (Proc.devRef .tc main_v79)
    = extractStridedSlice S64x64 ![64, 0] (Cert.ReferenceIdeal.Net.w128 ![2, 0, 0] Cert.ReferenceIdeal.Facts₀.slices_S3x128x64_S1x128x64_2_0_0 (V (Proc.devRef .tc main_arg4))) Cert.KernelIdeal.Facts₀.slices_S128x64_S64x64_64_0 := by
  after_results
  rfl

/-- The layer's first message bias as a one-row matrix. -/
theorem b1_l2 : StableHlo.after hostOps5_2 V (Proc.devRef .tc main_v80)
    = shapeCast S1x64 (Cert.ReferenceIdeal.Net.b64 ![2, 0] Cert.ReferenceIdeal.Facts₀.slices_S3x64_S1x64_2_0 (V (Proc.devRef .tc main_arg5))) Cert.KernelIdeal.Facts₀.shapeCasts_S64_S1x64 := by
  after_results
  rfl

/-- The layer's slice of the stacked second message weight. -/
theorem w2_l2 : StableHlo.after hostOps5_2 V (Proc.devRef .tc main_v75)
    = Cert.ReferenceIdeal.Net.w64 ![2, 0, 0] Cert.ReferenceIdeal.Facts₀.slices_S3x64x64_S1x64x64_2_0_0 (V (Proc.devRef .tc main_arg6)) := by
  after_results
  rfl

/-- The layer's second message bias as a one-row matrix. -/
theorem b2_l2 : StableHlo.after hostOps5_2 V (Proc.devRef .tc main_v81)
    = shapeCast S1x64 (Cert.ReferenceIdeal.Net.b64 ![2, 0] Cert.ReferenceIdeal.Facts₀.slices_S3x64_S1x64_2_0 (V (Proc.devRef .tc main_arg7))) Cert.KernelIdeal.Facts₀.shapeCasts_S64_S1x64 := by
  after_results
  rfl

/-! The operations before the update stage do not write the node features. -/
theorem keepD_main_v67_l2 : StableHlo.after hostOps6 V (Proc.devRef .tc main_v67) = V (Proc.devRef .tc main_v67) := by
  after_results

/-- The messages scatter-added, from zero, into the rows the second row of the edge list names. -/
theorem aggD_l2 : StableHlo.after hostOps6 V (Proc.devRef .tc main_v85)
    = Cert.ReferenceIdeal.Net.agg (V (Proc.devRef .tc main_v3)) (V (Proc.devRef .tc main_v82)) := by
  after_results
  rfl

/-- Rows 0 … 63 of the layer's slice of the stacked first update weight. -/
theorem uTop_l2 : StableHlo.after hostOps6 V (Proc.devRef .tc main_v94)
    = extractStridedSlice S64x64 ![0, 0] (Cert.ReferenceIdeal.Net.w128 ![2, 0, 0] Cert.ReferenceIdeal.Facts₀.slices_S3x128x64_S1x128x64_2_0_0 (V (Proc.devRef .tc main_arg8))) Cert.KernelIdeal.Facts₀.slices_S128x64_S64x64_0_0 := by
  after_results
  rfl

/-- Rows 64 … 127 of the layer's slice of the stacked first update weight. -/
theorem uBot_l2 : StableHlo.after hostOps6 V (Proc.devRef .tc main_v95)
    = extractStridedSlice S64x64 ![64, 0] (Cert.ReferenceIdeal.Net.w128 ![2, 0, 0] Cert.ReferenceIdeal.Facts₀.slices_S3x128x64_S1x128x64_2_0_0 (V (Proc.devRef .tc main_arg8))) Cert.KernelIdeal.Facts₀.slices_S128x64_S64x64_64_0 := by
  after_results
  rfl

/-- The layer's first update bias as a one-row matrix. -/
theorem ub1_l2 : StableHlo.after hostOps6 V (Proc.devRef .tc main_v96)
    = shapeCast S1x64 (Cert.ReferenceIdeal.Net.b64 ![2, 0] Cert.ReferenceIdeal.Facts₀.slices_S3x64_S1x64_2_0 (V (Proc.devRef .tc main_arg9))) Cert.KernelIdeal.Facts₀.shapeCasts_S64_S1x64 := by
  after_results
  rfl

/-- The layer's slice of the stacked second update weight. -/
theorem uw2_l2 : StableHlo.after hostOps6 V (Proc.devRef .tc main_v91)
    = Cert.ReferenceIdeal.Net.w64 ![2, 0, 0] Cert.ReferenceIdeal.Facts₀.slices_S3x64x64_S1x64x64_2_0_0 (V (Proc.devRef .tc main_arg10)) := by
  after_results
  rfl

/-- The layer's second update bias as a one-row matrix. -/
theorem ub2_l2 : StableHlo.after hostOps6 V (Proc.devRef .tc main_v97)
    = shapeCast S1x64 (Cert.ReferenceIdeal.Net.b64 ![2, 0] Cert.ReferenceIdeal.Facts₀.slices_S3x64_S1x64_2_0 (V (Proc.devRef .tc main_arg11))) Cert.KernelIdeal.Facts₀.shapeCasts_S64_S1x64 := by
  after_results
  rfl

end Cert.Fold

end
-- ==== Proof.Layer2.lean ====
/-
  Layer 2 of the message passing, kernel against reference. Whatever node features h the layer starts from:
  the message stage's result array is the reference's message perceptron of the gathered rows of h (the indices are in
  range, so the kernel's guarded gather never fills and is the reference's gather), the scatter-add that follows is the
  reference's, and the update stage's result array is the reference's update perceptron of h and the aggregate.
-/
import proofs.«126528_j60619168416173_1_alg».proof.Proof.Gen.KernelIdeal.Frame
import proofs.«126528_j60619168416173_1_alg».proof.Proof.Region5
import proofs.«126528_j60619168416173_1_alg».proof.Proof.Region6
import proofs.«126528_j60619168416173_1_alg».proof.Proof.LayerEq
import proofs.«126528_j60619168416173_1_alg».proof.Proof.RefNet
import proofs.«126528_j60619168416173_1_alg».proof.Proof.PassA
import proofs.«126528_j60619168416173_1_alg».proof.Proof.PassB
import proofs.«126528_j60619168416173_1_alg».proof.Proof.StageInputs2
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

/-- The messages. -/
theorem msg_l2 (hR : Cert.IdxRange.InRange (m ((c : Thread nD τ).loc main_arg1))) (h : FVec Ideal Cert.ReferenceIdeal.S50000x64 .f32) (hh : W14 m ρ c (Proc.devRef .tc main_v67) = h) :
    W18 m ρ c (Proc.devRef .tc main_v82)
      = Cert.ReferenceIdeal.Layers.refMsg (Cert.IdxRange.refTake h (Cert.ReferenceIdeal.Net.row (m ((c : Thread nD τ).loc main_arg1)))) (Cert.IdxRange.refTake h (Cert.ReferenceIdeal.Net.col (m ((c : Thread nD τ).loc main_arg1)))) (Cert.ReferenceIdeal.Net.w128 ![2, 0, 0] Cert.ReferenceIdeal.Facts₀.slices_S3x128x64_S1x128x64_2_0_0 (m ((c : Thread nD τ).loc main_arg4))) (Cert.ReferenceIdeal.Net.b64 ![2, 0] Cert.ReferenceIdeal.Facts₀.slices_S3x64_S1x64_2_0 (m ((c : Thread nD τ).loc main_arg5))) (Cert.ReferenceIdeal.Net.w64 ![2, 0, 0] Cert.ReferenceIdeal.Facts₀.slices_S3x64x64_S1x64x64_2_0_0 (m ((c : Thread nD τ).loc main_arg6))) (Cert.ReferenceIdeal.Net.b64 ![2, 0] Cert.ReferenceIdeal.Facts₀.slices_S3x64_S1x64_2_0 (m ((c : Thread nD τ).loc main_arg7))) := by
  have hrow : Cert.IdxRange.InRange (Cert.ReferenceIdeal.Net.row (m ((c : Thread nD τ).loc main_arg1))) := Cert.IdxRange.inRange_edge_row _ hR ![0, 0] Cert.ReferenceIdeal.Facts₀.slices_S2x800000_S1x800000_0_0 Cert.ReferenceIdeal.Facts₀.shapeCasts_S1x800000_S800000
  have hcol : Cert.IdxRange.InRange (Cert.ReferenceIdeal.Net.col (m ((c : Thread nD τ).loc main_arg1))) := Cert.IdxRange.inRange_edge_row _ hR ![1, 0] Cert.ReferenceIdeal.Facts₀.slices_S2x800000_S1x800000_1_0 Cert.ReferenceIdeal.Facts₀.shapeCasts_S1x800000_S800000
  refine Eq.trans (W18_arr m ρ c 7) ?_
  rw [Cert.KernelIdeal.Regions.final5]
  show Cert.KernelIdeal.Regions.msgArr ((StableHlo.after hostOps5_2 (StableHlo.after hostOps5_1 (StableHlo.after hostOps5 (W14 m ρ c)))) (Proc.devRef .tc main_v68))
      ((StableHlo.after hostOps5_2 (StableHlo.after hostOps5_1 (StableHlo.after hostOps5 (W14 m ρ c)))) (Proc.devRef .tc main_v69))
      ((StableHlo.after hostOps5_2 (StableHlo.after hostOps5_1 (StableHlo.after hostOps5 (W14 m ρ c)))) (Proc.devRef .tc main_v78))
      ((StableHlo.after hostOps5_2 (StableHlo.after hostOps5_1 (StableHlo.after hostOps5 (W14 m ρ c)))) (Proc.devRef .tc main_v79))
      ((StableHlo.after hostOps5_2 (StableHlo.after hostOps5_1 (StableHlo.after hostOps5 (W14 m ρ c)))) (Proc.devRef .tc main_v80))
      ((StableHlo.after hostOps5_2 (StableHlo.after hostOps5_1 (StableHlo.after hostOps5 (W14 m ρ c)))) (Proc.devRef .tc main_v75))
      ((StableHlo.after hostOps5_2 (StableHlo.after hostOps5_1 (StableHlo.after hostOps5 (W14 m ρ c)))) (Proc.devRef .tc main_v81)) = _
  rw [keepC_main_v68_l2, keepB_main_v68_l2, takeRow_l2, keepC_main_v69_l2, takeCol_l2, keepA_main_v67_l2, keepA_main_v3_l2,
    wTop_l2, wBot_l2, b1_l2, w2_l2, b2_l2,
    keepB_main_arg4_l2, keepB_main_arg5_l2, keepB_main_arg6_l2, keepB_main_arg7_l2,
    keepA_main_arg4_l2, keepA_main_arg5_l2, keepA_main_arg6_l2, keepA_main_arg7_l2,
    hh, W14_main_v1 m ρ c, W14_main_v3 m ρ c, W14_main_arg4 m ρ c, W14_main_arg5 m ρ c, W14_main_arg6 m ρ c, W14_main_arg7 m ρ c]
  rw [Cert.IdxRange.kerTake_eq_refTake _ _ hrow, Cert.IdxRange.kerTake_eq_refTake _ _ hcol]
  exact Cert.LayerEq.msg_eq _ _ _ _ _ _ _ _ _ _

/-- The update, with the aggregate of any messages M the message stage left. -/
theorem upd_l2 (h : FVec Ideal Cert.ReferenceIdeal.S50000x64 .f32) (hh : W14 m ρ c (Proc.devRef .tc main_v67) = h) (M : FVec Ideal Cert.ReferenceIdeal.S800000x64 .f32)
    (hM : W18 m ρ c (Proc.devRef .tc main_v82) = M) :
    W20 m ρ c (Proc.devRef .tc main_v98)
      = Cert.ReferenceIdeal.Layers.refUpd h (Cert.ReferenceIdeal.Net.agg (Cert.ReferenceIdeal.Net.col (m ((c : Thread nD τ).loc main_arg1))) M) (Cert.ReferenceIdeal.Net.w128 ![2, 0, 0] Cert.ReferenceIdeal.Facts₀.slices_S3x128x64_S1x128x64_2_0_0 (m ((c : Thread nD τ).loc main_arg8))) (Cert.ReferenceIdeal.Net.b64 ![2, 0] Cert.ReferenceIdeal.Facts₀.slices_S3x64_S1x64_2_0 (m ((c : Thread nD τ).loc main_arg9))) (Cert.ReferenceIdeal.Net.w64 ![2, 0, 0] Cert.ReferenceIdeal.Facts₀.slices_S3x64x64_S1x64x64_2_0_0 (m ((c : Thread nD τ).loc main_arg10))) (Cert.ReferenceIdeal.Net.b64 ![2, 0] Cert.ReferenceIdeal.Facts₀.slices_S3x64_S1x64_2_0 (m ((c : Thread nD τ).loc main_arg11))) := by
  have hh' : W18 m ρ c (Proc.devRef .tc main_v67) = h := by
    rw [W18_of_ne m ρ c main_v67 (by decide)]
    show (StableHlo.after hostOps5_2 (StableHlo.after hostOps5_1 (StableHlo.after hostOps5 (W14 m ρ c)))) (Proc.devRef .tc main_v67) = _
    rw [keepC_main_v67_l2, keepB_main_v67_l2, keepA_main_v67_l2]
    exact hh
  refine Eq.trans (W20_arr m ρ c 7) ?_
  rw [Cert.KernelIdeal.Regions.final6]
  show Cert.KernelIdeal.Regions.updArr ((StableHlo.after hostOps6 (W18 m ρ c)) (Proc.devRef .tc main_v67))
      ((StableHlo.after hostOps6 (W18 m ρ c)) (Proc.devRef .tc main_v85))
      ((StableHlo.after hostOps6 (W18 m ρ c)) (Proc.devRef .tc main_v94))
      ((StableHlo.after hostOps6 (W18 m ρ c)) (Proc.devRef .tc main_v95))
      ((StableHlo.after hostOps6 (W18 m ρ c)) (Proc.devRef .tc main_v96))
      ((StableHlo.after hostOps6 (W18 m ρ c)) (Proc.devRef .tc main_v91))
      ((StableHlo.after hostOps6 (W18 m ρ c)) (Proc.devRef .tc main_v97)) = _
  rw [keepD_main_v67_l2, aggD_l2, uTop_l2, uBot_l2, ub1_l2, uw2_l2, ub2_l2,
    hh', hM, W18_main_v3 m ρ c, W18_main_arg8 m ρ c, W18_main_arg9 m ρ c, W18_main_arg10 m ρ c, W18_main_arg11 m ρ c]
  exact Cert.LayerEq.upd_eq _ _ _ _ _ _ _ _ _ _

/-- The layer. -/
theorem layer_l2 (hR : Cert.IdxRange.InRange (m ((c : Thread nD τ).loc main_arg1))) (h : FVec Ideal Cert.ReferenceIdeal.S50000x64 .f32) (hh : W14 m ρ c (Proc.devRef .tc main_v67) = h) :
    W20 m ρ c (Proc.devRef .tc main_v98)
      = Cert.ReferenceIdeal.Net.layer h (Cert.ReferenceIdeal.Net.row (m ((c : Thread nD τ).loc main_arg1))) (Cert.ReferenceIdeal.Net.col (m ((c : Thread nD τ).loc main_arg1))) (Cert.ReferenceIdeal.Net.w128 ![2, 0, 0] Cert.ReferenceIdeal.Facts₀.slices_S3x128x64_S1x128x64_2_0_0 (m ((c : Thread nD τ).loc main_arg4))) (Cert.ReferenceIdeal.Net.b64 ![2, 0] Cert.ReferenceIdeal.Facts₀.slices_S3x64_S1x64_2_0 (m ((c : Thread nD τ).loc main_arg5))) (Cert.ReferenceIdeal.Net.w64 ![2, 0, 0] Cert.ReferenceIdeal.Facts₀.slices_S3x64x64_S1x64x64_2_0_0 (m ((c : Thread nD τ).loc main_arg6))) (Cert.ReferenceIdeal.Net.b64 ![2, 0] Cert.ReferenceIdeal.Facts₀.slices_S3x64_S1x64_2_0 (m ((c : Thread nD τ).loc main_arg7))) (Cert.ReferenceIdeal.Net.w128 ![2, 0, 0] Cert.ReferenceIdeal.Facts₀.slices_S3x128x64_S1x128x64_2_0_0 (m ((c : Thread nD τ).loc main_arg8))) (Cert.ReferenceIdeal.Net.b64 ![2, 0] Cert.ReferenceIdeal.Facts₀.slices_S3x64_S1x64_2_0 (m ((c : Thread nD τ).loc main_arg9))) (Cert.ReferenceIdeal.Net.w64 ![2, 0, 0] Cert.ReferenceIdeal.Facts₀.slices_S3x64x64_S1x64x64_2_0_0 (m ((c : Thread nD τ).loc main_arg10))) (Cert.ReferenceIdeal.Net.b64 ![2, 0] Cert.ReferenceIdeal.Facts₀.slices_S3x64_S1x64_2_0 (m ((c : Thread nD τ).loc main_arg11))) :=
  upd_l2 m ρ c h hh _ (msg_l2 m ρ c hR h hh)

end Cert.Fold

end
-- ==== Proof.Result.lean ====
/-
  The idealized kernel's result array, at the contents the program's segments leave, is the reference's network of the
  arguments whenever every entry of the edge list is a node index: the input projection, three layers each started
  from the previous layer's node features, and the output projection.
-/
import proofs.«126528_j60619168416173_1_alg».proof.Proof.Gen.KernelIdeal.Frame
import proofs.«126528_j60619168416173_1_alg».proof.Proof.Region7
import proofs.«126528_j60619168416173_1_alg».proof.Proof.LayerEq
import proofs.«126528_j60619168416173_1_alg».proof.Proof.RefNet
import proofs.«126528_j60619168416173_1_alg».proof.Proof.PassC
import proofs.«126528_j60619168416173_1_alg».proof.Proof.Layer0
import proofs.«126528_j60619168416173_1_alg».proof.Proof.Layer1
import proofs.«126528_j60619168416173_1_alg».proof.Proof.Layer2
import Idealize.ShloMosaic.Lib.StableHlo.Run

set_option maxRecDepth 16384

noncomputable section

namespace Cert.Fold

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg) (c : Dev nD)

/-- The result array after the run of the segments. -/
theorem result (hR : Cert.IdxRange.InRange (m ((c : Thread nD τ).loc main_arg1))) :
    W22 m ρ c (Proc.devRef .tc main_v100) = Cert.ReferenceIdeal.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h0 := W2_h0 m ρ c
  have h1 := layer_l0 m ρ c hR _ h0
  have h2 := layer_l1 m ρ c hR _ h1
  have h3 := layer_l2 m ρ c hR _ h2
  refine Eq.trans (W22_arr m ρ c 3) ?_
  rw [Cert.KernelIdeal.Regions.final7]
  dsimp only [V21, W21]
  after_results
  rw [h3, W20_main_arg12 m ρ c, W20_main_arg13 m ρ c]
  exact Cert.LayerEq.out_eq _ _ _ _

end Cert.Fold

end
-- ==== Proof.lean ====
/-
  The certificate of a three-layer message-passing graph network on 50000 nodes and 800000 edges, hidden width 64:
  the kernel computes the input projection, each layer's message and update perceptrons and the output projection in
  dense stages on blocks of 5000 rows (matrix products into a zero accumulator, the stacked first-layer weight as its
  two halves), and gathers rows with a guarded gather that fills out-of-range rows; the reference concatenates the
  gathered rows, contracts with the stacked weight, and gathers with clamping.

  Under the precondition — every float input finite and every entry of the edge list a node index — both idealized
  programs compute, on the extended reals, the same network of the arguments: an in-range index is neither filled nor
  clamped, a contraction over the concatenated axis is the sum of the two contractions, a change of float format is the
  identity, and the scatter-add and the weight slices are the same operations on both sides. Finiteness is not used:
  the law joining the two sides only regroups a sum.

  The three frames are the programs' runs with the results forgotten; the ideal pass rewrote nothing, so the kernel's
  idealization is the program's own text and there is nothing to preserve.
-/
import proofs.«126528_j60619168416173_1_alg».proof.Defs
import proofs.«126528_j60619168416173_1_alg».proof.Proof.Gen.Kernel
import proofs.«126528_j60619168416173_1_alg».proof.Proof.Gen.Kernel.Frame
import proofs.«126528_j60619168416173_1_alg».proof.Proof.Gen.KernelIdeal
import proofs.«126528_j60619168416173_1_alg».proof.Proof.Gen.KernelIdeal.Frame
import proofs.«126528_j60619168416173_1_alg».proof.Proof.Gen.ReferenceIdeal
import proofs.«126528_j60619168416173_1_alg».proof.Proof.RefValue
import proofs.«126528_j60619168416173_1_alg».proof.Proof.Gen.Pre_finite_inputs
import proofs.«126528_j60619168416173_1_alg».proof.Proof.KernelRun
import proofs.«126528_j60619168416173_1_alg».proof.Proof.Result
import proofs.«126528_j60619168416173_1_alg».proof.Proof.IdxRange
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both idealized programs end with the reference's network of the arguments
    in their result arrays. -/
theorem algebraic : Cert.algebraic_KernelIdeal_ReferenceIdeal := by
  intro m ρ m' ρ' hpre hagree
  refine ⟨fun c => Cert.KernelIdeal.Gen.W22 m ρ c (Proc.devRef .tc Cert.KernelIdeal.main_v100),
    Cert.KernelIdeal.Result.run_result m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Fold.result m ρ c (Cert.IdxRange.range_of_pre m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
